-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v70)) (v1 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_v68) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_v86) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg9 : FVec F S128x10 .f32) (main_arg10 : FVec F S10 .f32) (main_v33 : IVec S_ 1) : IVec S_ 1 :=
  let main_v34 : FVec F S128x10 .f32 := Host.absf main_arg9
  let main_cst_12 : FVec F S_ .f32 := constant S_ .f32 0x7F800000#32
  let main_v35 : FVec F S128x10 .f32 := broadcastInDim S128x10 ![] bcast_S_S128x10 main_cst_12
  let main_v36 : IVec S128x10 1 := cmpf .olt main_v34 main_v35
  let main_c_13 : IVec S_ 1 := constantI S_ 1 1#1
  let main_v37 : IVec S_ 1 := (fun x v => Host.reduce IntOp.andi x v reducesTo_S128x10_S_d0_1 h_S_) main_v36 main_c_13
  let main_v38 : IVec S_ 1 := andi main_v33 main_v37
  let main_v39 : FVec F S10 .f32 := Host.absf main_arg10
  let main_cst_14 : FVec F S_ .f32 := constant S_ .f32 0x7F800000#32
  let main_v40 : FVec F S10 .f32 := broadcastInDim S10 ![] bcast_S_S10 main_cst_14
  let main_v41 : IVec S10 1 := cmpf .olt main_v39 main_v40
  let main_c_15 : IVec S_ 1 := constantI S_ 1 1#1
  let main_v42 : IVec S_ 1 := (fun x v => Host.reduce IntOp.andi x v reducesTo_S10_S_d0 h_S_) main_v41 main_c_15
  let main_v43 : IVec S_ 1 := andi main_v38 main_v42
  main_v43

def fn_part1 {F : FTy → Type} [FloatOps F] (main_arg6 : FVec F S128 .f32) (main_arg7 : FVec F S128x128 .f32) (main_arg8 : FVec F S128 .f32) (main_arg9 : FVec F S128x10 .f32) (main_arg10 : FVec F S10 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_v33

def fn {F : FTy → Type} [FloatOps F] (main_arg0 : FVec F S100000x128 .f32) (main_arg1 : IVec S2x1600000 32) (main_arg2 : IVec S100000 32) (main_arg3 : FVec F S128x128 .f32) (main_arg4 : FVec F S128 .f32) (main_arg5 : FVec F S128 .f32) (main_arg6 : FVec F S128 .f32) (main_arg7 : FVec F S128x128 .f32) (main_arg8 : FVec F S128 .f32) (main_arg9 : FVec F S128x10 .f32) (main_arg10 : FVec F S10 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S5000x128 : Shape := ⟨2, ![5000, 128]⟩
abbrev S5000x1 : Shape := ⟨2, ![5000, 1]⟩
abbrev S1700000x128 : Shape := ⟨2, ![1700000, 128]⟩
abbrev S1x128 : Shape := ⟨2, ![1, 128]⟩
abbrev S512x128 : Shape := ⟨2, ![512, 128]⟩
abbrev S512 : Shape := ⟨1, ![512]⟩
abbrev S512x1 : Shape := ⟨2, ![512, 1]⟩
abbrev S1x10 : Shape := ⟨2, ![1, 10]⟩
abbrev S512x10 : Shape := ⟨2, ![512, 10]⟩

abbrev nBuf : Space → Nat
  | .hbm => 104
  | .vmem => 21
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x10, .f32⟩
  | .hbm, ⟨10, _⟩ => ⟨S10, .f32⟩
  | .hbm, ⟨11, _⟩ => ⟨S100000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S1x1600000, .i32⟩
  | .hbm, ⟨16, _⟩ => ⟨S1600000, .i32⟩
  | .hbm, ⟨17, _⟩ => ⟨S1700000, .i32⟩
  | .hbm, ⟨18, _⟩ => ⟨S_, .f32⟩
  | .hbm, ⟨19, _⟩ => ⟨S1700000, .f32⟩
  | .hbm, ⟨20, _⟩ => ⟨S_, .f32⟩
  | .hbm, ⟨21, _⟩ => ⟨S100000, .f32⟩
  | .hbm, ⟨22, _⟩ => ⟨S1700000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .i1⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S100000x1, .f32⟩
  | .hbm, ⟨33, _⟩ => ⟨S100000x128, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000x128, .f32⟩
  | .hbm, ⟨43, _⟩ => ⟨S_, .f32⟩
  | .hbm, ⟨44, _⟩ => ⟨S100000x128, .f32⟩
  | .hbm, ⟨45, _⟩ => ⟨S1700000x1, .i32⟩
  | .hbm, ⟨46, _⟩ => ⟨S100000x128, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S128, .f32⟩
  | .hbm, ⟨51, _⟩ => ⟨S128, .f32⟩
  | .hbm, ⟨52, _⟩ => ⟨S1x128, .f32⟩
  | .hbm, ⟨53, _⟩ => ⟨S1x128, .f32⟩
  | .hbm, ⟨54, _⟩ => ⟨S1x128, .f32⟩
  | .hbm, ⟨55, _⟩ => ⟨S100000x128, .f32⟩
  | .hbm, ⟨56, _⟩ => ⟨S_, .i32⟩
  | .hbm, ⟨57, _⟩ => ⟨S1700000, .i32⟩
  | .hbm, ⟨58, _⟩ => ⟨S1700000, .i1⟩
  | .hbm, ⟨59, _⟩ => ⟨S_, .i32⟩
  | .hbm, ⟨60, _⟩ => ⟨S1700000, .i32⟩
  | .hbm, ⟨61, _⟩ => ⟨S1700000, .i32⟩
  | .hbm, ⟨62, _⟩ => ⟨S1700000, .i32⟩
  | .hbm, ⟨63, _⟩ => ⟨S1700000x1, .i32⟩
  | .hbm, ⟨64, _⟩ => ⟨S1700000x128, .f32⟩
  | .hbm, ⟨65, _⟩ => ⟨S_, .f32⟩
  | .hbm, ⟨66, _⟩ => ⟨S100000x128, .f32⟩
  | .hbm, ⟨67, _⟩ => ⟨S1700000x1, .i32⟩
  | .hbm, ⟨68, _⟩ => ⟨S100000x128, .f32⟩
  | .hbm, ⟨69, _⟩ => ⟨S100000x128, .f32⟩
  | .hbm, ⟨70, _⟩ => ⟨S100000x128, .f32⟩
  | .hbm, ⟨71, _⟩ => ⟨S_, .f32⟩
  | .hbm, ⟨72, _⟩ => ⟨S512x128, .f32⟩
  | .hbm, ⟨73, _⟩ => ⟨S100000x1, .i32⟩
  | .hbm, ⟨74, _⟩ => ⟨S512x128, .f32⟩
  | .hbm, ⟨75, _⟩ => ⟨S_, .f32⟩
  | .hbm, ⟨76, _⟩ => ⟨S100000, .f32⟩
  | .hbm, ⟨77, _⟩ => ⟨S_, .f32⟩
  | .hbm, ⟨78, _⟩ => ⟨S512, .f32⟩
  | .hbm, ⟨79, _⟩ => ⟨S100000x1, .i32⟩
  | .hbm, ⟨80, _⟩ => ⟨S512, .f32⟩
  | .hbm, ⟨81, _⟩ => ⟨S_, .f32⟩
  | .hbm, ⟨82, _⟩ => ⟨S512, .f32⟩
  | .hbm, ⟨83, _⟩ => ⟨S512, .f32⟩
  | .hbm, ⟨84, _⟩ => ⟨S_, .f32⟩
  | .hbm, ⟨85, _⟩ => ⟨S512, .f32⟩
  | .hbm, ⟨86, _⟩ => ⟨S512, .i1⟩
  | .hbm, ⟨87, _⟩ => ⟨S_, .f32⟩
  | .hbm, ⟨88, _⟩ => ⟨S_, .f32⟩
  | .hbm, ⟨89, _⟩ => ⟨S512, .f32⟩
  | .hbm, ⟨90, _⟩ => ⟨S512, .f32⟩
  | .hbm, ⟨91, _⟩ => ⟨S512, .f32⟩
  | .hbm, ⟨92, _⟩ => ⟨S512x1, .f32⟩
  | .hbm, ⟨93, _⟩ => ⟨S512x128, .f32⟩
  | .hbm, ⟨94, _⟩ => ⟨S512x128, .f32⟩
  | .hbm, ⟨95, _⟩ => ⟨S512x1, .f32⟩
  | .hbm, ⟨96, _⟩ => ⟨S1x128, .f32⟩
  | .hbm, ⟨97, _⟩ => ⟨S512x1, .f32⟩
  | .hbm, ⟨98, _⟩ => ⟨S512x128, .f32⟩
  | .hbm, ⟨99, _⟩ => ⟨S512x128, .f32⟩
  | .hbm, ⟨100, _⟩ => ⟨S512x128, .f32⟩
  | .hbm, ⟨101, _⟩ => ⟨S512x128, .f32⟩
  | .hbm, ⟨102, _⟩ => ⟨S1x10, .f32⟩
  | .hbm, ⟨103, _⟩ => ⟨S512x10, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S128x128, .f32⟩
  | .local _ .vmem, ⟨15, _⟩ => ⟨S5000x128, .f32⟩
  | .local _ .vmem, ⟨16, _⟩ => ⟨S5000x128, .f32⟩
  | .local _ .vmem, ⟨17, _⟩ => ⟨S512x128, .f32⟩
  | .local _ .vmem, ⟨18, _⟩ => ⟨S128x10, .f32⟩
  | .local _ .vmem, ⟨19, _⟩ => ⟨S1x10, .f32⟩
  | .local _ .vmem, ⟨20, _⟩ => ⟨S512x10, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_c : Ref sig .tc := ⟨.hbm, 34, rfl⟩
abbrev main_v17 : Ref sig .tc := ⟨.hbm, 35, rfl⟩
abbrev main_v18 : Ref sig .tc := ⟨.hbm, 36, rfl⟩
abbrev main_c_3 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_4 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_5 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_c_6 : Ref sig .tc := ⟨.hbm, 56, rfl⟩
abbrev main_v35 : Ref sig .tc := ⟨.hbm, 57, rfl⟩
abbrev main_v36 : Ref sig .tc := ⟨.hbm, 58, rfl⟩
abbrev main_c_7 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_8 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_9 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_10 : Ref sig .tc := ⟨.hbm, 75, rfl⟩
abbrev main_v50 : Ref sig .tc := ⟨.hbm, 76, rfl⟩
abbrev main_cst_11 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_cst_12 : Ref sig .tc := ⟨.hbm, 81, rfl⟩
abbrev main_v54 : Ref sig .tc := ⟨.hbm, 82, rfl⟩
abbrev main_v55 : Ref sig .tc := ⟨.hbm, 83, rfl⟩
abbrev main_cst_13 : Ref sig .tc := ⟨.hbm, 84, rfl⟩
abbrev main_v56 : Ref sig .tc := ⟨.hbm, 85, rfl⟩
abbrev main_v57 : Ref sig .tc := ⟨.hbm, 86, rfl⟩
abbrev main_cst_14 : Ref sig .tc := ⟨.hbm, 87, rfl⟩
abbrev main_cst_15 : Ref sig .tc := ⟨.hbm, 88, rfl⟩
abbrev main_call1_v0 : Ref sig .tc := ⟨.hbm, 89, rfl⟩
abbrev main_call1_v1 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg6_1 : Ref sig .tc := ⟨.vmem, 16, rfl⟩
abbrev cc2_stg0_0 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem6_1 : DmaSem sig := 16
abbrev cc2_sem0_0 : DmaSem sig := 17
abbrev cc2_sem1_0 : DmaSem sig := 18
abbrev cc2_sem2_0 : DmaSem sig := 19
abbrev cc2_sem3_0 : DmaSem sig := 20

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S512x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S128x10 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x10 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S512x10 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S100000x128 : S_.BroadcastsInDim S100000x128 (![] : Fin 0 → Fin S100000x128.rank)
  bcast_S_S128 : S_.BroadcastsInDim S128 (![] : Fin 0 → Fin S128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S100000x1_S100000x128_0_1 : S100000x1.BroadcastsInDim S100000x128 (![0, 1] : Fin 2 → Fin S100000x128.rank)
  bcast_S_S512x128 : S_.BroadcastsInDim S512x128 (![] : Fin 0 → Fin S512x128.rank)
  bcast_S100000_S100000x1_0 : S100000.BroadcastsInDim S100000x1 (![0] : Fin 1 → Fin S100000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  bcast_S128_S1x128_1 : S128.BroadcastsInDim S1x128 (![1] : Fin 1 → Fin S1x128.rank)
  bcast_S1x128_S512x128_0_1 : S1x128.BroadcastsInDim S512x128 (![0, 1] : Fin 2 → Fin S512x128.rank)
  shapeCasts_S10_S1x10 : S10.ShapeCasts S1x10
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S128x10_S128x10_0_0 : ∀ a, (![0, 0] : Fin 2 → Nat) a + S128x10.size a ≤ S128x10.size a
  h_S128x10 : 0 < S128x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S512x10 : S1x10.Broadcasts S512x10
  reduces_S512x10_S512 : S512x10.Reduces [1] S512
  shapeCasts_S512_S512x1 : S512.ShapeCasts S512x1
  broadcasts_S512x1_S512x10 : S512x1.Broadcasts S512x10
  inb_S512x10_S512x10_0_0 : ∀ a, (![0, 0] : Fin 2 → Nat) a + S512x10.size a ≤ S512x10.size a
  h_S512x10 : 0 < S512x10.numel
  scatter_S100000_S1700000x1_S1700000_n_0_0_1_wf : ScatterDims.WF S100000 S1700000x1 S1700000 [] [0] [0] 1
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S512x128_S100000x1_S100000x128_1_0_0_1_wf : ScatterDims.WF S512x128 S100000x1 S100000x128 [1] [0] [0] 1
  scatter_S512_S100000x1_S100000_n_0_0_1_wf : ScatterDims.WF S512 S100000x1 S100000 [] [0] [0] 1
  dot_S512x128_S128x10_S512x10_1_0_0_1_n_n_wf : DotDims.WF S512x128 S128x10 S512x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S100000x128.size a
  hwx1_6 : ∀ i : grid1.Coords, EltTy.bits .f32 = 32 ∨ (Rect.block (s := S100000x128) S5000x128.size (cc1_transform_6 i) (hinb1_6 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S512x128.size a ≤ S512x128.size a
  hwx2_0 : ∀ i : grid2.Coords, EltTy.bits .f32 = 32 ∨ (Rect.block (s := S512x128) S512x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x10.size a ≤ S128x10.size a
  hwx2_1 : ∀ i : grid2.Coords, EltTy.bits .f32 = 32 ∨ (Rect.block (s := S128x10) S128x10.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x10.size a ≤ S1x10.size a
  hwx2_2 : ∀ i : grid2.Coords, EltTy.bits .f32 = 32 ∨ (Rect.block (s := S1x10) S1x10.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S512x10.size a ≤ S512x10.size a
  hwx2_3 : ∀ i : grid2.Coords, EltTy.bits .f32 = 32 ∨ (Rect.block (s := S512x10) S512x10.size (cc2_transform_3 i) (hinb2_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x128_S128x10_S512x10_1_0_0_1_n_n : DotDims S512x128 S128x10 S512x10 where
  lhsContracting := [1]
  rhsContracting := [0]
  lhsNonContracting := [0]
  rhsNonContracting := [1]
  lhsBatch := []
  rhsBatch := []
  wf := dot_S512x128_S128x10_S512x10_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v31) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v32) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v33) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v34) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v68) S512x128.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg9) S128x10.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v69) S1x10.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v70) S512x10.size cc2_transform_3 reads2_3 true true 1 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S512x128 : Shape := ⟨2, ![512, 128]⟩
abbrev S100000x1 : Shape := ⟨2, ![100000, 1]⟩
abbrev S512 : Shape := ⟨1, ![512]⟩
abbrev S512x1 : Shape := ⟨2, ![512, 1]⟩
abbrev S512x10 : Shape := ⟨2, ![512, 10]⟩
abbrev S1x10 : Shape := ⟨2, ![1, 10]⟩

abbrev nBuf : Space → Nat
  | .hbm => 140
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x128, .f32⟩
  | 4 => ⟨S128, .f32⟩
  | 5 => ⟨S128, .f32⟩
  | 6 => ⟨S128, .f32⟩
  | 7 => ⟨S128x128, .f32⟩
  | 8 => ⟨S128, .f32⟩
  | 9 => ⟨S128x10, .f32⟩
  | 10 => ⟨S10, .f32⟩
  | 11 => ⟨S100000, .i32⟩
  | 12 => ⟨S1x1600000, .i32⟩
  | 13 => ⟨S1600000, .i32⟩
  | 14 => ⟨S1700000, .i32⟩
  | 15 => ⟨S1x1600000, .i32⟩
  | 16 => ⟨S1600000, .i32⟩
  | 17 => ⟨S1700000, .i32⟩
  | 18 => ⟨S_, .f32⟩
  | 19 => ⟨S1700000, .f32⟩
  | 20 => ⟨S_, .f32⟩
  | 21 => ⟨S100000, .f32⟩
  | 22 => ⟨S1700000x1, .i32⟩
  | 23 => ⟨S100000, .f32⟩
  | 24 => ⟨S_, .f32⟩
  | 25 => ⟨S100000, .f32⟩
  | 26 => ⟨S100000, .i1⟩
  | 27 => ⟨S100000, .f32⟩
  | 28 => ⟨S_, .f32⟩
  | 29 => ⟨S_, .f32⟩
  | 30 => ⟨S100000, .f32⟩
  | 31 => ⟨S100000, .f32⟩
  | 32 => ⟨S_, .i32⟩
  | 33 => ⟨S1700000, .i32⟩
  | 34 => ⟨S1700000, .i1⟩
  | 35 => ⟨S_, .i32⟩
  | 36 => ⟨S1700000, .i32⟩
  | 37 => ⟨S1700000, .i32⟩
  | 38 => ⟨S1700000, .i32⟩
  | 39 => ⟨S1700000x1, .i32⟩
  | 40 => ⟨S1700000, .f32⟩
  | 41 => ⟨S_, .i32⟩
  | 42 => ⟨S1700000, .i32⟩
  | 43 => ⟨S1700000, .i1⟩
  | 44 => ⟨S_, .i32⟩
  | 45 => ⟨S1700000, .i32⟩
  | 46 => ⟨S1700000, .i32⟩
  | 47 => ⟨S1700000, .i32⟩
  | 48 => ⟨S1700000x1, .i32⟩
  | 49 => ⟨S1700000, .f32⟩
  | 50 => ⟨S1700000, .f32⟩
  | 51 => ⟨S100000x128, .f32⟩
  | 52 => ⟨S_, .i32⟩
  | 53 => ⟨S1700000, .i32⟩
  | 54 => ⟨S1700000, .i1⟩
  | 55 => ⟨S_, .i32⟩
  | 56 => ⟨S1700000, .i32⟩
  | 57 => ⟨S1700000, .i32⟩
  | 58 => ⟨S1700000, .i32⟩
  | 59 => ⟨S1700000x1, .i32⟩
  | 60 => ⟨S1700000x128, .f32⟩
  | 61 => ⟨S1700000x1, .f32⟩
  | 62 => ⟨S1700000x128, .f32⟩
  | 63 => ⟨S1700000x128, .f32⟩
  | 64 => ⟨S_, .f32⟩
  | 65 => ⟨S100000x128, .f32⟩
  | 66 => ⟨S1700000x1, .i32⟩
  | 67 => ⟨S100000x128, .f32⟩
  | 68 => ⟨S1x128, .f32⟩
  | 69 => ⟨S100000x128, .f32⟩
  | 70 => ⟨S100000x128, .f32⟩
  | 71 => ⟨S_, .f32⟩
  | 72 => ⟨S_, .f32⟩
  | 73 => ⟨S_, .f32⟩
  | 74 => ⟨S128, .f32⟩
  | 75 => ⟨S128, .f32⟩
  | 76 => ⟨S1x128, .f32⟩
  | 77 => ⟨S100000x128, .f32⟩
  | 78 => ⟨S100000x128, .f32⟩
  | 79 => ⟨S1x128, .f32⟩
  | 80 => ⟨S100000x128, .f32⟩
  | 81 => ⟨S100000x128, .f32⟩
  | 82 => ⟨S_, .f32⟩
  | 83 => ⟨S100000x128, .f32⟩
  | 84 => ⟨S100000x128, .f32⟩
  | 85 => ⟨S100000x128, .f32⟩
  | 86 => ⟨S_, .i32⟩
  | 87 => ⟨S1700000, .i32⟩
  | 88 => ⟨S1700000, .i1⟩
  | 89 => ⟨S_, .i32⟩
  | 90 => ⟨S1700000, .i32⟩
  | 91 => ⟨S1700000, .i32⟩
  | 92 => ⟨S1700000, .i32⟩
  | 93 => ⟨S1700000x1, .i32⟩
  | 94 => ⟨S1700000x128, .f32⟩
  | 95 => ⟨S1700000x1, .f32⟩
  | 96 => ⟨S1700000x128, .f32⟩
  | 97 => ⟨S1700000x128, .f32⟩
  | 98 => ⟨S_, .f32⟩
  | 99 => ⟨S100000x128, .f32⟩
  | 100 => ⟨S1700000x1, .i32⟩
  | 101 => ⟨S100000x128, .f32⟩
  | 102 => ⟨S1x128, .f32⟩
  | 103 => ⟨S100000x128, .f32⟩
  | 104 => ⟨S100000x128, .f32⟩
  | 105 => ⟨S_, .f32⟩
  | 106 => ⟨S512x128, .f32⟩
  | 107 => ⟨S100000x1, .i32⟩
  | 108 => ⟨S512x128, .f32⟩
  | 109 => ⟨S_, .f32⟩
  | 110 => ⟨S100000, .f32⟩
  | 111 => ⟨S_, .f32⟩
  | 112 => ⟨S512, .f32⟩
  | 113 => ⟨S100000x1, .i32⟩
  | 114 => ⟨S512, .f32⟩
  | 115 => ⟨S_, .f32⟩
  | 116 => ⟨S512, .f32⟩
  | 117 => ⟨S512, .f32⟩
  | 118 => ⟨S512x1, .f32⟩
  | 119 => ⟨S512x128, .f32⟩
  | 120 => ⟨S512x128, .f32⟩
  | 121 => ⟨S512x10, .f32⟩
  | 122 => ⟨S1x10, .f32⟩
  | 123 => ⟨S512x10, .f32⟩
  | 124 => ⟨S512x10, .f32⟩
  | 125 => ⟨S_, .f32⟩
  | 126 => ⟨S512, .f32⟩
  | 127 => ⟨S_, .f32⟩
  | _ => ⟨S100000x128, .f32⟩

abbrev hbmTy0_1 (i : Nat) : BufTy := match i % 128 with
  | 0 => ⟨S512, .f32⟩
  | 1 => ⟨S512, .f32⟩
  | 2 => ⟨S512x1, .f32⟩
  | 3 => ⟨S512x10, .f32⟩
  | 4 => ⟨S512x10, .f32⟩
  | 5 => ⟨S512x10, .f32⟩
  | 6 => ⟨S_, .f32⟩
  | 7 => ⟨S512, .f32⟩
  | 8 => ⟨S512x1, .f32⟩
  | 9 => ⟨S512x1, .f32⟩
  | 10 => ⟨S512x10, .f32⟩
  | 11 => ⟨S512x10, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_9 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_call1_cst : Ref sig .tc := ⟨.hbm, 82, rfl⟩
abbrev main_call1_v0 : Ref sig .tc := ⟨.hbm, 83, rfl⟩
abbrev main_v57 : Ref sig .tc := ⟨.hbm, 84, rfl⟩
abbrev main_v58 : Ref sig .tc := ⟨.hbm, 85, rfl⟩
abbrev main_c_10 : Ref sig .tc := ⟨.hbm, 86, rfl⟩
abbrev main_v59 : Ref sig .tc := ⟨.hbm, 87, rfl⟩
abbrev main_v60 : Ref sig .tc := ⟨.hbm, 88, rfl⟩
abbrev main_c_11 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_cst_12 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_cst_13 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_cst_14 : Ref sig .tc := ⟨.hbm, 109, rfl⟩
abbrev main_v78 : Ref sig .tc := ⟨.hbm, 110, rfl⟩
abbrev main_cst_15 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_16 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_call2_cst : Ref sig .tc := ⟨.hbm, 125, rfl⟩
abbrev main_call2_v0 : Ref sig .tc := ⟨.hbm, 126, rfl⟩
abbrev main_call2_cst_0 : Ref sig .tc := ⟨.hbm, 127, rfl⟩
abbrev main_call2_v1 : Ref sig .tc := ⟨.hbm, 128, rfl⟩
abbrev main_call2_v2 : Ref sig .tc := ⟨.hbm, 129, rfl⟩
abbrev main_call2_v3 : Ref sig .tc := ⟨.hbm, 130, rfl⟩
abbrev main_call2_v4 : Ref sig .tc := ⟨.hbm, 131, rfl⟩
abbrev main_call2_v5 : Ref sig .tc := ⟨.hbm, 132, rfl⟩
abbrev main_call2_v6 : Ref sig .tc := ⟨.hbm, 133, rfl⟩
abbrev main_call2_cst_1 : Ref sig .tc := ⟨.hbm, 134, rfl⟩
abbrev main_call2_v7 : Ref sig .tc := ⟨.hbm, 135, rfl⟩
abbrev main_call2_v8 : Ref sig .tc := ⟨.hbm, 136, rfl⟩
abbrev main_call2_v9 : Ref sig .tc := ⟨.hbm, 137, rfl⟩
abbrev main_call2_v10 : Ref sig .tc := ⟨.hbm, 138, rfl⟩
abbrev main_v91 : Ref sig .tc := ⟨.hbm, 139, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S128 : S_.BroadcastsInDim S128 (![] : Fin 0 → Fin S128.rank)
  bcast_S_S512x128 : S_.BroadcastsInDim S512x128 (![] : Fin 0 → Fin S512x128.rank)
  bcast_S100000_S100000x1_0 : S100000.BroadcastsInDim S100000x1 (![0] : Fin 1 → Fin S100000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  bcast_S10_S1x10_1 : S10.BroadcastsInDim S1x10 (![1] : Fin 1 → Fin S1x10.rank)
  bcast_S1x10_S512x10_0_1 : S1x10.BroadcastsInDim S512x10 (![0, 1] : Fin 2 → Fin S512x10.rank)
  reducesTo_S512x10_S512_d1 : S512x10.ReducesTo [1] S512
  h_S_ : 0 < S_.numel
  bcast_S512x1_S512x10_0_1 : S512x1.BroadcastsInDim S512x10 (![0, 1] : Fin 2 → Fin S512x10.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S512x128_S100000x1_S100000x128_1_0_0_1_wf : ScatterDims.WF S512x128 S100000x1 S100000x128 [1] [0] [0] 1
  scatter_S512_S100000x1_S100000_n_0_0_1_wf : ScatterDims.WF S512 S100000x1 S100000 [] [0] [0] 1
  dot_S512x128_S128x10_S512x10_1_0_0_1_n_n_wf : DotDims.WF S512x128 S128x10 S512x10 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x128_S128x10_S512x10_1_0_0_1_n_n : DotDims S512x128 S128x10 S512x10 where
  lhsContracting := [1]
  rhsContracting := [0]
  lhsNonContracting := [0]
  rhsNonContracting := [1]
  lhsBatch := []
  rhsBatch := []
  wf := dot_S512x128_S128x10_S512x10_1_0_0_1_n_n_wf

class Facts : Prop extends Facts₀ where

variable [Facts]
-- ==== Proof.Layers.lean ====
/-
  What each of the three kernel regions computes, as a function of the whole arrays it is launched on, entry by
  entry, on the extended reals.

  Region one: a node's feature row times the first weight matrix, scaled by that node's own degree factor.
  Region two: the raw neighbourhood sum of region one's rows, scaled by the receiving node's degree factor, plus the
  bias, through the affine normalisation and the rectifier, then times the second weight matrix, scaled again by
  the node's degree factor.
  Region three: a graph's pooled row times the classifier matrix plus its bias, then the logarithm of the softmax
  along the ten classes: the shifted logits minus the logarithm of the sum of their exponentials, the shift being
  the row's largest logit.
-/
import Idealize.ShloMosaic.PureOps.Ideal.Laws
import Idealize.ShloMosaic.Lib.ValueIdx

noncomputable section

namespace Cert.Layers

open Idealize.ShloMosaic Idealize.ShloMosaic.ValueIdx

/-- Row r of `a` against column c of `b`, over the 128 shared coordinates. -/
def rowDot {M N : Nat} (a : (⟨2, ![M, 128]⟩ : Shape).Idx → EReal) (b : (⟨2, ![128, N]⟩ : Shape).Idx → EReal)
    (r : Fin M) (c : Fin N) : EReal :=
  ∑ k : Fin 128, a (ix2 r k) * b (ix2 k c)

/-- Region one at (node, feature): the node's row of x·W1, times the node's degree factor. -/
def scaledProduct (x : FVec Ideal ⟨2, ![100000, 128]⟩ .f32) (w : FVec Ideal ⟨2, ![128, 128]⟩ .f32)
    (dv : FVec Ideal ⟨2, ![100000, 1]⟩ .f32) : FVec Ideal ⟨2, ![100000, 128]⟩ .f32 :=
  fun j => rowDot x w (j 0) (j 1) * dv (ix2 (j 0) 0)

/-- The hidden activation at (node, feature): the raw neighbourhood sum times the node's degree factor, plus the
    bias, times the normalisation scale, plus its shift, cut below at zero. -/
def activation (conv : FVec Ideal ⟨2, ![100000, 128]⟩ .f32) (dv : FVec Ideal ⟨2, ![100000, 1]⟩ .f32)
    (b sc bt : FVec Ideal ⟨2, ![1, 128]⟩ .f32) : FVec Ideal ⟨2, ![100000, 128]⟩ .f32 :=
  fun j => max ((conv j * dv (ix2 (j 0) 0) + b (ix2 0 (j 1))) * sc (ix2 0 (j 1)) + bt (ix2 0 (j 1))) (Ideal.ofBits .f32 0x00000000#32)

/-- Region two at (node, feature): the node's activation row times W2, times the node's degree factor. -/
def activatedProduct (conv : FVec Ideal ⟨2, ![100000, 128]⟩ .f32) (dv : FVec Ideal ⟨2, ![100000, 1]⟩ .f32)
    (b sc bt : FVec Ideal ⟨2, ![1, 128]⟩ .f32) (w : FVec Ideal ⟨2, ![128, 128]⟩ .f32) :
    FVec Ideal ⟨2, ![100000, 128]⟩ .f32 :=
  fun j => rowDot (activation conv dv b sc bt) w (j 0) (j 1) * dv (ix2 (j 0) 0)

/-- The classifier's logit at (graph, class). -/
def logit (g : FVec Ideal ⟨2, ![512, 128]⟩ .f32) (w : FVec Ideal ⟨2, ![128, 10]⟩ .f32)
    (b : FVec Ideal ⟨2, ![1, 10]⟩ .f32) (r : Fin 512) (c : Fin 10) : EReal :=
  rowDot g w r c + b (ix2 0 c)

/-- A graph's largest logit, the fold of `max` over the ten classes from minus infinity, met once more with minus
    infinity as the program does. -/
def topLogit (z : Fin 512 → Fin 10 → EReal) (r : Fin 512) : EReal :=
  max (Ideal.ofBits .f32 0xFF800000#32) (Finset.univ.fold max (Ideal.ofBits .f32 0xFF800000#32) (fun c : Fin 10 => z r c))

/-- Region three at (graph, class): the shifted logit minus the logarithm of the sum of the exponentials of the
    graph's shifted logits. -/
def logSoftmax (g : FVec Ideal ⟨2, ![512, 128]⟩ .f32) (w : FVec Ideal ⟨2, ![128, 10]⟩ .f32)
    (b : FVec Ideal ⟨2, ![1, 10]⟩ .f32) : FVec Ideal ⟨2, ![512, 10]⟩ .f32 :=
  fun j => (logit g w b (j 0) (j 1) - topLogit (logit g w b) (j 0))
    - Ideal.log (∑ c : Fin 10, Ideal.exp (logit g w b (j 0) c - topLogit (logit g w b) (j 0)))

end Cert.Layers

end
-- ==== Proof.KernelRun.lean ====
/-
  The kernel program's run with its two results named: every weakly fair execution of the program on the cores ends,
  nothing faulting, and in every final state the two result buffers hold the last segment boundary's contents at
  their references, the eleven argument arrays what they were launched with.
-/
import proofs.«168218_j3058016714895_2_alg».proof.Proof.Gen.KernelIdeal.Frame
import proofs.«168218_j3058016714895_2_alg».proof.Proof.Layers

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- The run of the program over its ten segments: the last thread state holds every unscoped buffer at the last
    boundary's contents, read against the final state; the two result buffers are unscoped, so they are read there
    too, beside the eleven argument arrays. -/
theorem run_values : θ_run defs (onTc (τ := τ) (main (F := Ideal))) ⟨m, fun _ => 0, ρ⟩ (fun r => ∀ c : Dev nD,
      r.2.mem ((c.tc : Thread nD τ).loc main_v70) = Gen.W10 m ρ c (Proc.devRef .tc main_v70)
      ∧ r.2.mem ((c.tc : Thread nD τ).loc main_v68) = Gen.W10 m ρ c (Proc.devRef .tc main_v68)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v70 (by decide)),
       h c _ (mem_uc main_v68 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c)⟩)

end Cert.KernelIdeal.Run

end
-- ==== Proof.KernelStages.lean ====
/-
  The host stretches of the kernel program, each named as a function of the argument arrays it reads, and the two
  result buffers walked back through them.

  The edge list gives every edge's source and destination node, and every node one more edge to itself. The degree of
  a node is the number of edges arriving at it; its degree factor is the reciprocal square root of the degree, zero
  where the degree is not positive. Between two regions the program sums, into each node, the rows the region before
  left at the sources of the edges arriving at that node. After the second region it sums the rows once more, scales
  each node's row by its degree factor, averages the rows of each graph's nodes (dividing by the graph's node count,
  at least one), and adds the bias row to the graphs that have a node.
-/
import proofs.«168218_j3058016714895_2_alg».proof.Proof.KernelRun

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.Sem
open Idealize.ShloMosaic.Pipeline (Dat Cfg Window BodyObligation cellOf)
open Cert.KernelIdeal.Gen

/-! ## The stages -/

/-- Every edge's source node, then every node once (the edge from a node to itself). -/
def kSrcRaw (ei : IVec S2x1600000 32) : IVec S1700000 32 :=
  concatenate S1700000 0 [⟨S1600000, shapeCast S1600000 (extractStridedSlice S1x1600000 ![0, 0] ei slices_S2x1600000_S1x1600000_0_0) shapeCasts_S1x1600000_S1600000⟩, ⟨S100000, iotaInDim S100000 32 0⟩] concatenates_S1600000_S100000_S1700000_d0

/-- Every edge's destination node, then every node once. -/
def kDstRaw (ei : IVec S2x1600000 32) : IVec S1700000 32 :=
  concatenate S1700000 0 [⟨S1600000, shapeCast S1600000 (extractStridedSlice S1x1600000 ![1, 0] ei slices_S2x1600000_S1x1600000_1_0) shapeCasts_S1x1600000_S1600000⟩, ⟨S100000, iotaInDim S100000 32 0⟩] concatenates_S1600000_S100000_S1700000_d0

/-- The source indices as a column, a negative one moved up by the number of nodes. -/
def kSrcIdx (ei : IVec S2x1600000 32) : IVec S1700000x1 32 :=
  broadcastInDim S1700000x1 ![0] bcast_S1700000_S1700000x1_0
    (select (cmpi .slt (kSrcRaw ei) (broadcastInDim S1700000 ![] bcast_S_S1700000 (constantI S_ 32 0#32)))
      (addi (kSrcRaw ei) (broadcastInDim S1700000 ![] bcast_S_S1700000 (constantI S_ 32 100000#32))) (kSrcRaw ei))

/-- The destination indices as a column. -/
def kDstIdx (ei : IVec S2x1600000 32) : IVec S1700000x1 32 :=
  broadcastInDim S1700000x1 ![0] bcast_S1700000_S1700000x1_0 (kDstRaw ei)

/-- Each node's graph as a column. -/
def kBatchIdx (bt : IVec S100000 32) : IVec S100000x1 32 :=
  broadcastInDim S100000x1 ![0] bcast_S100000_S100000x1_0 bt

/-- A node's degree: one summed into it per edge arriving. -/
def kDeg (ei : IVec S2x1600000 32) : FVec Ideal S100000 .f32 :=
  Host.scatterAdd (F := Ideal) scatter_S100000_S1700000x1_S1700000_n_0_0_1
    (broadcastInDim S100000 ![] bcast_S_S100000 (constant (F := Ideal) S_ .f32 0x00000000#32)) (kDstIdx ei)
    (broadcastInDim S1700000 ![] bcast_S_S1700000 (constant (F := Ideal) S_ .f32 0x3F800000#32))

/-- A node's degree factor: the reciprocal square root of its degree where that is positive, zero elsewhere. -/
def kDinv (ei : IVec S2x1600000 32) : FVec Ideal S100000 .f32 :=
  select (cmpf .ogt (kDeg ei) (broadcastInDim S100000 ![] bcast_S_S100000 (constant (F := Ideal) S_ .f32 0x00000000#32)))
    (Host.rsqrt (F := Ideal) (kDeg ei))
    (broadcastInDim S100000 ![] bcast_S_S100000 (id (constant (F := Ideal) S_ .f32 0x00000000#32)))

/-- The degree factors as a column. -/
def kDinvCol (ei : IVec S2x1600000 32) : FVec Ideal S100000x1 .f32 :=
  shapeCast S100000x1 (kDinv ei) shapeCasts_S100000_S100000x1

/-- The first bias as a row. -/
def kB1Row (b : FVec Ideal S128 .f32) : FVec Ideal S1x128 .f32 := shapeCast S1x128 b shapeCasts_S128_S1x128

/-- The normalisation's scale as a row: the weight over the square root of the constant variance term. -/
def kScaleRow (g : FVec Ideal S128 .f32) : FVec Ideal S1x128 .f32 :=
  shapeCast S1x128 (Host.divf (F := Ideal) g (broadcastInDim S128 ![] bcast_S_S128 (id (Host.sqrt (F := Ideal) (constant (F := Ideal) S_ .f32 0x3F800054#32))))) shapeCasts_S128_S1x128

/-- The normalisation's shift as a row. -/
def kBetaRow (b : FVec Ideal S128 .f32) : FVec Ideal S1x128 .f32 := shapeCast S1x128 b shapeCasts_S128_S1x128

/-- The classifier's bias as a row. -/
def kClsbRow (b : FVec Ideal S10 .f32) : FVec Ideal S1x10 .f32 := shapeCast S1x10 b shapeCasts_S10_S1x10

/-- The neighbourhood sum of a region's rows: into each node, the rows at the sources of the edges arriving at it. -/
def kConv (ei : IVec S2x1600000 32) (h : FVec Ideal S100000x128 .f32) : FVec Ideal S100000x128 .f32 :=
  Host.scatterAdd (F := Ideal) scatter_S100000x128_S1700000x1_S1700000x128_1_0_0_1
    (broadcastInDim S100000x128 ![] bcast_S_S100000x128 (constant (F := Ideal) S_ .f32 0x00000000#32)) (kDstIdx ei)
    (Host.gather gather_S100000x128_S1700000x1_S1700000x128_1_0_n_n_0_1_1128 h (kSrcIdx ei))

/-- A graph's node count. -/
def kCount (bt : IVec S100000 32) : FVec Ideal S512 .f32 :=
  Host.scatterAdd (F := Ideal) scatter_S512_S100000x1_S100000_n_0_0_1
    (broadcastInDim S512 ![] bcast_S_S512 (constant (F := Ideal) S_ .f32 0x00000000#32)) (kBatchIdx bt)
    (broadcastInDim S100000 ![] bcast_S_S100000 (constant (F := Ideal) S_ .f32 0x3F800000#32))

/-- The pooled rows: each node's summed row times its degree factor, summed into the node's graph, over the graph's
    node count (one at least), plus the second bias on the graphs that have a node. -/
def kPool (ei : IVec S2x1600000 32) (bt : IVec S100000 32) (b2 : FVec Ideal S128 .f32) (conv : FVec Ideal S100000x128 .f32) :
    FVec Ideal S512x128 .f32 :=
  addf
    (Host.divf (F := Ideal)
      (Host.scatterAdd (F := Ideal) scatter_S512x128_S100000x1_S100000x128_1_0_0_1
        (broadcastInDim S512x128 ![] bcast_S_S512x128 (constant (F := Ideal) S_ .f32 0x00000000#32)) (kBatchIdx bt)
        (mulf (broadcastInDim S100000x128 ![0, 1] bcast_S100000x1_S100000x128_0_1 (kDinvCol ei)) conv))
      (broadcastInDim S512x128 ![0, 1] bcast_S512x1_S512x128_0_1
        (broadcastInDim S512x1 ![0] bcast_S512_S512x1_0
          (maximumf (kCount bt) (broadcastInDim S512 ![] bcast_S_S512 (constant (F := Ideal) S_ .f32 0x3F800000#32))))))
    (mulf
      (broadcastInDim S512x128 ![0, 1] bcast_S512x1_S512x128_0_1
        (id (broadcastInDim S512x1 ![0] bcast_S512_S512x1_0
          (select (cmpf .ogt (kCount bt) (broadcastInDim S512 ![] bcast_S_S512 (constant (F := Ideal) S_ .f32 0x00000000#32)))
            (broadcastInDim S512 ![] bcast_S_S512 (constant (F := Ideal) S_ .f32 0x3F800000#32))
            (broadcastInDim S512 ![] bcast_S_S512 (constant (F := Ideal) S_ .f32 0x00000000#32))))))
      (broadcastInDim S512x128 ![0, 1] bcast_S1x128_S512x128_0_1 (broadcastInDim S1x128 ![1] bcast_S128_S1x128_1 b2)))

end Cert.KernelIdeal.Run

end
-- ==== Proof.LibRowOps.lean ====
/-
  Two-dimensional vector operations read at one index, on the extended reals.

  A kernel body that projects, normalises and contracts rows is a composition of a few operations on
  [a, b] vectors.  Each lemma below reads one of them at the index (r, c), with both coordinates explicit:
  a matrix product into a zero accumulator is the sum over the shared axis; a sum or a maximum along the
  second axis is the sum or the fold of `max` over that row; a length-a vector viewed as an [a, 1] column, the
  column repeated along a second axis, and a transpose only move coordinates.
-/
import Idealize.ShloMosaic.PureOps.Ideal.Laws
import Idealize.ShloMosaic.Lib.ValueIdx
import Idealize.ShloMosaic.Lib.Pipeline.Value

noncomputable section

namespace Cert.RowOps

open Idealize.ShloMosaic Idealize.ShloMosaic.ValueIdx

/-! ## A plain matrix product -/

/-- The dimension numbers of a plain `[M, K] × [K, N]` product: contract the left operand's second axis with the
    right operand's first, no batch axis. -/
structure IsPlain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Plain

variable {M K N : Nat} {d : DotDims ⟨2, ![M, K]⟩ ⟨2, ![K, N]⟩ ⟨2, ![M, N]⟩}

private theorem val_congr {n : Nat} {s : Fin n → Nat} (j : (i : Fin n) → Fin (s i)) :
    ∀ (p q : Nat) (hp : p < n) (hq : q < n), p = q → (j ⟨p, hp⟩).val = (j ⟨q, hq⟩).val :=
  fun p q hp hq h => by subst h; rfl

theorem contr_rank (hd : IsPlain d) : d.contr.rank = 1 := by
  rw [d.rank_contr, hd.lc]; rfl

theorem contr_size (hd : IsPlain d) : d.contr.size ⟨0, by rw [contr_rank hd]; exact Nat.one_pos⟩ = K := by
  rw [d.size_contr 0 (by rw [hd.lc]; exact Nat.one_pos)]
  simp only [hd.lc, List.getElem_cons_zero]
  rfl

/-- The left operand's row coordinate is the result's row coordinate. -/
theorem lhsIdx_row (hd : IsPlain d) (j : (⟨2, ![M, N]⟩ : Shape).Idx) (k : d.contr.Idx) :
    (d.lhsIdx j k 0).val = (j 0).val := by
  unfold DotDims.lhsIdx
  rw [dif_neg (by rw [hd.lb]; exact List.not_mem_nil), dif_pos (by rw [hd.ln]; exact List.mem_singleton.mpr rfl)]
  simp only [Fin.val_cast]
  exact val_congr j _ _ _ _ (by simp [hd.lb, hd.ln])

/-- The right operand's column coordinate is the result's column coordinate. -/
theorem rhsIdx_col (hd : IsPlain d) (j : (⟨2, ![M, N]⟩ : Shape).Idx) (k : d.contr.Idx) :
    (d.rhsIdx j k 1).val = (j 1).val := by
  unfold DotDims.rhsIdx
  rw [dif_neg (by rw [hd.rb]; exact List.not_mem_nil), dif_pos (by rw [hd.rn]; exact List.mem_singleton.mpr rfl)]
  simp only [Fin.val_cast]
  exact val_congr j _ _ _ _ (by simp [hd.lb, hd.ln, hd.rn])

/-- A plain matrix product into a zero accumulator, at (r, c): the sum over the shared axis of the products. -/
theorem matmul_zero_apply (hd : IsPlain d) {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul d prec lhs rhs (constant ⟨2, ![M, N]⟩ .f32 0x00000000#32) (ix2 r c)
      = ∑ k : Fin K, lhs (ix2 r k) * rhs (ix2 k c) := by
  rw [Ideal.matmul_constant_zero_apply,
    ← Equiv.sum_comp (contrEquiv1 d K (contr_rank hd) (contr_size hd)).symm]
  refine Finset.sum_congr rfl fun k _ => ?_
  have hk := contrEquiv1_symm_val d K (contr_rank hd) (contr_size hd) k
  have el : d.lhsIdx (ix2 r c) ((contrEquiv1 d K (contr_rank hd) (contr_size hd)).symm k) = ix2 r k :=
    funext fun a => Fin.ext (by
      match a with
      | ⟨0, _⟩ => exact lhsIdx_row hd _ _
      | ⟨1, _⟩ => exact (d.lhsIdx_val_of_single hd.lc _ _).trans hk)
  have er : d.rhsIdx (ix2 r c) ((contrEquiv1 d K (contr_rank hd) (contr_size hd)).symm k) = ix2 k c :=
    funext fun a => Fin.ext (by
      match a with
      | ⟨0, _⟩ => exact (d.rhsIdx_val_of_single hd.rc _ _).trans hk
      | ⟨1, _⟩ => exact rhsIdx_col hd _ _)
  rw [el, er]

end Plain

/-! ## Reductions along the second axis -/

section Rows

variable {a b : Nat} {φ : FTy}

/-- The index over row `r` with second coordinate `k`. -/
theorem lift_row (h : (⟨2, ![a, b]⟩ : Shape).Reduces [1] ⟨1, ![a]⟩) (r : Fin a) (k : Fin b) :
    h.lift (ix1 r) k = ix2 r k :=
  funext fun c => Fin.ext (by
    show h.liftVal (ix1 r) k.val c = (ix2 r k c).val
    unfold Shape.Reduces.liftVal
    match c with
    | ⟨0, _⟩ => rfl
    | ⟨1, _⟩ => rfl)

/-- A sum along the second axis, at row `r`: the sum of that row. -/
theorem rowSum_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ k : Fin b, src (ix2 r k) := by
  rw [Ideal.multiReduction_add_single]
  exact Finset.sum_congr rfl fun k _ => congrArg src (lift_row h r k)

/-- A maximum along the second axis, at row `r`: the fold of `max` over that row from the starting word's value. -/
theorem rowMax_apply (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) := by
  rw [Ideal.multiReduction_maximumf_single]
  exact congrArg (Finset.fold max _ · _) (funext fun k => congrArg src (lift_row h r k))

end Rows

/-! ## Moving coordinates -/

section Layout

variable {α : Type} {a b : Nat}

/-- A length-`a` vector viewed as an `[a, 1]` column reads, at (i, u), the vector at i. -/
theorem column_apply (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- An `[a, 1]` column repeated along a second axis reads, at (i, j), the column at (i, 0). -/
theorem spread_apply (x : (⟨2, ![a, 1]⟩ : Shape).Idx → α) (h : (⟨2, ![a, 1]⟩ : Shape).Broadcasts ⟨2, ![a, b]⟩)
    (i : Fin a) (j : Fin b) : broadcastTo ⟨2, ![a, b]⟩ x h (ix2 i j) = x (ix2 i (0 : Fin 1)) :=
  broadcastTo_apply x h _ _ (fun c => by
    match c with
    | ⟨0, _⟩ =>
      show i.val = if a = 1 then 0 else i.val
      split
      · next h1 => have := i.isLt; omega
      · rfl
    | ⟨1, _⟩ => show 0 = if (1 : Nat) = 1 then 0 else j.val; rw [if_pos rfl])

/-- A transposed `[a, b]` vector reads, at (p, q), the vector at (q, p). -/
theorem swap_apply (x : (⟨2, ![a, b]⟩ : Shape).Idx → α) (h : (⟨2, ![a, b]⟩ : Shape).Transposes [1, 0] ⟨2, ![b, a]⟩)
    (p : Fin b) (q : Fin a) : transpose ⟨2, ![b, a]⟩ [1, 0] x h (ix2 p q) = x (ix2 q p) :=
  transpose_apply [1, 0] x h _ _ (fun c => by
    match c with
    | ⟨0, _⟩ => rfl
    | ⟨1, _⟩ => rfl)

end Layout

end Cert.RowOps

end
-- ==== Proof.RegionOne.lean ====
/-
  Region one, read whole. Each of the twenty grid points takes a block of 5000 node rows of the features and of
  the degree column, and the whole first weight matrix, and leaves in its result block, at (p, q), row p of the
  feature block against column q of the weights, times the block's degree factor at row p. A block's row p is row
  5000·t + p of its array, so what point t writes back is block t of one function of the whole arrays: the node's
  row of x·W1 times the node's degree factor. Row r of the result is covered by point r / 5000, so after the
  twenty write-backs the result array is that function everywhere.
-/
import proofs.«168218_j3058016714895_2_alg».proof.Proof.Gen.KernelIdeal.Frame
import proofs.«168218_j3058016714895_2_alg».proof.Proof.Layers
import proofs.«168218_j3058016714895_2_alg».proof.Proof.LibRowOps
import Idealize.ShloMosaic.Lib.Pipeline.Value
import Idealize.ShloMosaic.Lib.ValueLayout

set_option maxRecDepth 16384

noncomputable section

namespace Cert.KernelIdeal.Regions

open Idealize.ShloMosaic Idealize.ShloMosaic.TcCoe Idealize.ShloMosaic.ValueIdx Idealize.SL.Sem
open Idealize.ShloMosaic.Pipeline (Dat)
open Cert.KernelIdeal Cert.KernelIdeal.Gen

/-! # Region one: the rows of x·W1, each scaled by its node's degree factor -/

theorem plain0 : Cert.RowOps.IsPlain dot_S5000x128_S128x128_S5000x128_1_0_0_1_n_n := ⟨rfl, rfl, rfl, rfl, rfl, rfl⟩

theorem hz : (![0, 0] : Fin 2 → Nat) = fun _ => 0 := funext fun a => by fin_cases a <;> rfl

/-- The body's value at (p, q) of a block: row p of the feature block against column q of the weights, times the
    block's degree factor at row p. The narrowing of the operands is the identity on the extended reals. -/
theorem pay0_apply (x0 : FVec Ideal S5000x128 .f32) (x1 : FVec Ideal S128x128 .f32) (x2 : FVec Ideal S5000x1 .f32)
    (p : Fin 5000) (q : Fin 128) :
    Gen.k0_pay1 (F := Ideal) x0 x1 x2 (ix2 p q)
      = (∑ k : Fin 128, x0 (ix2 p k) * x1 (ix2 k q)) * x2 (ix2 p (0 : Fin 1)) := by
  unfold Gen.k0_pay1
  simp only [matmul]
  rw [mulf_apply, Cert.RowOps.matmul_zero_apply plain0, Cert.RowOps.spread_apply, shapeCast_self]
  rfl

/-- The body's value at an index y of a block whose rows are rows n·5000 … of the arrays A0 (features) and A2
    (degree factors) and whose weights are the whole array A1: the whole-array function at the index i that y
    names in the array. -/
theorem block0_apply (x0 : FVec Ideal S5000x128 .f32) (x1 : FVec Ideal S128x128 .f32) (x2 : FVec Ideal S5000x1 .f32)
    (A0 : FVec Ideal S100000x128 .f32) (A1 : FVec Ideal S128x128 .f32) (A2 : FVec Ideal S100000x1 .f32) (n : Nat)
    (h0 : ∀ (p : Fin 5000) (k : Fin 128) (r : Fin 100000), r.val = n * 5000 + p.val → x0 (ix2 p k) = A0 (ix2 r k))
    (h1 : ∀ (k : Fin 128) (q : Fin 128), x1 (ix2 k q) = A1 (ix2 k q))
    (h2 : ∀ (p : Fin 5000) (r : Fin 100000), r.val = n * 5000 + p.val → x2 (ix2 p (0 : Fin 1)) = A2 (ix2 r (0 : Fin 1)))
    (y : S5000x128.Idx) (i : S100000x128.Idx) (hi0 : (i 0).val = n * 5000 + (y 0).val) (hi1 : (i 1).val = (y 1).val) :
    Gen.k0_pay1 (F := Ideal) x0 x1 x2 y = Cert.Layers.scaledProduct A0 A1 A2 i := by
  obtain ⟨p, q, rfl⟩ : ∃ (p : Fin 5000) (q : Fin 128), y = ix2 p q := ⟨y 0, y 1, eq_ix2 y⟩
  obtain ⟨r, s, rfl⟩ : ∃ (r : Fin 100000) (s : Fin 128), i = ix2 r s := ⟨i 0, i 1, eq_ix2 i⟩
  have hr : r.val = n * 5000 + p.val := hi0
  obtain rfl : s = q := Fin.ext hi1
  rw [pay0_apply]
  unfold Cert.Layers.scaledProduct Cert.Layers.rowDot
  show _ = (∑ k : Fin 128, A0 (ix2 r k) * A1 (ix2 k s)) * A2 (ix2 r (0 : Fin 1))
  rw [h2 p r hr]
  refine congrArg (· * _) (Finset.sum_congr rfl fun k _ => ?_)
  rw [h0 p k r hr, h1 k s]

section

variable (V : (c : Dev nD) → (b : Ref sig .tc) → Buf (Elt Ideal) ((c : Thread nD τ).loc b))

/-- The index maps over the grid: the feature, degree and result windows are at row block t, the weight window at
    its one block. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The feature window's block at point t is rows 5000·t … of the feature array. -/
theorem iblk0_0_apply (c : Dev nD) (t : Fin cfg0.N) (p : Fin 5000) (k : Fin 128) (r : Fin 100000)
    (hr : r.val = t.val * 5000 + p.val) :
    (Gen.iblk0 V c 0 t : S5000x128.Idx → EReal) (ix2 p k)
      = (V c (Pipeline.arrRef spec0 0) : S100000x128.Idx → EReal) (ix2 r k) := by
  obtain ⟨e0, e1, -⟩ := idx_facts0 t
  unfold Gen.iblk0
  rw [View.read_apply]
  show (V c (Pipeline.arrRef spec0 0) : S100000x128.Idx → EReal) _ = _
  refine congrArg _ (funext fun a => Fin.ext ?_)
  match a with
  | ⟨0, _⟩ => show win0_0.index t (0 : Fin 2) * 5000 + 1 * p.val = r.val; omega
  | ⟨1, _⟩ => show win0_0.index t (1 : Fin 2) * 128 + 1 * k.val = k.val; omega

/-- The weight window's block at every point is the weight array. -/
theorem iblk0_1_apply (c : Dev nD) (t : Fin cfg0.N) (k : Fin 128) (q : Fin 128) :
    (Gen.iblk0 V c 1 t : S128x128.Idx → EReal) (ix2 k q)
      = (V c (Pipeline.arrRef spec0 1) : S128x128.Idx → EReal) (ix2 k q) := by
  obtain ⟨-, -, e0, e1, -⟩ := idx_facts0 t
  unfold Gen.iblk0
  rw [View.read_apply]
  show (V c (Pipeline.arrRef spec0 1) : S128x128.Idx → EReal) _ = _
  refine congrArg _ (funext fun a => Fin.ext ?_)
  match a with
  | ⟨0, _⟩ => show win0_1.index t (0 : Fin 2) * 128 + 1 * k.val = k.val; omega
  | ⟨1, _⟩ => show win0_1.index t (1 : Fin 2) * 128 + 1 * q.val = q.val; omega

/-- The degree window's block at point t is rows 5000·t … of the degree column. -/
theorem iblk0_2_apply (c : Dev nD) (t : Fin cfg0.N) (p : Fin 5000) (r : Fin 100000)
    (hr : r.val = t.val * 5000 + p.val) :
    (Gen.iblk0 V c 2 t : S5000x1.Idx → EReal) (ix2 p (0 : Fin 1))
      = (V c (Pipeline.arrRef spec0 2) : S100000x1.Idx → EReal) (ix2 r (0 : Fin 1)) := by
  obtain ⟨-, -, -, -, e0, e1, -⟩ := idx_facts0 t
  unfold Gen.iblk0
  rw [View.read_apply]
  show (V c (Pipeline.arrRef spec0 2) : S100000x1.Idx → EReal) _ = _
  refine congrArg _ (funext fun a => Fin.ext ?_)
  match a with
  | ⟨0, _⟩ => show win0_2.index t (0 : Fin 2) * 5000 + 1 * p.val = r.val; omega
  | ⟨1, _⟩ => show win0_2.index t (1 : Fin 2) * 1 + 1 * 0 = 0; omega

/-- What point t writes back is block t of the whole-array function. -/
theorem flushed0_eq (c : Dev nD) (t : Fin cfg0.N) :
    (Gen.dat0 (F := Ideal) V c).flushed 3 t
      = ((cfg0.win 3).blk t).view.read (Elt Ideal)
          (Cert.Layers.scaledProduct (V c (Pipeline.arrRef spec0 0)) (V c (Pipeline.arrRef spec0 1)) (V c (Pipeline.arrRef spec0 2))) := by
  show (cfg0.win 3).cut (grid0.coords t) ((Gen.dat0 (F := Ideal) V c).after 3 t) = _
  rw [Gen.after0_3]
  unfold Gen.out0_3
  rw [View.canon_unit_zero hz]
  simp only [View.ld_unit_zero (S := S5000x128) hz, View.ld_unit_zero (S := S128x128) hz, View.ld_unit_zero (S := S5000x1) hz]
  obtain ⟨-, -, -, -, -, -, e0, e1⟩ := idx_facts0 t
  funext j
  rw [View.read_apply]
  refine block0_apply (Gen.iblk0 V c 0 t) (Gen.iblk0 V c 1 t) (Gen.iblk0 V c 2 t)
    (V c (Pipeline.arrRef spec0 0)) (V c (Pipeline.arrRef spec0 1)) (V c (Pipeline.arrRef spec0 2)) t.val
    (iblk0_0_apply V c t) (iblk0_1_apply V c t) (iblk0_2_apply V c t)
    ((cfg0.win 3).xinj (grid0.coords t) j) (((cfg0.win 3).blk t).view.emb j) ?_ ?_
  · show win0_3.index t (0 : Fin 2) * 5000 + 1 * (j 0).val = t.val * 5000 + (j 0).val; omega
  · show win0_3.index t (1 : Fin 2) * 128 + 1 * (j 1).val = (j 1).val; omega

/-- Row r of the result array is covered by point r / 5000. -/
theorem cover0 (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 20 := Gen.N_0
  obtain ⟨t, ht⟩ : ∃ t : Fin cfg0.N, t.val = (i 0).val / 5000 := ⟨⟨(i 0).val / 5000, by rw [hN]; omega⟩, rfl⟩
  obtain ⟨-, -, -, -, -, -, e0, e1⟩ := idx_facts0 t
  refine ⟨t, Gen.flush0_3 t, ?_⟩
  show i ∈ ((View.whole main_v16).slice (win0_3.rect t)).set
  rw [View.set_slice_whole, Rect.mem_set_unit]
  intro a
  match a with
  | ⟨0, _⟩ =>
    show win0_3.index t (0 : Fin 2) * 5000 ≤ (i 0).val ∧ (i 0).val < win0_3.index t (0 : Fin 2) * 5000 + 5000
    omega
  | ⟨1, _⟩ =>
    show win0_3.index t (1 : Fin 2) * 128 ≤ (i 1).val ∧ (i 1).val < win0_3.index t (1 : Fin 2) * 128 + 128
    omega

/-- The result array after region one: the whole-array function of the arrays the region is entered on. -/
theorem array0 (c : Dev nD) :
    (Gen.dat0 (F := Ideal) V c).arrAt 3 cfg0.N
      = Cert.Layers.scaledProduct (V c (Pipeline.arrRef spec0 0)) (V c (Pipeline.arrRef spec0 1)) (V c (Pipeline.arrRef spec0 2)) :=
  (Gen.dat0 (F := Ideal) V c).arrAt_eq_of_cover 3 _ (fun t _ => flushed0_eq V c t) cover0

end

end Cert.KernelIdeal.Regions

end
-- ==== Proof.RegionTwo.lean ====
/-
  Region two, read whole. Each of the twenty grid points takes a block of 5000 node rows of the raw neighbourhood
  sums and of the degree column, and the whole bias, scale and shift rows and second weight matrix. At (p, k) the
  body forms the activation: the sum times the block's degree factor at row p, plus the bias at k, times the scale
  at k, plus the shift at k, cut below at zero. At (p, q) it leaves row p of the activations against column q of
  the weights, times the degree factor at row p. A block's row p is row 5000·t + p of its array, so what point t
  writes back is block t of one function of the whole arrays; row r of the result is covered by point r / 5000, so
  after the twenty write-backs the result array is that function everywhere.
-/
import proofs.«168218_j3058016714895_2_alg».proof.Proof.Gen.KernelIdeal.Frame
import proofs.«168218_j3058016714895_2_alg».proof.Proof.Layers
import proofs.«168218_j3058016714895_2_alg».proof.Proof.LibRowOps
import Idealize.ShloMosaic.Lib.Pipeline.Value
import Idealize.ShloMosaic.Lib.ValueLayout

set_option maxRecDepth 16384

noncomputable section

namespace Cert.KernelIdeal.Regions

open Idealize.ShloMosaic Idealize.ShloMosaic.TcCoe Idealize.ShloMosaic.ValueIdx Idealize.SL.Sem
open Idealize.ShloMosaic.Pipeline (Dat)
open Cert.KernelIdeal Cert.KernelIdeal.Gen

/-! # Region two: the activation rows times W2, each scaled by its node's degree factor -/

theorem plain1 : Cert.RowOps.IsPlain dot_S5000x128_S128x128_S5000x128_1_0_0_1_n_n := ⟨rfl, rfl, rfl, rfl, rfl, rfl⟩

theorem hz2 : (![0, 0] : Fin 2 → Nat) = fun _ => 0 := funext fun a => by fin_cases a <;> rfl

/-- The body's value at (p, q) of a block: the activation row p (the neighbourhood sum times the degree factor, plus
    the bias, through the affine normalisation, cut below at zero) against column q of the weights, times the
    block's degree factor at row p. The narrowing of the operands is the identity on the extended reals. -/
theorem pay1_apply (v0 : FVec Ideal S5000x1 .f32) (v2 : FVec Ideal S5000x128 .f32) (v6 v10 v14 : FVec Ideal S1x128 .f32)
    (v21 : FVec Ideal S128x128 .f32) (p : Fin 5000) (q : Fin 128) :
    Gen.k1_pay1 (F := Ideal) v0 v2 v6 v10 v14 v21 (ix2 p q)
      = (∑ k : Fin 128,
          max ((v2 (ix2 p k) * v0 (ix2 p (0 : Fin 1)) + v6 (ix2 (0 : Fin 1) k)) * v10 (ix2 (0 : Fin 1) k) + v14 (ix2 (0 : Fin 1) k))
            (Ideal.ofBits .f32 0x00000000#32) * v21 (ix2 k q)) * v0 (ix2 p (0 : Fin 1)) := by
  unfold Gen.k1_pay1
  simp only [matmul, shapeCast_self]
  rw [mulf_apply, Cert.RowOps.matmul_zero_apply plain1, Cert.RowOps.spread_apply]
  refine congrArg (fun s : EReal => s * v0 (ix2 p (0 : Fin 1))) (Finset.sum_congr rfl fun k _ => ?_)
  rw [truncf_apply, truncf_apply, maximumf_apply, addf_apply, mulf_apply, addf_apply, mulf_apply, broadcast_apply,
    Cert.RowOps.spread_apply, broadcastTo_1b_ab_apply, broadcastTo_1b_ab_apply, broadcastTo_1b_ab_apply]
  rfl

/-- The body's value at an index y of a block whose rows are rows n·5000 … of the arrays A0 (neighbourhood sums) and
    A1 (degree factors), the bias, scale and shift rows and the weights being the whole arrays: the whole-array
    function at the index i that y names in the array. -/
theorem block1_apply (x0 : FVec Ideal S5000x128 .f32) (x1 : FVec Ideal S5000x1 .f32) (x2 x3 x4 : FVec Ideal S1x128 .f32)
    (x5 : FVec Ideal S128x128 .f32)
    (A0 : FVec Ideal S100000x128 .f32) (A1 : FVec Ideal S100000x1 .f32) (A2 A3 A4 : FVec Ideal S1x128 .f32)
    (A5 : FVec Ideal S128x128 .f32) (n : Nat)
    (h0 : ∀ (p : Fin 5000) (k : Fin 128) (r : Fin 100000), r.val = n * 5000 + p.val → x0 (ix2 p k) = A0 (ix2 r k))
    (h1 : ∀ (p : Fin 5000) (r : Fin 100000), r.val = n * 5000 + p.val → x1 (ix2 p (0 : Fin 1)) = A1 (ix2 r (0 : Fin 1)))
    (h2 : ∀ k : Fin 128, x2 (ix2 (0 : Fin 1) k) = A2 (ix2 (0 : Fin 1) k))
    (h3 : ∀ k : Fin 128, x3 (ix2 (0 : Fin 1) k) = A3 (ix2 (0 : Fin 1) k))
    (h4 : ∀ k : Fin 128, x4 (ix2 (0 : Fin 1) k) = A4 (ix2 (0 : Fin 1) k))
    (h5 : ∀ (k : Fin 128) (q : Fin 128), x5 (ix2 k q) = A5 (ix2 k q))
    (y : S5000x128.Idx) (i : S100000x128.Idx) (hi0 : (i 0).val = n * 5000 + (y 0).val) (hi1 : (i 1).val = (y 1).val) :
    Gen.k1_pay1 (F := Ideal) x1 x0 x2 x3 x4 x5 y = Cert.Layers.activatedProduct A0 A1 A2 A3 A4 A5 i := by
  obtain ⟨p, q, rfl⟩ : ∃ (p : Fin 5000) (q : Fin 128), y = ix2 p q := ⟨y 0, y 1, eq_ix2 y⟩
  obtain ⟨r, s, rfl⟩ : ∃ (r : Fin 100000) (s : Fin 128), i = ix2 r s := ⟨i 0, i 1, eq_ix2 i⟩
  have hr : r.val = n * 5000 + p.val := hi0
  obtain rfl : s = q := Fin.ext hi1
  rw [pay1_apply]
  unfold Cert.Layers.activatedProduct Cert.Layers.rowDot Cert.Layers.activation
  show _ = (∑ k : Fin 128,
      max ((A0 (ix2 r k) * A1 (ix2 r (0 : Fin 1)) + A2 (ix2 (0 : Fin 1) k)) * A3 (ix2 (0 : Fin 1) k) + A4 (ix2 (0 : Fin 1) k))
        (Ideal.ofBits .f32 0x00000000#32) * A5 (ix2 k s)) * A1 (ix2 r (0 : Fin 1))
  rw [h1 p r hr]
  refine congrArg (fun s : EReal => s * A1 (ix2 r (0 : Fin 1))) (Finset.sum_congr rfl fun k _ => ?_)
  rw [h0 p k r hr, h2 k, h3 k, h4 k, h5 k s]

section

variable (V : (c : Dev nD) → (b : Ref sig .tc) → Buf (Elt Ideal) ((c : Thread nD τ).loc b))

/-- The index maps over the grid: the neighbourhood-sum, degree and result windows are at row block t, the bias,
    scale, shift and weight windows at their one block. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- The neighbourhood-sum window's block at point t is rows 5000·t … of its array. -/
theorem iblk1_0_apply (c : Dev nD) (t : Fin cfg1.N) (p : Fin 5000) (k : Fin 128) (r : Fin 100000)
    (hr : r.val = t.val * 5000 + p.val) :
    (Gen.iblk1 V c 0 t : S5000x128.Idx → EReal) (ix2 p k)
      = (V c (Pipeline.arrRef spec1 0) : S100000x128.Idx → EReal) (ix2 r k) := by
  obtain ⟨e0, e1, -⟩ := idx_facts1 t
  unfold Gen.iblk1
  rw [View.read_apply]
  show (V c (Pipeline.arrRef spec1 0) : S100000x128.Idx → EReal) _ = _
  refine congrArg _ (funext fun a => Fin.ext ?_)
  match a with
  | ⟨0, _⟩ => show win1_0.index t (0 : Fin 2) * 5000 + 1 * p.val = r.val; omega
  | ⟨1, _⟩ => show win1_0.index t (1 : Fin 2) * 128 + 1 * k.val = k.val; omega

/-- The degree window's block at point t is rows 5000·t … of the degree column. -/
theorem iblk1_1_apply (c : Dev nD) (t : Fin cfg1.N) (p : Fin 5000) (r : Fin 100000)
    (hr : r.val = t.val * 5000 + p.val) :
    (Gen.iblk1 V c 1 t : S5000x1.Idx → EReal) (ix2 p (0 : Fin 1))
      = (V c (Pipeline.arrRef spec1 1) : S100000x1.Idx → EReal) (ix2 r (0 : Fin 1)) := by
  obtain ⟨-, -, e0, e1, -⟩ := idx_facts1 t
  unfold Gen.iblk1
  rw [View.read_apply]
  show (V c (Pipeline.arrRef spec1 1) : S100000x1.Idx → EReal) _ = _
  refine congrArg _ (funext fun a => Fin.ext ?_)
  match a with
  | ⟨0, _⟩ => show win1_1.index t (0 : Fin 2) * 5000 + 1 * p.val = r.val; omega
  | ⟨1, _⟩ => show win1_1.index t (1 : Fin 2) * 1 + 1 * 0 = 0; omega

/-- The bias window's block at every point is the bias row. -/
theorem iblk1_2_apply (c : Dev nD) (t : Fin cfg1.N) (k : Fin 128) :
    (Gen.iblk1 V c 2 t : S1x128.Idx → EReal) (ix2 (0 : Fin 1) k)
      = (V c (Pipeline.arrRef spec1 2) : S1x128.Idx → EReal) (ix2 (0 : Fin 1) k) := by
  obtain ⟨-, -, -, -, e0, e1, -⟩ := idx_facts1 t
  unfold Gen.iblk1
  rw [View.read_apply]
  show (V c (Pipeline.arrRef spec1 2) : S1x128.Idx → EReal) _ = _
  refine congrArg _ (funext fun a => Fin.ext ?_)
  match a with
  | ⟨0, _⟩ => show win1_2.index t (0 : Fin 2) * 1 + 1 * 0 = 0; omega
  | ⟨1, _⟩ => show win1_2.index t (1 : Fin 2) * 128 + 1 * k.val = k.val; omega

/-- The scale window's block at every point is the scale row. -/
theorem iblk1_3_apply (c : Dev nD) (t : Fin cfg1.N) (k : Fin 128) :
    (Gen.iblk1 V c 3 t : S1x128.Idx → EReal) (ix2 (0 : Fin 1) k)
      = (V c (Pipeline.arrRef spec1 3) : S1x128.Idx → EReal) (ix2 (0 : Fin 1) k) := by
  obtain ⟨-, -, -, -, -, -, e0, e1, -⟩ := idx_facts1 t
  unfold Gen.iblk1
  rw [View.read_apply]
  show (V c (Pipeline.arrRef spec1 3) : S1x128.Idx → EReal) _ = _
  refine congrArg _ (funext fun a => Fin.ext ?_)
  match a with
  | ⟨0, _⟩ => show win1_3.index t (0 : Fin 2) * 1 + 1 * 0 = 0; omega
  | ⟨1, _⟩ => show win1_3.index t (1 : Fin 2) * 128 + 1 * k.val = k.val; omega

/-- The shift window's block at every point is the shift row. -/
theorem iblk1_4_apply (c : Dev nD) (t : Fin cfg1.N) (k : Fin 128) :
    (Gen.iblk1 V c 4 t : S1x128.Idx → EReal) (ix2 (0 : Fin 1) k)
      = (V c (Pipeline.arrRef spec1 4) : S1x128.Idx → EReal) (ix2 (0 : Fin 1) k) := by
  obtain ⟨-, -, -, -, -, -, -, -, e0, e1, -⟩ := idx_facts1 t
  unfold Gen.iblk1
  rw [View.read_apply]
  show (V c (Pipeline.arrRef spec1 4) : S1x128.Idx → EReal) _ = _
  refine congrArg _ (funext fun a => Fin.ext ?_)
  match a with
  | ⟨0, _⟩ => show win1_4.index t (0 : Fin 2) * 1 + 1 * 0 = 0; omega
  | ⟨1, _⟩ => show win1_4.index t (1 : Fin 2) * 128 + 1 * k.val = k.val; omega

/-- The weight window's block at every point is the weight array. -/
theorem iblk1_5_apply (c : Dev nD) (t : Fin cfg1.N) (k : Fin 128) (q : Fin 128) :
    (Gen.iblk1 V c 5 t : S128x128.Idx → EReal) (ix2 k q)
      = (V c (Pipeline.arrRef spec1 5) : S128x128.Idx → EReal) (ix2 k q) := by
  obtain ⟨-, -, -, -, -, -, -, -, -, -, e0, e1, -⟩ := idx_facts1 t
  unfold Gen.iblk1
  rw [View.read_apply]
  show (V c (Pipeline.arrRef spec1 5) : S128x128.Idx → EReal) _ = _
  refine congrArg _ (funext fun a => Fin.ext ?_)
  match a with
  | ⟨0, _⟩ => show win1_5.index t (0 : Fin 2) * 128 + 1 * k.val = k.val; omega
  | ⟨1, _⟩ => show win1_5.index t (1 : Fin 2) * 128 + 1 * q.val = q.val; omega

/-- What point t writes back is block t of the whole-array function. -/
theorem flushed1_eq (c : Dev nD) (t : Fin cfg1.N) :
    (Gen.dat1 (F := Ideal) V c).flushed 6 t
      = ((cfg1.win 6).blk t).view.read (Elt Ideal)
          (Cert.Layers.activatedProduct (V c (Pipeline.arrRef spec1 0)) (V c (Pipeline.arrRef spec1 1)) (V c (Pipeline.arrRef spec1 2))
            (V c (Pipeline.arrRef spec1 3)) (V c (Pipeline.arrRef spec1 4)) (V c (Pipeline.arrRef spec1 5))) := by
  show (cfg1.win 6).cut (grid1.coords t) ((Gen.dat1 (F := Ideal) V c).after 6 t) = _
  rw [Gen.after1_6]
  unfold Gen.out1_6
  rw [View.canon_unit_zero hz2]
  simp only [View.ld_unit_zero (S := S5000x128) hz2, View.ld_unit_zero (S := S128x128) hz2, View.ld_unit_zero (S := S5000x1) hz2,
    View.ld_unit_zero (S := S1x128) hz2]
  obtain ⟨-, -, -, -, -, -, -, -, -, -, -, -, e0, e1⟩ := idx_facts1 t
  funext j
  rw [View.read_apply]
  refine block1_apply (Gen.iblk1 V c 0 t) (Gen.iblk1 V c 1 t) (Gen.iblk1 V c 2 t) (Gen.iblk1 V c 3 t) (Gen.iblk1 V c 4 t)
    (Gen.iblk1 V c 5 t)
    (V c (Pipeline.arrRef spec1 0)) (V c (Pipeline.arrRef spec1 1)) (V c (Pipeline.arrRef spec1 2))
    (V c (Pipeline.arrRef spec1 3)) (V c (Pipeline.arrRef spec1 4)) (V c (Pipeline.arrRef spec1 5)) t.val
    (iblk1_0_apply V c t) (iblk1_1_apply V c t) (iblk1_2_apply V c t) (iblk1_3_apply V c t) (iblk1_4_apply V c t)
    (iblk1_5_apply V c t)
    ((cfg1.win 6).xinj (grid1.coords t) j) (((cfg1.win 6).blk t).view.emb j) ?_ ?_
  · show win1_6.index t (0 : Fin 2) * 5000 + 1 * (j 0).val = t.val * 5000 + (j 0).val; omega
  · show win1_6.index t (1 : Fin 2) * 128 + 1 * (j 1).val = (j 1).val; omega

/-- Row r of the result array is covered by point r / 5000. -/
theorem cover1 (i : S100000x128.Idx) :
    ∃ t : Fin cfg1.N, (cfg1.win 6).flush t = true ∧ i ∈ ((cfg1.win 6).blk t).view.set := by
  have hi0 : (i 0).val < 100000 := (i 0).isLt
  have hi1 : (i 1).val < 128 := (i 1).isLt
  have hN : cfg1.N = 20 := Gen.N_1
  obtain ⟨t, ht⟩ : ∃ t : Fin cfg1.N, t.val = (i 0).val / 5000 := ⟨⟨(i 0).val / 5000, by rw [hN]; omega⟩, rfl⟩
  obtain ⟨-, -, -, -, -, -, -, -, -, -, -, -, e0, e1⟩ := idx_facts1 t
  refine ⟨t, Gen.flush1_6 t, ?_⟩
  show i ∈ ((View.whole main_v34).slice (win1_6.rect t)).set
  rw [View.set_slice_whole, Rect.mem_set_unit]
  intro a
  match a with
  | ⟨0, _⟩ =>
    show win1_6.index t (0 : Fin 2) * 5000 ≤ (i 0).val ∧ (i 0).val < win1_6.index t (0 : Fin 2) * 5000 + 5000
    omega
  | ⟨1, _⟩ =>
    show win1_6.index t (1 : Fin 2) * 128 ≤ (i 1).val ∧ (i 1).val < win1_6.index t (1 : Fin 2) * 128 + 128
    omega

/-- The result array after region two: the whole-array function of the arrays the region is entered on. -/
theorem array1 (c : Dev nD) :
    (Gen.dat1 (F := Ideal) V c).arrAt 6 cfg1.N
      = Cert.Layers.activatedProduct (V c (Pipeline.arrRef spec1 0)) (V c (Pipeline.arrRef spec1 1)) (V c (Pipeline.arrRef spec1 2))
          (V c (Pipeline.arrRef spec1 3)) (V c (Pipeline.arrRef spec1 4)) (V c (Pipeline.arrRef spec1 5)) :=
  (Gen.dat1 (F := Ideal) V c).arrAt_eq_of_cover 6 _ (fun t _ => flushed1_eq V c t) cover1

end

end Cert.KernelIdeal.Regions

end
-- ==== Proof.RegionThree.lean ====
/-
  Region three, read whole. The one grid point takes the whole pooled array, classifier matrix and bias row. At
  (r, c) the body forms the logit — row r of the pooled array against column c of the matrix, plus the bias at c —,
  the row's largest logit (the fold of the maximum over the ten classes from minus infinity, met with minus infinity
  once more), the shifted logit, and subtracts the logarithm of the sum over the ten classes of the exponentials of
  the row's shifted logits. Its one block is the whole result array, so after the write-back the array is that
  function of the whole arrays.
-/
import proofs.«168218_j3058016714895_2_alg».proof.Proof.Gen.KernelIdeal.Frame
import proofs.«168218_j3058016714895_2_alg».proof.Proof.Layers
import proofs.«168218_j3058016714895_2_alg».proof.Proof.LibRowOps
import Idealize.ShloMosaic.Lib.Pipeline.Value
import Idealize.ShloMosaic.Lib.ValueLayout

set_option maxRecDepth 16384

noncomputable section

namespace Cert.KernelIdeal.Regions

open Idealize.ShloMosaic Idealize.ShloMosaic.TcCoe Idealize.ShloMosaic.ValueIdx Idealize.SL.Sem
open Idealize.ShloMosaic.Pipeline (Dat)
open Cert.KernelIdeal Cert.KernelIdeal.Gen

/-! # Region three: the classifier's logits and the logarithm of their softmax along the ten classes -/

theorem plain2 : Cert.RowOps.IsPlain dot_S512x128_S128x10_S512x10_1_0_0_1_n_n := ⟨rfl, rfl, rfl, rfl, rfl, rfl⟩

theorem hz3 : (![0, 0] : Fin 2 → Nat) = fun _ => 0 := funext fun a => by fin_cases a <;> rfl

/-- A vector exponential at an index is the exponential of the entry. -/
theorem vexp_apply {s : Shape} {φ : FTy} (a : FVec Ideal s φ) (i : s.Idx) : exp a i = Ideal.exp (a i) := rfl
/-- A vector logarithm at an index is the logarithm of the entry. -/
theorem vlog_apply {s : Shape} {φ : FTy} (a : FVec Ideal s φ) (i : s.Idx) : log a i = Ideal.log (a i) := rfl

/-- The logits at (r, c): row r of the pooled block against column c of the classifier matrix, plus the bias at c. -/
theorem logits_apply (x0 : FVec Ideal S512x128 .f32) (x3 : FVec Ideal S128x10 .f32) (x6 : FVec Ideal S1x10 .f32)
    (r : Fin 512) (c : Fin 10) :
    addf (matmul dot_S512x128_S128x10_S512x10_1_0_0_1_n_n none
        (truncf .bf16 (shapeCast S512x128 x0 shapeCasts_S512x128_S512x128) bitsLt_bf16_f32)
        (truncf .bf16 x3 bitsLt_bf16_f32) (constant (F := Ideal) S512x10 .f32 0x00000000#32))
      (broadcastTo S512x10 (shapeCast S1x10 x6 shapeCasts_S1x10_S1x10) broadcasts_S1x10_S512x10) (ix2 r c)
      = Cert.Layers.logit x0 x3 x6 r c := by
  simp only [matmul]
  rw [addf_apply, Cert.RowOps.matmul_zero_apply plain2, broadcastTo_1b_ab_apply, shapeCast_self, shapeCast_self]
  rfl

/-- A row's largest entry, met with minus infinity once more, at row r. -/
theorem top_apply (z : FVec Ideal S512x10 .f32) (r : Fin 512) :
    maximumf (broadcast S512 (Scalar.ofBits (F := Ideal) .f32 0xFF800000#32))
        (multiReduction .maximumf [1] S512 z 0xFF800000#32 reduces_S512x10_S512 (.inl rfl) rfl) (ix1 r)
      = max (Ideal.ofBits .f32 0xFF800000#32)
          ((Finset.univ : Finset (Fin 10)).fold max (Ideal.ofBits .f32 0xFF800000#32) (fun k => z (ix2 r k))) := by
  rw [maximumf_apply]
  exact congrArg (max _) (Cert.RowOps.rowMax_apply z 0xFF800000#32 reduces_S512x10_S512 (.inl rfl) rfl r)

/-- The body's value at (r, c) over a vector z of logits: the shifted logit minus the logarithm of the sum of the
    exponentials of the row's shifted logits. -/
theorem lsm_apply (z : FVec Ideal S512x10 .f32) (r : Fin 512) (c : Fin 10) :
    subf
      (subf z (broadcastTo S512x10 (shapeCast S512x1 (maximumf (broadcast S512 (Scalar.ofBits (F := Ideal) .f32 0xFF800000#32))
        (multiReduction .maximumf [1] S512 z 0xFF800000#32 reduces_S512x10_S512 (.inl rfl) rfl)) shapeCasts_S512_S512x1) broadcasts_S512x1_S512x10))
      (broadcastTo S512x10 (log (shapeCast S512x1 (multiReduction .add [1] S512 (exp
        (subf z (broadcastTo S512x10 (shapeCast S512x1 (maximumf (broadcast S512 (Scalar.ofBits (F := Ideal) .f32 0xFF800000#32))
          (multiReduction .maximumf [1] S512 z 0xFF800000#32 reduces_S512x10_S512 (.inl rfl) rfl)) shapeCasts_S512_S512x1) broadcasts_S512x1_S512x10)))
        0x00000000#32 reduces_S512x10_S512 (.inl rfl) rfl) shapeCasts_S512_S512x1)) broadcasts_S512x1_S512x10) (ix2 r c)
      = (z (ix2 r c) - max (Ideal.ofBits .f32 0xFF800000#32)
            ((Finset.univ : Finset (Fin 10)).fold max (Ideal.ofBits .f32 0xFF800000#32) (fun k => z (ix2 r k))))
          - Ideal.log (∑ c' : Fin 10, Ideal.exp (z (ix2 r c') - max (Ideal.ofBits .f32 0xFF800000#32)
            ((Finset.univ : Finset (Fin 10)).fold max (Ideal.ofBits .f32 0xFF800000#32) (fun k => z (ix2 r k))))) := by
  have hsh : ∀ c' : Fin 10,
      subf z (broadcastTo S512x10 (shapeCast S512x1 (maximumf (broadcast S512 (Scalar.ofBits (F := Ideal) .f32 0xFF800000#32))
        (multiReduction .maximumf [1] S512 z 0xFF800000#32 reduces_S512x10_S512 (.inl rfl) rfl)) shapeCasts_S512_S512x1) broadcasts_S512x1_S512x10) (ix2 r c')
      = z (ix2 r c') - max (Ideal.ofBits .f32 0xFF800000#32)
            ((Finset.univ : Finset (Fin 10)).fold max (Ideal.ofBits .f32 0xFF800000#32) (fun k => z (ix2 r k))) := fun c' => by
    rw [subf_apply, Cert.RowOps.spread_apply, Cert.RowOps.column_apply, top_apply]
  rw [subf_apply, hsh c, Cert.RowOps.spread_apply, vlog_apply, Cert.RowOps.column_apply]
  refine congrArg (fun s => _ - Ideal.log s)
    ((Cert.RowOps.rowSum_apply _ 0x00000000#32 reduces_S512x10_S512 (.inl rfl) rfl r).trans
      (Finset.sum_congr rfl fun c' _ => ?_))
  rw [vexp_apply, hsh c']

/-- The body's value at (r, c) of its blocks. -/
theorem pay2_apply (x0 : FVec Ideal S512x128 .f32) (x3 : FVec Ideal S128x10 .f32) (x6 : FVec Ideal S1x10 .f32)
    (r : Fin 512) (c : Fin 10) :
    Gen.k2_pay1 (F := Ideal) x0 x3 x6 (ix2 r c) = Cert.Layers.logSoftmax x0 x3 x6 (ix2 r c) := by
  unfold Gen.k2_pay1
  refine (lsm_apply _ r c).trans ?_
  simp only [logits_apply]
  rfl

section

variable (V : (c : Dev nD) → (b : Ref sig .tc) → Buf (Elt Ideal) ((c : Thread nD τ).loc b))

/-- The index maps at the one grid point: every window is at its one block. -/
theorem idx_facts2 : ∀ t : Fin cfg2.N,
    win2_0.index t (0 : Fin 2) = 0 ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0 :=
  (by decide +kernel : ∀ t : Fin grid2.N, _)

/-- The pooled window's block is the pooled array. -/
theorem iblk2_0_eq (c : Dev nD) (t : Fin cfg2.N) :
    (Gen.iblk2 V c 0 t : S512x128.Idx → EReal) = (V c (Pipeline.arrRef spec2 0) : S512x128.Idx → EReal) := by
  obtain ⟨e0, e1, -⟩ := idx_facts2 t
  funext y
  unfold Gen.iblk2
  rw [View.read_apply]
  show (V c (Pipeline.arrRef spec2 0) : S512x128.Idx → EReal) _ = _
  refine congrArg _ (funext fun a => Fin.ext ?_)
  match a with
  | ⟨0, _⟩ => show win2_0.index t (0 : Fin 2) * 512 + 1 * (y 0).val = (y 0).val; omega
  | ⟨1, _⟩ => show win2_0.index t (1 : Fin 2) * 128 + 1 * (y 1).val = (y 1).val; omega

/-- The classifier window's block is the classifier matrix. -/
theorem iblk2_1_eq (c : Dev nD) (t : Fin cfg2.N) :
    (Gen.iblk2 V c 1 t : S128x10.Idx → EReal) = (V c (Pipeline.arrRef spec2 1) : S128x10.Idx → EReal) := by
  obtain ⟨-, -, e0, e1, -⟩ := idx_facts2 t
  funext y
  unfold Gen.iblk2
  rw [View.read_apply]
  show (V c (Pipeline.arrRef spec2 1) : S128x10.Idx → EReal) _ = _
  refine congrArg _ (funext fun a => Fin.ext ?_)
  match a with
  | ⟨0, _⟩ => show win2_1.index t (0 : Fin 2) * 128 + 1 * (y 0).val = (y 0).val; omega
  | ⟨1, _⟩ => show win2_1.index t (1 : Fin 2) * 10 + 1 * (y 1).val = (y 1).val; omega

/-- The bias window's block is the bias row. -/
theorem iblk2_2_eq (c : Dev nD) (t : Fin cfg2.N) :
    (Gen.iblk2 V c 2 t : S1x10.Idx → EReal) = (V c (Pipeline.arrRef spec2 2) : S1x10.Idx → EReal) := by
  obtain ⟨-, -, -, -, e0, e1, -⟩ := idx_facts2 t
  funext y
  unfold Gen.iblk2
  rw [View.read_apply]
  show (V c (Pipeline.arrRef spec2 2) : S1x10.Idx → EReal) _ = _
  refine congrArg _ (funext fun a => Fin.ext ?_)
  match a with
  | ⟨0, _⟩ => show win2_2.index t (0 : Fin 2) * 1 + 1 * (y 0).val = (y 0).val; omega
  | ⟨1, _⟩ => show win2_2.index t (1 : Fin 2) * 10 + 1 * (y 1).val = (y 1).val; omega

/-- The body's value at an index y of the one block, over blocks that are the whole arrays: the whole-array function
    at the index i with y's coordinates. -/
theorem block2_apply (x0 A0 : FVec Ideal S512x128 .f32) (x3 A1 : FVec Ideal S128x10 .f32) (x6 A2 : FVec Ideal S1x10 .f32)
    (h0 : x0 = A0) (h1 : x3 = A1) (h2 : x6 = A2)
    (y : S512x10.Idx) (i : S512x10.Idx) (hi0 : (i 0).val = (y 0).val) (hi1 : (i 1).val = (y 1).val) :
    Gen.k2_pay1 (F := Ideal) x0 x3 x6 y = Cert.Layers.logSoftmax A0 A1 A2 i := by
  subst h0 h1 h2
  obtain ⟨r, s, rfl⟩ : ∃ (r : Fin 512) (s : Fin 10), y = ix2 r s := ⟨y 0, y 1, eq_ix2 y⟩
  obtain rfl : i = ix2 r s := funext fun a => Fin.ext (by
    match a with
    | ⟨0, _⟩ => exact hi0
    | ⟨1, _⟩ => exact hi1)
  exact pay2_apply x0 x3 x6 r s

/-- What the one point writes back is the one block of the whole-array function. -/
theorem flushed2_eq (c : Dev nD) (t : Fin cfg2.N) :
    (Gen.dat2 (F := Ideal) V c).flushed 3 t
      = ((cfg2.win 3).blk t).view.read (Elt Ideal)
          (Cert.Layers.logSoftmax (V c (Pipeline.arrRef spec2 0)) (V c (Pipeline.arrRef spec2 1)) (V c (Pipeline.arrRef spec2 2))) := by
  show (cfg2.win 3).cut (grid2.coords t) ((Gen.dat2 (F := Ideal) V c).after 3 t) = _
  rw [Gen.after2_3]
  unfold Gen.out2_3
  rw [View.canon_unit_zero hz3]
  simp only [View.ld_unit_zero (S := S512x128) hz3, View.ld_unit_zero (S := S128x10) hz3, View.ld_unit_zero (S := S1x10) hz3]
  obtain ⟨-, -, -, -, -, -, e0, e1⟩ := idx_facts2 t
  funext j
  rw [View.read_apply]
  refine block2_apply (Gen.iblk2 V c 0 t) (V c (Pipeline.arrRef spec2 0)) (Gen.iblk2 V c 1 t) (V c (Pipeline.arrRef spec2 1))
    (Gen.iblk2 V c 2 t) (V c (Pipeline.arrRef spec2 2))
    (iblk2_0_eq V c t) (iblk2_1_eq V c t) (iblk2_2_eq V c t)
    ((cfg2.win 3).xinj (grid2.coords t) j) (((cfg2.win 3).blk t).view.emb j) ?_ ?_
  · show win2_3.index t (0 : Fin 2) * 512 + 1 * (j 0).val = (j 0).val; omega
  · show win2_3.index t (1 : Fin 2) * 10 + 1 * (j 1).val = (j 1).val; omega

/-- Every index of the result array is in the one point's block. -/
theorem cover2 (i : S512x10.Idx) :
    ∃ t : Fin cfg2.N, (cfg2.win 3).flush t = true ∧ i ∈ ((cfg2.win 3).blk t).view.set := by
  have hi0 : (i 0).val < 512 := (i 0).isLt
  have hi1 : (i 1).val < 10 := (i 1).isLt
  obtain ⟨-, -, -, -, -, -, e0, e1⟩ := idx_facts2 Gen.t2_0
  refine ⟨Gen.t2_0, Gen.flush2_3 Gen.t2_0, ?_⟩
  show i ∈ ((View.whole main_v70).slice (win2_3.rect Gen.t2_0)).set
  rw [View.set_slice_whole, Rect.mem_set_unit]
  intro a
  match a with
  | ⟨0, _⟩ =>
    show win2_3.index Gen.t2_0 (0 : Fin 2) * 512 ≤ (i 0).val ∧ (i 0).val < win2_3.index Gen.t2_0 (0 : Fin 2) * 512 + 512
    omega
  | ⟨1, _⟩ =>
    show win2_3.index Gen.t2_0 (1 : Fin 2) * 10 ≤ (i 1).val ∧ (i 1).val < win2_3.index Gen.t2_0 (1 : Fin 2) * 10 + 10
    omega

/-- The result array after region three: the whole-array function of the arrays the region is entered on. -/
theorem array2 (c : Dev nD) :
    (Gen.dat2 (F := Ideal) V c).arrAt 3 cfg2.N
      = Cert.Layers.logSoftmax (V c (Pipeline.arrRef spec2 0)) (V c (Pipeline.arrRef spec2 1)) (V c (Pipeline.arrRef spec2 2)) :=
  (Gen.dat2 (F := Ideal) V c).arrAt_eq_of_cover 3 _ (fun t _ => flushed2_eq V c t) cover2

end

end Cert.KernelIdeal.Regions

end
-- ==== Proof.KernelWalk.lean ====
/-
  The two result buffers of the kernel program walked back through its segments: each host stretch's results as the
  named stages of the argument arrays, each region entered at those stages and left at its layer of them, until the
  pooled rows and the class scores stand as functions of the eleven argument arrays alone.
-/
import proofs.«168218_j3058016714895_2_alg».proof.Proof.KernelStages
import proofs.«168218_j3058016714895_2_alg».proof.Proof.RegionOne
import proofs.«168218_j3058016714895_2_alg».proof.Proof.RegionTwo
import proofs.«168218_j3058016714895_2_alg».proof.Proof.RegionThree

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.Sem
open Idealize.ShloMosaic.Pipeline (Dat Cfg Window BodyObligation cellOf)
open Cert.KernelIdeal.Gen

/-! ## The stages from the raw lists and columns they are built on -/

/-- The source column from the raw source list: a negative index moved up by the number of nodes. -/
def srcColOf (src : IVec S1700000 32) : IVec S1700000x1 32 :=
  broadcastInDim S1700000x1 ![0] bcast_S1700000_S1700000x1_0
    (select (cmpi .slt src (broadcastInDim S1700000 ![] bcast_S_S1700000 (constantI S_ 32 0#32)))
      (addi src (broadcastInDim S1700000 ![] bcast_S_S1700000 (constantI S_ 32 100000#32))) src)

/-- The neighbourhood sum from the raw source and destination lists. -/
def convOf (src dst : IVec S1700000 32) (h : FVec Ideal S100000x128 .f32) : FVec Ideal S100000x128 .f32 :=
  Host.scatterAdd (F := Ideal) scatter_S100000x128_S1700000x1_S1700000x128_1_0_0_1
    (broadcastInDim S100000x128 ![] bcast_S_S100000x128 (constant (F := Ideal) S_ .f32 0x00000000#32))
    (broadcastInDim S1700000x1 ![0] bcast_S1700000_S1700000x1_0 dst)
    (Host.gather gather_S100000x128_S1700000x1_S1700000x128_1_0_n_n_0_1_1128 h (srcColOf src))

theorem kConv_eq (ei : IVec S2x1600000 32) (h : FVec Ideal S100000x128 .f32) :
    kConv ei h = convOf (kSrcRaw ei) (kDstRaw ei) h := rfl

/-- The pooled rows from the column of degree factors. -/
def poolOf (dcol : FVec Ideal S100000x1 .f32) (bt : IVec S100000 32) (b2 : FVec Ideal S128 .f32) (conv : FVec Ideal S100000x128 .f32) :
    FVec Ideal S512x128 .f32 :=
  addf
    (Host.divf (F := Ideal)
      (Host.scatterAdd (F := Ideal) scatter_S512x128_S100000x1_S100000x128_1_0_0_1
        (broadcastInDim S512x128 ![] bcast_S_S512x128 (constant (F := Ideal) S_ .f32 0x00000000#32)) (kBatchIdx bt)
        (mulf (broadcastInDim S100000x128 ![0, 1] bcast_S100000x1_S100000x128_0_1 dcol) conv))
      (broadcastInDim S512x128 ![0, 1] bcast_S512x1_S512x128_0_1
        (broadcastInDim S512x1 ![0] bcast_S512_S512x1_0
          (maximumf (kCount bt) (broadcastInDim S512 ![] bcast_S_S512 (constant (F := Ideal) S_ .f32 0x3F800000#32))))))
    (mulf
      (broadcastInDim S512x128 ![0, 1] bcast_S512x1_S512x128_0_1
        (id (broadcastInDim S512x1 ![0] bcast_S512_S512x1_0
          (select (cmpf .ogt (kCount bt) (broadcastInDim S512 ![] bcast_S_S512 (constant (F := Ideal) S_ .f32 0x00000000#32)))
            (broadcastInDim S512 ![] bcast_S_S512 (constant (F := Ideal) S_ .f32 0x3F800000#32))
            (broadcastInDim S512 ![] bcast_S_S512 (constant (F := Ideal) S_ .f32 0x00000000#32))))))
      (broadcastInDim S512x128 ![0, 1] bcast_S1x128_S512x128_0_1 (broadcastInDim S1x128 ![1] bcast_S128_S1x128_1 b2)))

theorem kPool_eq (ei : IVec S2x1600000 32) (bt : IVec S100000 32) (b2 : FVec Ideal S128 .f32) (conv : FVec Ideal S100000x128 .f32) :
    kPool ei bt b2 conv = poolOf (kDinvCol ei) bt b2 conv := rfl

/-! ## Each stretch's results from any contents -/

section Stretches
variable (X : Valuation τ sig (Elt Ideal))

/-- The two stretches before the first region: the column of the selected degree factors. -/
theorem stretch_dinv :
    StableHlo.after hostOps0_2 (StableHlo.after hostOps0_1 X) (Proc.devRef .tc main_v15)
      = shapeCast S100000x1
          (select (X (Proc.devRef .tc main_v12)) (X (Proc.devRef .tc main_v13))
            (broadcastInDim S100000 ![] bcast_S_S100000 (id (X (Proc.devRef .tc main_cst_2))))) shapeCasts_S100000_S100000x1 := by
  after_results_simp; rfl

/-- The stretch before the second region: the neighbourhood sum of the first region's rows. -/
theorem stretch_conv :
    StableHlo.after hostOps1 X (Proc.devRef .tc main_v26) = convOf (X (Proc.devRef .tc main_v3)) (X (Proc.devRef .tc main_v6)) (X (Proc.devRef .tc main_v16)) := by
  after_results_simp; rfl
/-- … the first bias as a row. -/
theorem stretch_b1 : StableHlo.after hostOps1 X (Proc.devRef .tc main_v31) = kB1Row (X (Proc.devRef .tc main_arg4)) := by
  after_results_simp; rfl
/-- … the normalisation's scale as a row. -/
theorem stretch_scale : StableHlo.after hostOps1 X (Proc.devRef .tc main_v32) = kScaleRow (X (Proc.devRef .tc main_arg5)) := by
  after_results_simp; rfl
/-- … the normalisation's shift as a row. -/
theorem stretch_beta : StableHlo.after hostOps1 X (Proc.devRef .tc main_v33) = kBetaRow (X (Proc.devRef .tc main_arg6)) := by
  after_results_simp; rfl

/-- The three stretches before the third region: the pooled rows of the neighbourhood sum of the second region's rows. -/
theorem stretch_pool :
    StableHlo.after hostOps2_2 (StableHlo.after hostOps2_1 (StableHlo.after hostOps2 X)) (Proc.devRef .tc main_v68)
      = poolOf (X (Proc.devRef .tc main_v15)) (X (Proc.devRef .tc main_arg2)) (X (Proc.devRef .tc main_arg8))
          (convOf (X (Proc.devRef .tc main_v3)) (X (Proc.devRef .tc main_v6)) (X (Proc.devRef .tc main_v34))) := by
  after_results_simp
  simp only [cast_eq]
  unfold poolOf convOf srcColOf kCount kBatchIdx
  with_reducible rfl
/-- … the classifier's bias as a row. -/
theorem stretch_clsb :
    StableHlo.after hostOps2_2 (StableHlo.after hostOps2_1 (StableHlo.after hostOps2 X)) (Proc.devRef .tc main_v69)
      = kClsbRow (X (Proc.devRef .tc main_arg10)) := by
  after_results_simp; rfl

end Stretches

/-! ## The walk -/

/-- A stretch leaves a buffer none of its operations writes as it found it: each operation writes its own result
    buffer only, and that is another reference. -/
local macro "keeps " ops:ident b:ident : tactic => `(tactic| (
  refine StableHlo.after_of_forall_not_mem (b := Proc.devRef .tc $b) _ _ (List.forall_iff_forall_mem.mp ?_)
  simp only [$ops:ident, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))

variable (m : (ℓ : Loc nD τ sig) → Buf (Elt Ideal) ℓ) (ρ : Dev nD → PrngReg) (c : Dev nD)

/-! ### Buffers that are only read: back to where they were written, or to the launch -/

/-- The feature rows reach the first region as launched. -/
theorem W3_x : Gen.W3 m ρ c (Proc.devRef .tc main_arg0) = m ((c : Thread nD τ).loc main_arg0) :=
  calc Gen.W3 m ρ c (Proc.devRef .tc main_arg0)
    _ = Gen.W2 m ρ c (Proc.devRef .tc main_arg0) := by keeps hostOps0_2 main_arg0
    _ = Gen.W1 m ρ c (Proc.devRef .tc main_arg0) := by keeps hostOps0_1 main_arg0
    _ = Gen.W0 m ρ c (Proc.devRef .tc main_arg0) := by keeps hostOps0 main_arg0
    _ = m ((c : Thread nD τ).loc main_arg0) := rfl

/-- The first weight matrix reaches the first region as launched. -/
theorem W3_w1 : Gen.W3 m ρ c (Proc.devRef .tc main_arg3) = m ((c : Thread nD τ).loc main_arg3) :=
  calc Gen.W3 m ρ c (Proc.devRef .tc main_arg3)
    _ = Gen.W2 m ρ c (Proc.devRef .tc main_arg3) := by keeps hostOps0_2 main_arg3
    _ = Gen.W1 m ρ c (Proc.devRef .tc main_arg3) := by keeps hostOps0_1 main_arg3
    _ = Gen.W0 m ρ c (Proc.devRef .tc main_arg3) := by keeps hostOps0 main_arg3
    _ = m ((c : Thread nD τ).loc main_arg3) := rfl

/-- The first bias is as launched when the stretch after the first region reads it. -/
theorem W4_b1 : Gen.W4 m ρ c (Proc.devRef .tc main_arg4) = m ((c : Thread nD τ).loc main_arg4) :=
  calc Gen.W4 m ρ c (Proc.devRef .tc main_arg4)
    _ = Gen.W3 m ρ c (Proc.devRef .tc main_arg4) := Gen.W4_of_ne m ρ c main_arg4 (by decide)
    _ = Gen.W2 m ρ c (Proc.devRef .tc main_arg4) := by keeps hostOps0_2 main_arg4
    _ = Gen.W1 m ρ c (Proc.devRef .tc main_arg4) := by keeps hostOps0_1 main_arg4
    _ = Gen.W0 m ρ c (Proc.devRef .tc main_arg4) := by keeps hostOps0 main_arg4
    _ = m ((c : Thread nD τ).loc main_arg4) := rfl

/-- The normalisation's weight likewise. -/
theorem W4_gamma : Gen.W4 m ρ c (Proc.devRef .tc main_arg5) = m ((c : Thread nD τ).loc main_arg5) :=
  calc Gen.W4 m ρ c (Proc.devRef .tc main_arg5)
    _ = Gen.W3 m ρ c (Proc.devRef .tc main_arg5) := Gen.W4_of_ne m ρ c main_arg5 (by decide)
    _ = Gen.W2 m ρ c (Proc.devRef .tc main_arg5) := by keeps hostOps0_2 main_arg5
    _ = Gen.W1 m ρ c (Proc.devRef .tc main_arg5) := by keeps hostOps0_1 main_arg5
    _ = Gen.W0 m ρ c (Proc.devRef .tc main_arg5) := by keeps hostOps0 main_arg5
    _ = m ((c : Thread nD τ).loc main_arg5) := rfl

/-- The normalisation's shift likewise. -/
theorem W4_beta : Gen.W4 m ρ c (Proc.devRef .tc main_arg6) = m ((c : Thread nD τ).loc main_arg6) :=
  calc Gen.W4 m ρ c (Proc.devRef .tc main_arg6)
    _ = Gen.W3 m ρ c (Proc.devRef .tc main_arg6) := Gen.W4_of_ne m ρ c main_arg6 (by decide)
    _ = Gen.W2 m ρ c (Proc.devRef .tc main_arg6) := by keeps hostOps0_2 main_arg6
    _ = Gen.W1 m ρ c (Proc.devRef .tc main_arg6) := by keeps hostOps0_1 main_arg6
    _ = Gen.W0 m ρ c (Proc.devRef .tc main_arg6) := by keeps hostOps0 main_arg6
    _ = m ((c : Thread nD τ).loc main_arg6) := rfl

/-- The second weight matrix reaches the second region as launched. -/
theorem W5_w2 : Gen.W5 m ρ c (Proc.devRef .tc main_arg7) = m ((c : Thread nD τ).loc main_arg7) :=
  calc Gen.W5 m ρ c (Proc.devRef .tc main_arg7)
    _ = Gen.W4 m ρ c (Proc.devRef .tc main_arg7) := by keeps hostOps1 main_arg7
    _ = Gen.W3 m ρ c (Proc.devRef .tc main_arg7) := Gen.W4_of_ne m ρ c main_arg7 (by decide)
    _ = Gen.W2 m ρ c (Proc.devRef .tc main_arg7) := by keeps hostOps0_2 main_arg7
    _ = Gen.W1 m ρ c (Proc.devRef .tc main_arg7) := by keeps hostOps0_1 main_arg7
    _ = Gen.W0 m ρ c (Proc.devRef .tc main_arg7) := by keeps hostOps0 main_arg7
    _ = m ((c : Thread nD τ).loc main_arg7) := rfl

/-- The nodes' graphs are as launched when the stretches after the second region read them. -/
theorem W6_batch : Gen.W6 m ρ c (Proc.devRef .tc main_arg2) = m ((c : Thread nD τ).loc main_arg2) :=
  calc Gen.W6 m ρ c (Proc.devRef .tc main_arg2)
    _ = Gen.W5 m ρ c (Proc.devRef .tc main_arg2) := Gen.W6_of_ne m ρ c main_arg2 (by decide)
    _ = Gen.W4 m ρ c (Proc.devRef .tc main_arg2) := by keeps hostOps1 main_arg2
    _ = Gen.W3 m ρ c (Proc.devRef .tc main_arg2) := Gen.W4_of_ne m ρ c main_arg2 (by decide)
    _ = Gen.W2 m ρ c (Proc.devRef .tc main_arg2) := by keeps hostOps0_2 main_arg2
    _ = Gen.W1 m ρ c (Proc.devRef .tc main_arg2) := by keeps hostOps0_1 main_arg2
    _ = Gen.W0 m ρ c (Proc.devRef .tc main_arg2) := by keeps hostOps0 main_arg2
    _ = m ((c : Thread nD τ).loc main_arg2) := rfl

/-- The second bias likewise. -/
theorem W6_b2 : Gen.W6 m ρ c (Proc.devRef .tc main_arg8) = m ((c : Thread nD τ).loc main_arg8) :=
  calc Gen.W6 m ρ c (Proc.devRef .tc main_arg8)
    _ = Gen.W5 m ρ c (Proc.devRef .tc main_arg8) := Gen.W6_of_ne m ρ c main_arg8 (by decide)
    _ = Gen.W4 m ρ c (Proc.devRef .tc main_arg8) := by keeps hostOps1 main_arg8
    _ = Gen.W3 m ρ c (Proc.devRef .tc main_arg8) := Gen.W4_of_ne m ρ c main_arg8 (by decide)
    _ = Gen.W2 m ρ c (Proc.devRef .tc main_arg8) := by keeps hostOps0_2 main_arg8
    _ = Gen.W1 m ρ c (Proc.devRef .tc main_arg8) := by keeps hostOps0_1 main_arg8
    _ = Gen.W0 m ρ c (Proc.devRef .tc main_arg8) := by keeps hostOps0 main_arg8
    _ = m ((c : Thread nD τ).loc main_arg8) := rfl

/-- The classifier's bias likewise. -/
theorem W6_clsb : Gen.W6 m ρ c (Proc.devRef .tc main_arg10) = m ((c : Thread nD τ).loc main_arg10) :=
  calc Gen.W6 m ρ c (Proc.devRef .tc main_arg10)
    _ = Gen.W5 m ρ c (Proc.devRef .tc main_arg10) := Gen.W6_of_ne m ρ c main_arg10 (by decide)
    _ = Gen.W4 m ρ c (Proc.devRef .tc main_arg10) := by keeps hostOps1 main_arg10
    _ = Gen.W3 m ρ c (Proc.devRef .tc main_arg10) := Gen.W4_of_ne m ρ c main_arg10 (by decide)
    _ = Gen.W2 m ρ c (Proc.devRef .tc main_arg10) := by keeps hostOps0_2 main_arg10
    _ = Gen.W1 m ρ c (Proc.devRef .tc main_arg10) := by keeps hostOps0_1 main_arg10
    _ = Gen.W0 m ρ c (Proc.devRef .tc main_arg10) := by keeps hostOps0 main_arg10
    _ = m ((c : Thread nD τ).loc main_arg10) := rfl

/-- The classifier's matrix reaches the third region as launched. -/
theorem W9_wc : Gen.W9 m ρ c (Proc.devRef .tc main_arg9) = m ((c : Thread nD τ).loc main_arg9) :=
  calc Gen.W9 m ρ c (Proc.devRef .tc main_arg9)
    _ = Gen.W8 m ρ c (Proc.devRef .tc main_arg9) := by keeps hostOps2_2 main_arg9
    _ = Gen.W7 m ρ c (Proc.devRef .tc main_arg9) := by keeps hostOps2_1 main_arg9
    _ = Gen.W6 m ρ c (Proc.devRef .tc main_arg9) := by keeps hostOps2 main_arg9
    _ = Gen.W5 m ρ c (Proc.devRef .tc main_arg9) := Gen.W6_of_ne m ρ c main_arg9 (by decide)
    _ = Gen.W4 m ρ c (Proc.devRef .tc main_arg9) := by keeps hostOps1 main_arg9
    _ = Gen.W3 m ρ c (Proc.devRef .tc main_arg9) := Gen.W4_of_ne m ρ c main_arg9 (by decide)
    _ = Gen.W2 m ρ c (Proc.devRef .tc main_arg9) := by keeps hostOps0_2 main_arg9
    _ = Gen.W1 m ρ c (Proc.devRef .tc main_arg9) := by keeps hostOps0_1 main_arg9
    _ = Gen.W0 m ρ c (Proc.devRef .tc main_arg9) := by keeps hostOps0 main_arg9
    _ = m ((c : Thread nD τ).loc main_arg9) := rfl

/-- The source list is not written between the first stretch and the first region's exit. -/
theorem W4_src_keep : Gen.W4 m ρ c (Proc.devRef .tc main_v3) = Gen.W1 m ρ c (Proc.devRef .tc main_v3) :=
  calc Gen.W4 m ρ c (Proc.devRef .tc main_v3)
    _ = Gen.W3 m ρ c (Proc.devRef .tc main_v3) := Gen.W4_of_ne m ρ c main_v3 (by decide)
    _ = Gen.W2 m ρ c (Proc.devRef .tc main_v3) := by keeps hostOps0_2 main_v3
    _ = Gen.W1 m ρ c (Proc.devRef .tc main_v3) := by keeps hostOps0_1 main_v3

/-- Nor is the destination list. -/
theorem W4_dst_keep : Gen.W4 m ρ c (Proc.devRef .tc main_v6) = Gen.W1 m ρ c (Proc.devRef .tc main_v6) :=
  calc Gen.W4 m ρ c (Proc.devRef .tc main_v6)
    _ = Gen.W3 m ρ c (Proc.devRef .tc main_v6) := Gen.W4_of_ne m ρ c main_v6 (by decide)
    _ = Gen.W2 m ρ c (Proc.devRef .tc main_v6) := by keeps hostOps0_2 main_v6
    _ = Gen.W1 m ρ c (Proc.devRef .tc main_v6) := by keeps hostOps0_1 main_v6

/-- The source list is not written up to the second region's exit. -/
theorem W6_src_keep : Gen.W6 m ρ c (Proc.devRef .tc main_v3) = Gen.W1 m ρ c (Proc.devRef .tc main_v3) :=
  calc Gen.W6 m ρ c (Proc.devRef .tc main_v3)
    _ = Gen.W5 m ρ c (Proc.devRef .tc main_v3) := Gen.W6_of_ne m ρ c main_v3 (by decide)
    _ = Gen.W4 m ρ c (Proc.devRef .tc main_v3) := by keeps hostOps1 main_v3
    _ = Gen.W3 m ρ c (Proc.devRef .tc main_v3) := Gen.W4_of_ne m ρ c main_v3 (by decide)
    _ = Gen.W2 m ρ c (Proc.devRef .tc main_v3) := by keeps hostOps0_2 main_v3
    _ = Gen.W1 m ρ c (Proc.devRef .tc main_v3) := by keeps hostOps0_1 main_v3

/-- Nor is the destination list. -/
theorem W6_dst_keep : Gen.W6 m ρ c (Proc.devRef .tc main_v6) = Gen.W1 m ρ c (Proc.devRef .tc main_v6) :=
  calc Gen.W6 m ρ c (Proc.devRef .tc main_v6)
    _ = Gen.W5 m ρ c (Proc.devRef .tc main_v6) := Gen.W6_of_ne m ρ c main_v6 (by decide)
    _ = Gen.W4 m ρ c (Proc.devRef .tc main_v6) := by keeps hostOps1 main_v6
    _ = Gen.W3 m ρ c (Proc.devRef .tc main_v6) := Gen.W4_of_ne m ρ c main_v6 (by decide)
    _ = Gen.W2 m ρ c (Proc.devRef .tc main_v6) := by keeps hostOps0_2 main_v6
    _ = Gen.W1 m ρ c (Proc.devRef .tc main_v6) := by keeps hostOps0_1 main_v6

/-- The degree factors' column is only read between the first region's entry and the second's. -/
theorem W5_dinv_keep : Gen.W5 m ρ c (Proc.devRef .tc main_v15) = Gen.W3 m ρ c (Proc.devRef .tc main_v15) :=
  calc Gen.W5 m ρ c (Proc.devRef .tc main_v15)
    _ = Gen.W4 m ρ c (Proc.devRef .tc main_v15) := by keeps hostOps1 main_v15
    _ = Gen.W3 m ρ c (Proc.devRef .tc main_v15) := (Gen.W4_arr m ρ c 2).trans (((Gen.dat0 (Gen.V3 m ρ) c).arrAt_in 2 rfl _).trans (Gen.A_eq0 (Gen.V3 m ρ) c 2))

/-- And up to the second region's exit. -/
theorem W6_dinv_keep : Gen.W6 m ρ c (Proc.devRef .tc main_v15) = Gen.W3 m ρ c (Proc.devRef .tc main_v15) :=
  calc Gen.W6 m ρ c (Proc.devRef .tc main_v15)
    _ = Gen.W5 m ρ c (Proc.devRef .tc main_v15) := (Gen.W6_arr m ρ c 1).trans (((Gen.dat1 (Gen.V5 m ρ) c).arrAt_in 1 rfl _).trans (Gen.A_eq1 (Gen.V5 m ρ) c 1))
    _ = Gen.W4 m ρ c (Proc.devRef .tc main_v15) := by keeps hostOps1 main_v15
    _ = Gen.W3 m ρ c (Proc.devRef .tc main_v15) := (Gen.W4_arr m ρ c 2).trans (((Gen.dat0 (Gen.V3 m ρ) c).arrAt_in 2 rfl _).trans (Gen.A_eq0 (Gen.V3 m ρ) c 2))

/-! ### The first stretch -/

/-- The source list. -/
theorem W1_src : Gen.W1 m ρ c (Proc.devRef .tc main_v3) = kSrcRaw (m ((c : Thread nD τ).loc main_arg1)) := by
  show StableHlo.after hostOps0 (Gen.W0 m ρ c) (Proc.devRef .tc main_v3) = _
  after_results; rfl
/-- The destination list. -/
theorem W1_dst : Gen.W1 m ρ c (Proc.devRef .tc main_v6) = kDstRaw (m ((c : Thread nD τ).loc main_arg1)) := by
  show StableHlo.after hostOps0 (Gen.W0 m ρ c) (Proc.devRef .tc main_v6) = _
  after_results; rfl
set_option maxHeartbeats 1000000 in
/-- Where the degree is positive. -/
theorem W1_pos : Gen.W1 m ρ c (Proc.devRef .tc main_v12)
    = cmpf .ogt (kDeg (m ((c : Thread nD τ).loc main_arg1))) (broadcastInDim S100000 ![] bcast_S_S100000 (constant (F := Ideal) S_ .f32 0x00000000#32)) := by
  show StableHlo.after hostOps0 (Gen.W0 m ρ c) (Proc.devRef .tc main_v12) = _
  after_results; rfl
set_option maxHeartbeats 1000000 in
/-- The reciprocal square roots of the degrees. -/
theorem W1_rsq : Gen.W1 m ρ c (Proc.devRef .tc main_v13) = Host.rsqrt (F := Ideal) (kDeg (m ((c : Thread nD τ).loc main_arg1))) := by
  show StableHlo.after hostOps0 (Gen.W0 m ρ c) (Proc.devRef .tc main_v13) = _
  after_results; rfl
/-- The zero the factor falls back to. -/
theorem W1_zero : Gen.W1 m ρ c (Proc.devRef .tc main_cst_2) = constant (F := Ideal) S_ .f32 0x00000000#32 := by
  show StableHlo.after hostOps0 (Gen.W0 m ρ c) (Proc.devRef .tc main_cst_2) = _
  after_results

theorem W4_src : Gen.W4 m ρ c (Proc.devRef .tc main_v3) = kSrcRaw (m ((c : Thread nD τ).loc main_arg1)) := (W4_src_keep m ρ c).trans (W1_src m ρ c)
theorem W4_dst : Gen.W4 m ρ c (Proc.devRef .tc main_v6) = kDstRaw (m ((c : Thread nD τ).loc main_arg1)) := (W4_dst_keep m ρ c).trans (W1_dst m ρ c)
theorem W6_src : Gen.W6 m ρ c (Proc.devRef .tc main_v3) = kSrcRaw (m ((c : Thread nD τ).loc main_arg1)) := (W6_src_keep m ρ c).trans (W1_src m ρ c)
theorem W6_dst : Gen.W6 m ρ c (Proc.devRef .tc main_v6) = kDstRaw (m ((c : Thread nD τ).loc main_arg1)) := (W6_dst_keep m ρ c).trans (W1_dst m ρ c)

/-- The degree factors' column when the first region is entered. -/
theorem W3_dinv : Gen.W3 m ρ c (Proc.devRef .tc main_v15) = kDinvCol (m ((c : Thread nD τ).loc main_arg1)) := by
  show StableHlo.after hostOps0_2 (StableHlo.after hostOps0_1 (Gen.W1 m ρ c)) (Proc.devRef .tc main_v15) = _
  rw [stretch_dinv (Gen.W1 m ρ c), W1_pos, W1_rsq, W1_zero]; rfl
theorem W5_dinv : Gen.W5 m ρ c (Proc.devRef .tc main_v15) = kDinvCol (m ((c : Thread nD τ).loc main_arg1)) := (W5_dinv_keep m ρ c).trans (W3_dinv m ρ c)
theorem W6_dinv : Gen.W6 m ρ c (Proc.devRef .tc main_v15) = kDinvCol (m ((c : Thread nD τ).loc main_arg1)) := (W6_dinv_keep m ρ c).trans (W3_dinv m ρ c)

/-! ### The first region -/

theorem entry0_x : Gen.V3 m ρ c (Pipeline.arrRef spec0 0) = (m ((c : Thread nD τ).loc main_arg0)) := W3_x m ρ c
theorem entry0_w : Gen.V3 m ρ c (Pipeline.arrRef spec0 1) = (m ((c : Thread nD τ).loc main_arg3)) := W3_w1 m ρ c
theorem entry0_dinv : Gen.V3 m ρ c (Pipeline.arrRef spec0 2) = kDinvCol (m ((c : Thread nD τ).loc main_arg1)) := W3_dinv m ρ c

/-- The first region leaves, in its result buffer, the scaled product of the arguments. -/
theorem exit0 : Gen.W4 m ρ c (Proc.devRef .tc main_v16) = Cert.Layers.scaledProduct (m ((c : Thread nD τ).loc main_arg0)) (m ((c : Thread nD τ).loc main_arg3)) (kDinvCol (m ((c : Thread nD τ).loc main_arg1))) := by
  refine (Gen.W4_arr m ρ c 3).trans ?_
  rw [Cert.KernelIdeal.Regions.array0 (Gen.V3 m ρ) c, entry0_x, entry0_w, entry0_dinv]

/-! ### The second region -/

theorem entry1_conv : Gen.V5 m ρ c (Pipeline.arrRef spec1 0) = kConv (m ((c : Thread nD τ).loc main_arg1)) (Cert.Layers.scaledProduct (m ((c : Thread nD τ).loc main_arg0)) (m ((c : Thread nD τ).loc main_arg3)) (kDinvCol (m ((c : Thread nD τ).loc main_arg1)))) := by
  show StableHlo.after hostOps1 (Gen.W4 m ρ c) (Proc.devRef .tc main_v26) = _
  rw [stretch_conv (Gen.W4 m ρ c), W4_src, W4_dst, exit0, kConv_eq]
theorem entry1_dinv : Gen.V5 m ρ c (Pipeline.arrRef spec1 1) = kDinvCol (m ((c : Thread nD τ).loc main_arg1)) := W5_dinv m ρ c
theorem entry1_b1 : Gen.V5 m ρ c (Pipeline.arrRef spec1 2) = kB1Row (m ((c : Thread nD τ).loc main_arg4)) := by
  show StableHlo.after hostOps1 (Gen.W4 m ρ c) (Proc.devRef .tc main_v31) = _
  rw [stretch_b1 (Gen.W4 m ρ c), W4_b1]
theorem entry1_scale : Gen.V5 m ρ c (Pipeline.arrRef spec1 3) = kScaleRow (m ((c : Thread nD τ).loc main_arg5)) := by
  show StableHlo.after hostOps1 (Gen.W4 m ρ c) (Proc.devRef .tc main_v32) = _
  rw [stretch_scale (Gen.W4 m ρ c), W4_gamma]
theorem entry1_beta : Gen.V5 m ρ c (Pipeline.arrRef spec1 4) = kBetaRow (m ((c : Thread nD τ).loc main_arg6)) := by
  show StableHlo.after hostOps1 (Gen.W4 m ρ c) (Proc.devRef .tc main_v33) = _
  rw [stretch_beta (Gen.W4 m ρ c), W4_beta]
theorem entry1_w2 : Gen.V5 m ρ c (Pipeline.arrRef spec1 5) = (m ((c : Thread nD τ).loc main_arg7)) := W5_w2 m ρ c

/-- The second region leaves, in its result buffer, the activated product of the neighbourhood sum of the first
    region's rows. -/
theorem exit1 : Gen.W6 m ρ c (Proc.devRef .tc main_v34) = Cert.Layers.activatedProduct (kConv (m ((c : Thread nD τ).loc main_arg1)) (Cert.Layers.scaledProduct (m ((c : Thread nD τ).loc main_arg0)) (m ((c : Thread nD τ).loc main_arg3)) (kDinvCol (m ((c : Thread nD τ).loc main_arg1))))) (kDinvCol (m ((c : Thread nD τ).loc main_arg1))) (kB1Row (m ((c : Thread nD τ).loc main_arg4))) (kScaleRow (m ((c : Thread nD τ).loc main_arg5))) (kBetaRow (m ((c : Thread nD τ).loc main_arg6))) (m ((c : Thread nD τ).loc main_arg7)) := by
  refine (Gen.W6_arr m ρ c 6).trans ?_
  rw [Cert.KernelIdeal.Regions.array1 (Gen.V5 m ρ) c, entry1_conv, entry1_dinv, entry1_b1, entry1_scale, entry1_beta, entry1_w2]

/-! ### The third region and the results -/

/-- The pooled rows as a function of the argument arrays: the first result. -/
def kPooled : FVec Ideal S512x128 .f32 :=
  kPool (m ((c : Thread nD τ).loc main_arg1)) (m ((c : Thread nD τ).loc main_arg2)) (m ((c : Thread nD τ).loc main_arg8)) (kConv (m ((c : Thread nD τ).loc main_arg1)) (Cert.Layers.activatedProduct (kConv (m ((c : Thread nD τ).loc main_arg1)) (Cert.Layers.scaledProduct (m ((c : Thread nD τ).loc main_arg0)) (m ((c : Thread nD τ).loc main_arg3)) (kDinvCol (m ((c : Thread nD τ).loc main_arg1))))) (kDinvCol (m ((c : Thread nD τ).loc main_arg1))) (kB1Row (m ((c : Thread nD τ).loc main_arg4))) (kScaleRow (m ((c : Thread nD τ).loc main_arg5))) (kBetaRow (m ((c : Thread nD τ).loc main_arg6))) (m ((c : Thread nD τ).loc main_arg7))))

theorem entry2_pool : Gen.V9 m ρ c (Pipeline.arrRef spec2 0) = kPooled m c := by
  show StableHlo.after hostOps2_2 (StableHlo.after hostOps2_1 (StableHlo.after hostOps2 (Gen.W6 m ρ c))) (Proc.devRef .tc main_v68) = _
  rw [stretch_pool (Gen.W6 m ρ c), W6_src, W6_dst, W6_dinv, W6_batch, W6_b2, exit1]
  simp only [kPooled, kPool_eq, kConv_eq]
theorem entry2_wc : Gen.V9 m ρ c (Pipeline.arrRef spec2 1) = (m ((c : Thread nD τ).loc main_arg9)) := W9_wc m ρ c
theorem entry2_clsb : Gen.V9 m ρ c (Pipeline.arrRef spec2 2) = kClsbRow (m ((c : Thread nD τ).loc main_arg10)) := by
  show StableHlo.after hostOps2_2 (StableHlo.after hostOps2_1 (StableHlo.after hostOps2 (Gen.W6 m ρ c))) (Proc.devRef .tc main_v69) = _
  rw [stretch_clsb (Gen.W6 m ρ c), W6_clsb]

/-- The first result: the third region only reads the pooled rows. -/
theorem result_g : Gen.W10 m ρ c (Proc.devRef .tc main_v68) = kPooled m c :=
  ((Gen.W10_arr m ρ c 0).trans (((Gen.dat2 (Gen.V9 m ρ) c).arrAt_in 0 rfl _).trans (Gen.A_eq2 (Gen.V9 m ρ) c 0))).trans (entry2_pool m ρ c)

/-- The second result: the third region leaves the logarithm of the softmax of the pooled rows' logits. -/
theorem result_out : Gen.W10 m ρ c (Proc.devRef .tc main_v70) = Cert.Layers.logSoftmax (kPooled m c) (m ((c : Thread nD τ).loc main_arg9)) (kClsbRow (m ((c : Thread nD τ).loc main_arg10))) := by
  refine (Gen.W10_arr m ρ c 3).trans ?_
  rw [Cert.KernelIdeal.Regions.array2 (Gen.V9 m ρ) c, entry2_pool, entry2_wc, entry2_clsb]

end Cert.KernelIdeal.Run

end
-- ==== Proof.LibScatterRows.lean ====
/-
  A scatter-add along the first axis, read at one entry.

  `x.at[idx].add(upd)` along the first axis of an [N, C] array, by E indices held as an [E, 1] array and E update
  rows [E, C], leaves at entry (r, k) the operand's entry plus the sum of upd (e, k) over the update rows e that
  LAND on row r: those whose index, read signed and not clamped, is r. An update row whose index lies outside
  [0, N) lands nowhere and is dropped. The same for a vector [N] with updates [E].
-/
import Idealize.ShloMosaic.PureOps.Ideal.Laws
import Idealize.ShloMosaic.Lib.ValueIdx

noncomputable section

namespace Cert.RowScatter

open Idealize.ShloMosaic Idealize.ShloMosaic.ValueIdx

/-- Update row `e` lands on operand row `r`: the index at e, read signed, is r. -/
abbrev lands {N E w : Nat} (idx : IVec ⟨2, ![E, 1]⟩ w) (e : Fin E) (r : Fin N) : Prop :=
  (idx (ix2 e 0)).toInt = (r.val : Int)

/-! ## Rows: an [N, C] operand, [E, C] updates -/

/-- The dimension numbers of `x.at[idx].add(upd)` along the first axis of an [N, C] array. -/
abbrev rowDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ :=
  { updateWindowDims := [1], insertedWindowDims := [0], scatterDimsToOperandDims := [0], indexVectorDim := 1, wf := wf }

section Rows

variable {N E C w : Nat} (wf : ScatterDims.WF ⟨2, ![N, C]⟩ ⟨2, ![E, 1]⟩ ⟨2, ![E, C]⟩ [1] [0] [0] 1)

theorem start_zero (idx : IVec ⟨2, ![E, 1]⟩ w) (e : Fin E) (k : Fin C) :
    (rowDims N E C wf).start (ix2 e k) idx 0 = (idx (ix2 e 0)).toInt := by
  unfold ScatterDims.start
  rw [dif_pos (show (0 : Fin 2) ∈ (rowDims N E C wf).scatterDimsToOperandDims from List.mem_singleton.mpr rfl)]
  have hsi : (rowDims N E C wf).siIdx (ix2 e k) ⟨List.idxOf (0 : Fin 2) (rowDims N E C wf).scatterDimsToOperandDims,
      List.idxOf_lt_length_iff.2 (List.mem_singleton.mpr rfl)⟩ = ix2 e 0 := by
    funext b
    match b with
    | ⟨0, _⟩ => rfl
    | ⟨1, _⟩ => rfl
  rw [hsi]

theorem start_one (idx : IVec ⟨2, ![E, 1]⟩ w) (e : Fin E) (k : Fin C) :
    (rowDims N E C wf).start (ix2 e k) idx 1 = 0 := by
  unfold ScatterDims.start
  rw [dif_neg (show (1 : Fin 2) ∉ ([0] : List (Fin 2)) by decide)]

theorem window_zero (e : Fin E) (k : Fin C) : (rowDims N E C wf).window (ix2 e k) 0 = 0 := by
  unfold ScatterDims.window
  have hmem : (0 : Fin 2) ∉ (rowDims N E C wf).sKept := fun h =>
    absurd (List.mem_filter.mp (show (0 : Fin 2) ∈ (List.finRange 2).filter (· ∉ ([0] : List (Fin 2))) from h)).2 (by decide)
  rw [dif_neg hmem]

theorem window_one (e : Fin E) (k : Fin C) : (rowDims N E C wf).window (ix2 e k) 1 = k.val := by
  unfold ScatterDims.window
  have hmem : (1 : Fin 2) ∈ (rowDims N E C wf).sKept :=
    show (1 : Fin 2) ∈ (List.finRange 2).filter (· ∉ ([0] : List (Fin 2))) from List.mem_filter.mpr ⟨List.mem_finRange _, by decide⟩
  rw [dif_pos hmem]
  rfl

/-- Where update entry (e, k) lands: on (r, k') exactly when row e lands on r and the columns agree. -/
theorem resultIdx?_row (idx : IVec ⟨2, ![E, 1]⟩ w) (e : Fin E) (k : Fin C) (r : Fin N) (k' : Fin C) :
    (rowDims N E C wf).resultIdx? (ix2 e k) idx = some (ix2 r k') ↔ lands idx e r ∧ k = k' := by
  have hN : ((⟨2, ![N, C]⟩ : Shape).size 0) = N := rfl
  have hC : ((⟨2, ![N, C]⟩ : Shape).size 1) = C := rfl
  unfold ScatterDims.resultIdx?
  split
  · rename_i hin
    constructor
    · intro h
      have hf := Option.some.inj h
      have h0 : ((rowDims N E C wf).start (ix2 e k) idx 0 + (rowDims N E C wf).window (ix2 e k) 0).toNat = r.val :=
        congrArg (fun f => (f 0).val) hf
      have h1 : ((rowDims N E C wf).start (ix2 e k) idx 1 + (rowDims N E C wf).window (ix2 e k) 1).toNat = k'.val :=
        congrArg (fun f => (f 1).val) hf
      have hp := (hin 0).1
      rw [start_zero, window_zero] at h0 hp
      rw [start_one, window_one] at h1
      refine ⟨?_, Fin.ext ?_⟩
      · show (idx (ix2 e 0)).toInt = (r.val : Int)
        omega
      · omega
    · rintro ⟨hl, rfl⟩
      congr 1
      funext a
      refine Fin.ext ?_
      match a with
      | ⟨0, _⟩ =>
        show ((rowDims N E C wf).start (ix2 e k) idx 0 + (rowDims N E C wf).window (ix2 e k) 0).toNat = r.val
        rw [start_zero, window_zero, hl]; omega
      | ⟨1, _⟩ =>
        show ((rowDims N E C wf).start (ix2 e k) idx 1 + (rowDims N E C wf).window (ix2 e k) 1).toNat = k.val
        rw [start_one, window_one]; omega
  · rename_i hin
    constructor
    · intro h; exact absurd h (by simp)
    · rintro ⟨hl, rfl⟩
      exfalso
      apply hin
      intro a
      match a with
      | ⟨0, _⟩ =>
        show 0 ≤ (rowDims N E C wf).start (ix2 e k) idx 0 + (rowDims N E C wf).window (ix2 e k) 0
          ∧ (rowDims N E C wf).start (ix2 e k) idx 0 + (rowDims N E C wf).window (ix2 e k) 0 < ((⟨2, ![N, C]⟩ : Shape).size 0 : Nat)
        rw [start_zero, window_zero, hl, hN]
        have := r.isLt
        omega
      | ⟨1, _⟩ =>
        show 0 ≤ (rowDims N E C wf).start (ix2 e k) idx 1 + (rowDims N E C wf).window (ix2 e k) 1
          ∧ (rowDims N E C wf).start (ix2 e k) idx 1 + (rowDims N E C wf).window (ix2 e k) 1 < ((⟨2, ![N, C]⟩ : Shape).size 1 : Nat)
        rw [start_one, window_one, hC]
        have := k.isLt
        omega

set_option backward.isDefEq.respectTransparency.types false in
/-- THE ROW SCATTER-ADD READ AT (r, k): the operand's entry plus the sum, over the update rows landing on r, of
    their entry in column k. -/
theorem scatterAdd_row_apply {φ : FTy} (x : FVec Ideal ⟨2, ![N, C]⟩ φ) (idx : IVec ⟨2, ![E, 1]⟩ w)
    (upd : FVec Ideal ⟨2, ![E, C]⟩ φ) (r : Fin N) (k : Fin C) :
    Host.scatterAdd (rowDims N E C wf) x idx upd (ix2 r k)
      = x (ix2 r k) + ∑ e ∈ Finset.univ.filter (fun e : Fin E => lands idx e r), upd (ix2 e k) := by
  show x (ix2 r k) + ∑ j ∈ Finset.univ.filter (fun j => (rowDims N E C wf).resultIdx? j idx = some (ix2 r k)), upd j = _
  congr 1
  have key : ∀ j : (⟨2, ![E, C]⟩ : Shape).Idx, (rowDims N E C wf).resultIdx? j idx = some (ix2 r k) →
      lands idx (j 0) r ∧ j 1 = k := fun j hj => by
    obtain ⟨e, k', rfl⟩ : ∃ (e : Fin E) (k' : Fin C), j = ix2 e k' := ⟨j 0, j 1, eq_ix2 j⟩
    exact (resultIdx?_row wf idx e k' r k).mp hj
  refine Finset.sum_bij' (fun j _ => (j 0 : Fin E)) (fun e _ => ix2 e k) ?_ ?_ ?_ ?_ ?_
  · intro j hj
    exact Finset.mem_filter.mpr ⟨Finset.mem_univ _, (key j (Finset.mem_filter.mp hj).2).1⟩
  · intro e he
    exact Finset.mem_filter.mpr ⟨Finset.mem_univ _, (resultIdx?_row wf idx e k r k).mpr ⟨(Finset.mem_filter.mp he).2, rfl⟩⟩
  · intro j hj
    exact (congrArg (ix2 (j 0)) (key j (Finset.mem_filter.mp hj).2).2.symm).trans (eq_ix2 j).symm
  · intro e _
    rfl
  · intro j hj
    exact congrArg upd ((eq_ix2 j).trans (congrArg (ix2 (j 0)) (key j (Finset.mem_filter.mp hj).2).2))

end Rows

/-! ## Vectors: an [N] operand, [E] updates -/

/-- The dimension numbers of `x.at[idx].add(upd)` on a vector [N] with E scalar updates. -/
abbrev vecDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ :=
  { updateWindowDims := [], insertedWindowDims := [0], scatterDimsToOperandDims := [0], indexVectorDim := 1, wf := wf }

section Vecs

variable {N E w : Nat} (wf : ScatterDims.WF ⟨1, ![N]⟩ ⟨2, ![E, 1]⟩ ⟨1, ![E]⟩ [] [0] [0] 1)

theorem vstart (idx : IVec ⟨2, ![E, 1]⟩ w) (e : Fin E) :
    (vecDims N E wf).start (ix1 e) idx 0 = (idx (ix2 e 0)).toInt := by
  unfold ScatterDims.start
  rw [dif_pos (show (0 : Fin 1) ∈ (vecDims N E wf).scatterDimsToOperandDims from List.mem_singleton.mpr rfl)]
  have hsi : (vecDims N E wf).siIdx (ix1 e) ⟨List.idxOf (0 : Fin 1) (vecDims N E wf).scatterDimsToOperandDims,
      List.idxOf_lt_length_iff.2 (List.mem_singleton.mpr rfl)⟩ = ix2 e 0 := by
    funext b
    match b with
    | ⟨0, _⟩ => rfl
    | ⟨1, _⟩ => rfl
  rw [hsi]

theorem vwindow (e : Fin E) : (vecDims N E wf).window (ix1 e) 0 = 0 := by
  unfold ScatterDims.window
  have hmem : (0 : Fin 1) ∉ (vecDims N E wf).sKept := fun h =>
    absurd (List.mem_filter.mp (show (0 : Fin 1) ∈ (List.finRange 1).filter (· ∉ ([0] : List (Fin 1))) from h)).2 (by decide)
  rw [dif_neg hmem]

/-- Where update e lands: on r exactly when its index, read signed, is r. -/
theorem resultIdx?_vec (idx : IVec ⟨2, ![E, 1]⟩ w) (e : Fin E) (r : Fin N) :
    (vecDims N E wf).resultIdx? (ix1 e) idx = some (ix1 r) ↔ lands idx e r := by
  have hN : ((⟨1, ![N]⟩ : Shape).size 0) = N := rfl
  unfold ScatterDims.resultIdx?
  split
  · rename_i hin
    constructor
    · intro h
      have hf := Option.some.inj h
      have h0 : ((vecDims N E wf).start (ix1 e) idx 0 + (vecDims N E wf).window (ix1 e) 0).toNat = r.val :=
        congrArg (fun f => (f 0).val) hf
      have hp := (hin 0).1
      rw [vstart, vwindow] at h0 hp
      show (idx (ix2 e 0)).toInt = (r.val : Int)
      omega
    · intro hl
      congr 1
      funext a
      refine Fin.ext ?_
      match a with
      | ⟨0, _⟩ =>
        show ((vecDims N E wf).start (ix1 e) idx 0 + (vecDims N E wf).window (ix1 e) 0).toNat = r.val
        rw [vstart, vwindow, hl]; omega
  · rename_i hin
    constructor
    · intro h; exact absurd h (by simp)
    · intro hl
      exfalso
      apply hin
      intro a
      match a with
      | ⟨0, _⟩ =>
        show 0 ≤ (vecDims N E wf).start (ix1 e) idx 0 + (vecDims N E wf).window (ix1 e) 0
          ∧ (vecDims N E wf).start (ix1 e) idx 0 + (vecDims N E wf).window (ix1 e) 0 < ((⟨1, ![N]⟩ : Shape).size 0 : Nat)
        rw [vstart, vwindow, hl, hN]
        have := r.isLt
        omega

set_option backward.isDefEq.respectTransparency.types false in
/-- THE VECTOR SCATTER-ADD READ AT r: the operand's entry plus the sum of the updates landing on r. -/
theorem scatterAdd_vec_apply {φ : FTy} (x : FVec Ideal ⟨1, ![N]⟩ φ) (idx : IVec ⟨2, ![E, 1]⟩ w)
    (upd : FVec Ideal ⟨1, ![E]⟩ φ) (r : Fin N) :
    Host.scatterAdd (vecDims N E wf) x idx upd (ix1 r)
      = x (ix1 r) + ∑ e ∈ Finset.univ.filter (fun e : Fin E => lands idx e r), upd (ix1 e) := by
  show x (ix1 r) + ∑ j ∈ Finset.univ.filter (fun j => (vecDims N E wf).resultIdx? j idx = some (ix1 r)), upd j = _
  congr 1
  have key : ∀ j : (⟨1, ![E]⟩ : Shape).Idx, (vecDims N E wf).resultIdx? j idx = some (ix1 r) → lands idx (j 0) r :=
    fun j hj => by
      obtain ⟨e, rfl⟩ : ∃ e : Fin E, j = ix1 e := ⟨j 0, eq_ix1 j⟩
      exact (resultIdx?_vec wf idx e r).mp hj
  refine Finset.sum_bij' (fun j _ => (j 0 : Fin E)) (fun e _ => ix1 e) ?_ ?_ ?_ ?_ ?_
  · intro j hj
    exact Finset.mem_filter.mpr ⟨Finset.mem_univ _, key j (Finset.mem_filter.mp hj).2⟩
  · intro e he
    exact Finset.mem_filter.mpr ⟨Finset.mem_univ _, (resultIdx?_vec wf idx e r).mpr (Finset.mem_filter.mp he).2⟩
  · intro j _
    exact (eq_ix1 j).symm
  · intro e _
    rfl
  · intro j _
    exact congrArg upd (eq_ix1 j)

end Vecs

end Cert.RowScatter

end
-- ==== Proof.LibGatherRows.lean ====
/-
  A row gather read at one entry.

  `x[idx]` along the first axis of an [N, C] table, by E indices held as an [E, 1] array, produces an [E, C]
  array whose entry (e, k) is the table's entry (r, k): the column is the result's column, and the row r is the
  start index at e, read signed and clamped into the table — a function of e and the indices alone, not of k.
  So a function applied to every row of the table commutes with the gather, whatever the indices hold.
-/
import Idealize.ShloMosaic.PureOps.Ideal.Laws
import Idealize.ShloMosaic.Lib.ValueIdx

noncomputable section

namespace Cert.RowGather

open Idealize.ShloMosaic Idealize.ShloMosaic.ValueIdx

/-- The dimension numbers of `x[idx]` along the first axis of an [N, C] table by E indices held as an [E, 1] array:
    the second axis is the offset axis, the first is collapsed and is the one the start index names. -/
abbrev rowDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ :=
  { offsetDims := [1], collapsedSliceDims := [0], operandBatchingDims := [], startIndicesBatchingDims := [],
    startIndexMap := [0], indexVectorDim := 1, sliceSizes := ![1, C], wf := wf }

variable {N E C w : Nat}
  (wf : GatherDims.WF ⟨2, ![N, C]⟩ ⟨2, ![E, 1]⟩ ⟨2, ![E, C]⟩ [1] [0] [] [0] [] 1 ![1, C])

/-- Where result entry (e, k) reads its start index does not depend on k. -/
theorem siIdx_row (e : Fin E) (k k' : Fin C) (c : Fin (rowDims N E C wf).startIndexMap.length) :
    (rowDims N E C wf).siIdx (ix2 e k) c = (rowDims N E C wf).siIdx (ix2 e k') c := by
  funext b
  match b with
  | ⟨0, _⟩ => rfl
  | ⟨1, _⟩ => rfl

theorem start_row (idx : IVec ⟨2, ![E, 1]⟩ w) (e : Fin E) (k k' : Fin C) (a : Fin 2) :
    (rowDims N E C wf).start (ix2 e k) idx a = (rowDims N E C wf).start (ix2 e k') idx a := by
  unfold GatherDims.start
  simp only [siIdx_row wf e k k']

/-- The table row that result row `e` reads: the start index at e, read signed and clamped into the table. -/
def srcRow (idx : IVec ⟨2, ![E, 1]⟩ w) (e : Fin E) (hC : 0 < C) : Fin N :=
  (rowDims N E C wf).operandIdx (ix2 e (⟨0, hC⟩ : Fin C)) idx 0

/-- THE ROW GATHER READ AT (e, k): the table at (the row result row e reads, k). -/
theorem gather_row_apply {α : Type} (hC : 0 < C) (x : (⟨2, ![N, C]⟩ : Shape).Idx → α) (idx : IVec ⟨2, ![E, 1]⟩ w)
    (e : Fin E) (k : Fin C) :
    Host.gather (rowDims N E C wf) x idx (ix2 e k) = x (ix2 (srcRow wf idx e hC) k) := by
  unfold Host.gather
  refine congrArg x (funext fun a => Fin.ext ?_)
  match a with
  | ⟨0, _⟩ =>
    show (rowDims N E C wf).start (ix2 e k) idx 0 + (rowDims N E C wf).batchCoord (ix2 e k) 0 + (rowDims N E C wf).offCoord (ix2 e k) 0
      = (rowDims N E C wf).start (ix2 e ⟨0, hC⟩) idx 0 + (rowDims N E C wf).batchCoord (ix2 e ⟨0, hC⟩) 0 + (rowDims N E C wf).offCoord (ix2 e ⟨0, hC⟩) 0
    rw [start_row wf idx e k ⟨0, hC⟩ 0,
      GatherDims.batchCoord_eq_zero _ _ _ List.not_mem_nil, GatherDims.batchCoord_eq_zero _ _ _ List.not_mem_nil,
      GatherDims.offCoord_eq_zero _ _ _ (fun h => ((GatherDims.mem_sKept _ _).mp h).1 (List.mem_singleton.mpr rfl)),
      GatherDims.offCoord_eq_zero _ _ _ (fun h => ((GatherDims.mem_sKept _ _).mp h).1 (List.mem_singleton.mpr rfl))]
  | ⟨1, _⟩ =>
    show (rowDims N E C wf).start (ix2 e k) idx 1 + (rowDims N E C wf).batchCoord (ix2 e k) 1 + (rowDims N E C wf).offCoord (ix2 e k) 1 = k.val
    rw [GatherDims.batchCoord_eq_zero _ _ _ List.not_mem_nil]
    have hs : (rowDims N E C wf).start (ix2 e k) idx 1 = 0 := by
      unfold GatherDims.start
      rw [dif_neg (show (1 : Fin 2) ∉ ([0] : List (Fin 2)) by decide)]
    have ho : (rowDims N E C wf).offCoord (ix2 e k) 1 = k.val := by
      unfold GatherDims.offCoord
      rw [dif_pos ((GatherDims.mem_sKept _ _).mpr ⟨show (1 : Fin 2) ∉ ([0] : List (Fin 2)) by decide, List.not_mem_nil⟩)]
      rfl
    rw [hs, ho]; omega

end Cert.RowGather

end
-- ==== Proof.LibGatherVec.lean ====
/-
  A gather from a vector, and the row a first-axis gather reads.

  `d[idx]` for a vector d of length N and E indices held as an [E, 1] array reads, at e, the entry of d at the
  index at e read signed and clamped into [0, N − 1]. A row gather from an [N, C] table by the same indices reads
  the same row. When an index is non-negative and below N, the clamp does nothing: an update row that LANDS on row r
  in a scatter (its raw index read signed is r) reads row r in a gather by the same index, also after the usual
  normalisation of negative indices, which leaves non-negative ones alone.
-/
import Idealize.ShloMosaic.PureOps.Ideal.Laws
import Idealize.ShloMosaic.Lib.ValueIdx
import proofs.«168218_j3058016714895_2_alg».proof.Proof.LibGatherRows
import proofs.«168218_j3058016714895_2_alg».proof.Proof.LibScatterRows

noncomputable section

namespace Cert.VecGather

open Idealize.ShloMosaic Idealize.ShloMosaic.ValueIdx

/-- The dimension numbers of `d[idx]` for a vector [N] by E indices held as an [E, 1] array. -/
abbrev vecDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ :=
  { offsetDims := [], collapsedSliceDims := [0], operandBatchingDims := [], startIndicesBatchingDims := [],
    startIndexMap := [0], indexVectorDim := 1, sliceSizes := ![1], wf := wf }

section Vec

variable {N E w : Nat} (wf : GatherDims.WF ⟨1, ![N]⟩ ⟨2, ![E, 1]⟩ ⟨1, ![E]⟩ [] [0] [] [0] [] 1 ![1])

/-- The entry of the vector that result entry `e` reads. -/
def vecRow (idx : IVec ⟨2, ![E, 1]⟩ w) (e : Fin E) : Fin N :=
  (vecDims N E wf).operandIdx (ix1 e) idx 0

/-- THE VECTOR GATHER READ AT e. -/
theorem gather_vec_apply {α : Type} (x : (⟨1, ![N]⟩ : Shape).Idx → α) (idx : IVec ⟨2, ![E, 1]⟩ w) (e : Fin E) :
    Host.gather (vecDims N E wf) x idx (ix1 e) = x (ix1 (vecRow wf idx e)) := by
  unfold Host.gather
  exact congrArg x (eq_ix1 _)

/-- The entry read is the index at e, read signed and clamped into [0, N − 1]. -/
theorem vecRow_val (idx : IVec ⟨2, ![E, 1]⟩ w) (e : Fin E) :
    (vecRow wf idx e).val = min (idx (ix2 e 0)).toInt.toNat (N - 1) := by
  show (vecDims N E wf).start (ix1 e) idx 0 + (vecDims N E wf).batchCoord (ix1 e) 0 + (vecDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N E wf).startIndexMap from List.mem_singleton.mpr rfl)]
  have hsi : (vecDims N E wf).siIdx (ix1 e) ⟨List.idxOf (0 : Fin 1) (vecDims N E wf).startIndexMap,
      List.idxOf_lt_length_iff.2 (List.mem_singleton.mpr rfl)⟩ = ix2 e 0 := by
    funext b
    match b with
    | ⟨0, _⟩ => rfl
    | ⟨1, _⟩ => rfl
  rw [hsi]
  rfl

/-- An update row landing on r reads entry r, through indices that agree with the scatter's wherever those are
    non-negative. -/
theorem vecRow_of_lands (idx idx' : IVec ⟨2, ![E, 1]⟩ w)
    (hnorm : ∀ e : Fin E, 0 ≤ (idx (ix2 e 0)).toInt → idx' (ix2 e 0) = idx (ix2 e 0))
    (e : Fin E) (r : Fin N) (h : RowScatter.lands idx e r) : vecRow wf idx' e = r := by
  have h' : (idx (ix2 e 0)).toInt = (r.val : Int) := h
  refine Fin.ext ?_
  rw [vecRow_val, hnorm e (by omega), h']
  have := r.isLt
  omega

end Vec

section Rows

variable {N E C w : Nat}
  (wfr : GatherDims.WF ⟨2, ![N, C]⟩ ⟨2, ![E, 1]⟩ ⟨2, ![E, C]⟩ [1] [0] [] [0] [] 1 ![1, C])
  (wfv : GatherDims.WF ⟨1, ![N]⟩ ⟨2, ![E, 1]⟩ ⟨1, ![E]⟩ [] [0] [] [0] [] 1 ![1])

/-- The table row a first-axis gather reads is the index at e, read signed and clamped into [0, N − 1]. -/
theorem srcRow_val (hC : 0 < C) (idx : IVec ⟨2, ![E, 1]⟩ w) (e : Fin E) :
    (RowGather.srcRow wfr idx e hC).val = min (idx (ix2 e 0)).toInt.toNat (N - 1) := by
  show (RowGather.rowDims N E C wfr).start (ix2 e ⟨0, hC⟩) idx 0 + (RowGather.rowDims N E C wfr).batchCoord (ix2 e ⟨0, hC⟩) 0
    + (RowGather.rowDims N E C wfr).offCoord (ix2 e ⟨0, hC⟩) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (RowGather.rowDims N E C wfr).startIndexMap from List.mem_singleton.mpr rfl)]
  have hsi : (RowGather.rowDims N E C wfr).siIdx (ix2 e ⟨0, hC⟩) ⟨List.idxOf (0 : Fin 2) (RowGather.rowDims N E C wfr).startIndexMap,
      List.idxOf_lt_length_iff.2 (List.mem_singleton.mpr rfl)⟩ = ix2 e 0 := by
    funext b
    match b with
    | ⟨0, _⟩ => rfl
    | ⟨1, _⟩ => rfl
  rw [hsi]
  rfl

/-- A vector gather and a row gather by the same indices read the same row. -/
theorem vecRow_eq_srcRow (hC : 0 < C) (idx : IVec ⟨2, ![E, 1]⟩ w) (e : Fin E) :
    vecRow wfv idx e = RowGather.srcRow wfr idx e hC :=
  Fin.ext ((vecRow_val wfv idx e).trans (srcRow_val wfr hC idx e).symm)

end Rows

end Cert.VecGather

end
-- ==== Proof.DegreeFactor.lean ====
/-
  The degree factor is a non-negative real at every node, whatever the inputs hold.

  A node's degree is the number of edge slots (self-loop slots included) whose target index, read signed, is that
  node: a sum of ones over a finite set, so a natural number. The degree factor is its reciprocal square root where
  the degree is positive and zero elsewhere: in both cases a real number, and not negative.
-/
import proofs.«168218_j3058016714895_2_alg».proof.Proof.ReadP
import proofs.«168218_j3058016714895_2_alg».proof.Proof.LibScatterRows
import proofs.«168218_j3058016714895_2_alg».proof.Proof.LibGatherVec

noncomputable section

/-! ## The program's gathers and scatters are the first-axis ones -/

namespace Cert.ReferenceIdeal.Dims

open Cert.ReferenceIdeal Idealize.ShloMosaic

theorem wf_degree : ScatterDims.WF ⟨1, ![100000]⟩ ⟨2, ![1700000, 1]⟩ ⟨1, ![1700000]⟩ [] [0] [0] 1 :=
  scatter_S100000_S1700000x1_S1700000_n_0_0_1.wf
theorem wf_edges : ScatterDims.WF ⟨2, ![100000, 128]⟩ ⟨2, ![1700000, 1]⟩ ⟨2, ![1700000, 128]⟩ [1] [0] [0] 1 :=
  scatter_S100000x128_S1700000x1_S1700000x128_1_0_0_1.wf
theorem wf_pool : ScatterDims.WF ⟨2, ![512, 128]⟩ ⟨2, ![100000, 1]⟩ ⟨2, ![100000, 128]⟩ [1] [0] [0] 1 :=
  scatter_S512x128_S100000x1_S100000x128_1_0_0_1.wf
theorem wf_members : ScatterDims.WF ⟨1, ![512]⟩ ⟨2, ![100000, 1]⟩ ⟨1, ![100000]⟩ [] [0] [0] 1 :=
  scatter_S512_S100000x1_S100000_n_0_0_1.wf
theorem wf_factor : GatherDims.WF ⟨1, ![100000]⟩ ⟨2, ![1700000, 1]⟩ ⟨1, ![1700000]⟩ [] [0] [] [0] [] 1 ![1] :=
  gather_S100000_S1700000x1_S1700000_n_0_n_n_0_1_1.wf
theorem wf_rows : GatherDims.WF ⟨2, ![100000, 128]⟩ ⟨2, ![1700000, 1]⟩ ⟨2, ![1700000, 128]⟩ [1] [0] [] [0] [] 1 ![1, 128] :=
  gather_S100000x128_S1700000x1_S1700000x128_1_0_n_n_0_1_1128.wf

theorem degree_eq : scatter_S100000_S1700000x1_S1700000_n_0_0_1 = RowScatter.vecDims 100000 1700000 wf_degree := rfl
theorem edges_eq : scatter_S100000x128_S1700000x1_S1700000x128_1_0_0_1 = RowScatter.rowDims 100000 1700000 128 wf_edges := rfl
theorem pool_eq : scatter_S512x128_S100000x1_S100000x128_1_0_0_1 = RowScatter.rowDims 512 100000 128 wf_pool := rfl
theorem members_eq : scatter_S512_S100000x1_S100000_n_0_0_1 = RowScatter.vecDims 512 100000 wf_members := rfl
theorem factor_eq : gather_S100000_S1700000x1_S1700000_n_0_n_n_0_1_1 = VecGather.vecDims 100000 1700000 wf_factor := rfl
theorem rows_eq : gather_S100000x128_S1700000x1_S1700000x128_1_0_n_n_0_1_1128 = RowGather.rowDims 100000 1700000 128 wf_rows := rfl

end Cert.ReferenceIdeal.Dims

namespace Cert.ReferenceIdeal.Degree

open Cert.ReferenceIdeal Cert.ReferenceIdeal.ReadP Idealize.ShloMosaic Idealize.ShloMosaic.ValueIdx

/-- The pattern of 1.0 denotes the real number one. -/
theorem ofBits_one : Ideal.ofBits .f32 0x3F800000#32 = 1 := by
  simp [Ideal.ofBits, Ideal.ieee, -EReal.coe_mul]; norm_num

/-- How many edge slots land on node n. -/
def count (x1 : (⟨S2x1600000, .i32⟩ : BufTy).Contents (Elt Ideal)) (n : Fin 100000) : ℕ :=
  (Finset.univ.filter (fun e : Fin 1700000 => RowScatter.lands (val_main_v9 (F := Ideal) x1) e n)).card

/-- A node's degree is the number of edge slots landing on it. -/
theorem deg_apply (x1 : (⟨S2x1600000, .i32⟩ : BufTy).Contents (Elt Ideal)) (n : Fin 100000) :
    (val_main_v10 (F := Ideal) x1 (ix1 n) : EReal) = (count x1 n : EReal) := by
  unfold val_main_v10
  rw [Dims.degree_eq, RowScatter.scatterAdd_vec_apply, val_main_v8_apply, val_main_cst_0_apply]
  simp only [val_main_v7_apply, val_main_cst_apply, Ideal.ofBits_def, Ideal.ofBits_zero_f32, ofBits_one, zero_add]
  rw [Finset.sum_const, EReal.nsmul_eq_mul, mul_one]
  rfl

/-- The degree factor's real value: the reciprocal square root of a positive degree, zero at degree zero. -/
def factor (x1 : (⟨S2x1600000, .i32⟩ : BufTy).Contents (Elt Ideal)) (n : Fin 100000) : ℝ :=
  if 0 < count x1 n then (Real.sqrt (count x1 n))⁻¹ else 0

theorem factor_nonneg (x1 : (⟨S2x1600000, .i32⟩ : BufTy).Contents (Elt Ideal)) (n : Fin 100000) : 0 ≤ factor x1 n := by
  unfold factor
  split
  · exact inv_nonneg.mpr (Real.sqrt_nonneg _)
  · exact le_refl _

/-- The degree factor at a node is that real. -/
theorem dinv_apply (x1 : (⟨S2x1600000, .i32⟩ : BufTy).Contents (Elt Ideal)) (n : Fin 100000) :
    (val_main_v14 (F := Ideal) x1 (ix1 n) : EReal) = ((factor x1 n : ℝ) : EReal) := by
  rw [val_main_v14_apply, val_main_v12_apply, val_main_v13_apply, val_main_call0_v1_apply, val_main_call0_v0_apply,
    val_main_cst_2_apply, val_main_v11_apply, val_main_cst_1_apply, deg_apply]
  simp only [Ideal.cmpf_def, Ideal.hostUnary_rsqrt_def, Ideal.ofBits_def, Ideal.ofBits_zero_f32]
  unfold Scalar.select Ideal.cmp factor
  generalize count x1 n = c
  have hc : ((c : ℕ) : EReal) = (((c : ℕ) : ℝ) : EReal) := by norm_cast
  rw [hc, Ideal.rsqrt_coe]
  rcases Nat.eq_zero_or_pos c with rfl | h
  · simp
  · have hr : (0 : ℝ) < (c : ℝ) := by exact_mod_cast h
    have hlt : (0 : EReal) < (((c : ℕ) : ℝ) : EReal) := by exact_mod_cast hr
    simp [h, hlt, not_lt.mpr hr.le, hr.ne']

end Cert.ReferenceIdeal.Degree

end
-- ==== Proof.LibNonnegScale.lean ====
/-
  Two identities on the extended reals that hold with no finiteness of the summands.

  A non-negative real factor passes through a finite sum: (∑ f) · D = ∑ (f · D). On the extended reals the
  product does not distribute over the sum in general (∞ + (−∞) is −∞, and a product with zero is zero), but it
  does when the common factor is a non-negative real.

  The mean of (a + b) over a group of c members, the divisor being max(c, 1): it is the mean of a plus b when the
  group has a member, and zero when it has none (the sum is then empty). Again b and the sum of a may be infinite.
-/
import Idealize.ShloMosaic.PureOps.Ideal.Laws

noncomputable section

namespace Cert.Lib

open Idealize.ShloMosaic

/-- A non-negative real factor passes through a finite sum of extended reals. -/
theorem sum_mul_nonneg_real {ι : Type*} (s : Finset ι) (f : ι → EReal) {D : ℝ} (hD : 0 ≤ D) :
    (∑ j ∈ s, f j) * (D : EReal) = ∑ j ∈ s, f j * (D : EReal) := by
  classical
  induction s using Finset.induction_on with
  | empty => simp
  | insert a s ha ih =>
    rw [Finset.sum_insert ha, Finset.sum_insert ha, ← ih]
    exact EReal.right_distrib_of_nonneg_of_ne_top (EReal.coe_nonneg.mpr hD) (EReal.coe_ne_top D) _ _

/-- The same with the factor in front. -/
theorem nonneg_real_mul_sum {ι : Type*} (s : Finset ι) (f : ι → EReal) {D : ℝ} (hD : 0 ≤ D) :
    (D : EReal) * (∑ j ∈ s, f j) = ∑ j ∈ s, (D : EReal) * f j := by
  rw [mul_comm, sum_mul_nonneg_real s f hD]
  exact Finset.sum_congr rfl fun j _ => mul_comm _ _

/-- A sum of (a + b) over a finite set is the sum of a plus the number of members times b. -/
theorem sum_add_card_mul {ι : Type*} (s : Finset ι) (a : ι → EReal) (b : EReal) :
    (∑ j ∈ s, (a j + b)) = (∑ j ∈ s, a j) + (s.card : EReal) * b := by
  classical
  induction s using Finset.induction_on with
  | empty => simp
  | insert i s hi ih =>
    rw [Finset.sum_insert hi, Finset.sum_insert hi, ih, Finset.card_insert_of_notMem hi]
    have hc : ((s.card + 1 : ℕ) : EReal) * b = b + (s.card : EReal) * b := by
      have h1 : ((s.card + 1 : ℕ) : EReal) = (1 : EReal) + (s.card : EReal) := by
        push_cast; rw [add_comm]
      rw [h1, EReal.right_distrib_of_nonneg (by norm_num) (by exact_mod_cast Nat.zero_le _), one_mul]
    rw [hc]
    abel

/-- The pooled mean. With c the number of members: (S + c·b) / max(c, 1) = S / max(c, 1) + [c > 0]·b, where S is
    the sum of the a's (so S = 0 when there is no member). -/
theorem mean_add_const (c : ℕ) (S b : EReal) (hS : c = 0 → S = 0) :
    Ideal.div (S + (c : EReal) * b) (max (c : EReal) 1)
      = Ideal.div S (max (c : EReal) 1) + (if (0 : EReal) < (c : EReal) then (1 : EReal) else 0) * b := by
  rcases Nat.eq_zero_or_pos c with h0 | hpos
  · subst h0
    have hS0 := hS rfl
    subst hS0
    simp
  · have hc1 : (1 : ℝ) ≤ (c : ℝ) := by exact_mod_cast hpos
    have hmax : max (c : EReal) 1 = ((c : ℝ) : EReal) := by
      rw [max_eq_left]
      · norm_cast
      · exact_mod_cast hc1
    have hcne : (c : ℝ) ≠ 0 := by positivity
    have hinv : (0 : ℝ) ≤ 1 / (c : ℝ) := by positivity
    have hlt : (0 : EReal) < (c : EReal) := by exact_mod_cast hpos
    rw [hmax, Ideal.div_coe hcne, Ideal.div_coe hcne, if_pos hlt, one_mul,
      EReal.right_distrib_of_nonneg_of_ne_top (EReal.coe_nonneg.mpr hinv) (EReal.coe_ne_top _)]
    congr 1
    have hcc : ((c : ℕ) : EReal) = ((c : ℝ) : EReal) := by norm_cast
    rw [hcc, mul_comm ((c : ℝ) : EReal) b, mul_assoc, ← EReal.coe_mul]
    have : (c : ℝ) * (1 / (c : ℝ)) = 1 := by field_simp
    rw [this, EReal.coe_one, mul_one]

/-- The pooled mean with the indicator "the group has a member" given as a value: zero on an empty group, one on
    a non-empty one. -/
theorem mean_add_indicator (c : ℕ) (S b ind : EReal) (hS : c = 0 → S = 0) (h0 : c = 0 → ind = 0) (h1 : 0 < c → ind = 1) :
    Ideal.div (S + (c : EReal) * b) (max (c : EReal) 1) = Ideal.div S (max (c : EReal) 1) + ind * b := by
  rw [mean_add_const c S b hS]
  congr 2
  rcases Nat.eq_zero_or_pos c with h | h
  · rw [h0 h, h]; simp
  · rw [h1 h, if_pos (by exact_mod_cast h)]

/-- The indicator "the count is positive", as the programs compute it: a comparison with zero selecting one or zero. -/
theorem indicator_zero :
    Scalar.select (Ideal.cmp .ogt (((0 : ℕ) : EReal)) 0) (1 : EReal) 0 = 0 := by
  simp [Scalar.select, Ideal.cmp]

theorem indicator_pos (c : ℕ) (h : 0 < c) :
    Scalar.select (Ideal.cmp .ogt ((c : ℕ) : EReal) 0) (1 : EReal) 0 = 1 := by
  have hlt : (0 : EReal) < ((c : ℕ) : EReal) := by exact_mod_cast h
  simp [Scalar.select, Ideal.cmp, hlt]

end Cert.Lib

end
-- ==== Proof.LibPropagate.lean ====
/-
  Neighbourhood sums with the symmetric degree normalisation, two ways.

  Each update row e carries a table row y(s_e, ·) and lands on row r = t_e. One way scales each carried row by
  D(s_e) · D(t_e) before summing; the other carries the rows already scaled by their own D(s_e), sums, and scales the
  sum by D(r) afterwards. Every row landing on r has t_e = r, so the second factor is the same D(r) throughout the
  sum; D(r) is a non-negative real, and such a factor passes through a finite sum of extended reals whatever the
  carried rows hold.
-/
import proofs.«168218_j3058016714895_2_alg».proof.Proof.LibNonnegScale
import proofs.«168218_j3058016714895_2_alg».proof.Proof.LibGatherVec

noncomputable section

namespace Cert.Propagate

open Idealize.ShloMosaic Idealize.ShloMosaic.ValueIdx

variable {N E C w : Nat}
  (wfs : ScatterDims.WF ⟨2, ![N, C]⟩ ⟨2, ![E, 1]⟩ ⟨2, ![E, C]⟩ [1] [0] [0] 1)
  (wfv : GatherDims.WF ⟨1, ![N]⟩ ⟨2, ![E, 1]⟩ ⟨1, ![E]⟩ [] [0] [] [0] [] 1 ![1])

/-- Scaling each carried row by D(source)·D(target) before the sum is scaling the sum of the rows carried at D(source)
    by D(r) afterwards. `src e` is the table row update e carries; `idst'` are the indices the target factor is
    gathered by, equal to the scatter's wherever those are non-negative. -/
theorem scatter_scaled (Y : (⟨2, ![N, C]⟩ : Shape).Idx → EReal) (D : (⟨1, ![N]⟩ : Shape).Idx → EReal)
    (d : Fin N → ℝ) (hd : ∀ n, D (ix1 n) = ((d n : ℝ) : EReal)) (hd0 : ∀ n, 0 ≤ d n)
    (Z : FVec Ideal ⟨2, ![N, C]⟩ .f32) (hZ : ∀ i, (Z i : EReal) = 0)
    (idst idst' : IVec ⟨2, ![E, 1]⟩ w)
    (hnorm : ∀ e : Fin E, 0 ≤ (idst (ix2 e 0)).toInt → idst' (ix2 e 0) = idst (ix2 e 0))
    (src : Fin E → Fin N)
    (both own : FVec Ideal ⟨2, ![E, C]⟩ .f32)
    (hboth : ∀ e k, (both (ix2 e k) : EReal) = Y (ix2 (src e) k) * (D (ix1 (src e)) * D (ix1 (VecGather.vecRow wfv idst' e))))
    (hown : ∀ e k, (own (ix2 e k) : EReal) = Y (ix2 (src e) k) * D (ix1 (src e)))
    (r : Fin N) (k : Fin C) :
    (Host.scatterAdd (RowScatter.rowDims N E C wfs) Z idst both (ix2 r k) : EReal)
      = Host.scatterAdd (RowScatter.rowDims N E C wfs) Z idst own (ix2 r k) * D (ix1 r) := by
  rw [RowScatter.scatterAdd_row_apply, RowScatter.scatterAdd_row_apply, hZ, zero_add, zero_add, hd r,
    Lib.sum_mul_nonneg_real _ _ (hd0 r)]
  refine Finset.sum_congr rfl fun e he => ?_
  have hl : RowScatter.lands idst e r := (Finset.mem_filter.mp he).2
  rw [hboth, hown, VecGather.vecRow_of_lands wfv idst idst' hnorm e r hl, hd r, mul_assoc]

end Cert.Propagate

end
-- ==== Proof.BridgeSum.lean ====
/-
  One graph-convolution propagation, the reference's way and the kernel's.

  The reference gathers a table's rows at the edge sources, scales the row of edge e by D(source e) · D(target e) and
  sums the rows into their targets. The kernel gathers the rows of the table ALREADY scaled by each node's own D,
  sums them into their targets unscaled, and scales node r's sum by D(r) afterwards. These agree at every entry,
  for any table: an edge summed into r has target r, D(r) is a non-negative real, and such a factor passes through
  the sum. The index arrays are the reference's own: the source column (negative indices moved up by the number of
  nodes), the raw target column the scatter reads, and the normalised target column the factor is gathered by, which
  agrees with the raw one wherever that is non-negative.
-/
import proofs.«168218_j3058016714895_2_alg».proof.Proof.ReadP
import proofs.«168218_j3058016714895_2_alg».proof.Proof.DegreeFactor
import proofs.«168218_j3058016714895_2_alg».proof.Proof.LibPropagate

noncomputable section

namespace Cert.Bridge

open Cert.ReferenceIdeal Cert.ReferenceIdeal.Gen Cert.ReferenceIdeal.ReadP Idealize.ShloMosaic Idealize.ShloMosaic.ValueIdx

/-- The edge-index argument's contents. -/
abbrev EdgeIdx := (⟨S2x1600000, .i32⟩ : BufTy).Contents (Elt Ideal)
/-- A node table's contents. -/
abbrev NodeTable := (⟨S100000x128, .f32⟩ : BufTy).Contents (Elt Ideal)

/-- The table the neighbourhood sums start from is zero. -/
theorem zeros_apply (i : S100000x128.Idx) : (val_main_v41 (F := Ideal) i : EReal) = 0 := by
  rw [val_main_v41_apply, val_main_cst_8_apply]
  exact Ideal.ofBits_zero_f32

/-- Normalising the target indices leaves a non-negative one as it is. -/
theorem norm_target (x1 : EdgeIdx) (e : Fin 1700000)
    (h : 0 ≤ (val_main_v42 (F := Ideal) x1 (ix2 e 0)).toInt) :
    val_main_v27 (F := Ideal) x1 (ix2 e 0) = val_main_v42 (F := Ideal) x1 (ix2 e 0) := by
  rw [val_main_v42_apply] at h ⊢
  rw [val_main_v27_apply, val_main_v26_apply, val_main_v23_apply, val_main_v22_apply, val_main_c_4_apply]
  have hi : idx_main_v27 (ix2 e 0) = idx_main_v42 (ix2 e 0) := rfl
  rw [hi]
  generalize val_main_v6 (F := Ideal) x1 (idx_main_v42 (ix2 e 0)) = b at h ⊢
  have hs : b.slt 0#32 = false := by
    simp only [BitVec.slt, BitVec.toInt_zero, decide_eq_false_iff_not, not_lt]
    exact h
  unfold Scalar.select IntOp.cmpi
  simp [hs]

/-- The reference's neighbourhood sum of the rows gathered from `Y`, each scaled by the two degree factors of its
    edge, is the plain neighbourhood sum of the rows gathered from `H` — `Y` with each node's row scaled by the node's
    own degree factor — times the degree factor of the receiving node. -/
theorem scaled_sum (x1 : EdgeIdx) (Y H : NodeTable)
    (hH : ∀ (n : Fin 100000) (k : Fin 128), (H (ix2 n k) : EReal) = Y (ix2 n k) * val_main_v14 (F := Ideal) x1 (ix1 n))
    (r : Fin 100000) (k : Fin 128) :
    (Host.scatterAdd (F := Ideal) (φ := .f32) scatter_S100000x128_S1700000x1_S1700000x128_1_0_0_1 (val_main_v41 (F := Ideal)) (val_main_v42 (F := Ideal) x1)
        (mulf (Host.gather gather_S100000x128_S1700000x1_S1700000x128_1_0_n_n_0_1_1128 Y (val_main_v36 (F := Ideal) x1)) (val_main_v39 (F := Ideal) x1))
        (ix2 r k) : EReal)
      = Host.scatterAdd (F := Ideal) (φ := .f32) scatter_S100000x128_S1700000x1_S1700000x128_1_0_0_1 (val_main_v41 (F := Ideal)) (val_main_v42 (F := Ideal) x1)
          (Host.gather gather_S100000x128_S1700000x1_S1700000x128_1_0_n_n_0_1_1128 H (val_main_v36 (F := Ideal) x1)) (ix2 r k)
        * val_main_v14 (F := Ideal) x1 (ix1 r) := by
  rw [Dims.edges_eq, Dims.rows_eq]
  refine Propagate.scatter_scaled Dims.wf_edges Dims.wf_factor Y (val_main_v14 (F := Ideal) x1) (Degree.factor x1)
    (Degree.dinv_apply x1) (Degree.factor_nonneg x1) (val_main_v41 (F := Ideal)) zeros_apply
    (val_main_v42 (F := Ideal) x1) (val_main_v27 (F := Ideal) x1) (norm_target x1)
    (fun e => RowGather.srcRow Dims.wf_rows (val_main_v36 (F := Ideal) x1) e (by decide)) _ _ ?_ ?_ r k
  · intro e k'
    show (FloatOps.mulf (F := Ideal) (φ := .f32) (Host.gather (RowGather.rowDims 100000 1700000 128 Dims.wf_rows) Y (val_main_v36 (F := Ideal) x1) (ix2 e k'))
      (val_main_v39 (F := Ideal) x1 (ix2 e k')) : EReal) = _
    rw [Ideal.mulf_def, RowGather.gather_row_apply Dims.wf_rows (by decide), val_main_v39_apply, val_main_v38_apply,
      val_main_v29_apply, Ideal.mulf_def]
    have hi : idx_main_v38 (idx_main_v39 (ix2 e k' : S1700000x128.Idx)) = ix1 e := by
      funext a
      match a with
      | ⟨0, _⟩ => rfl
    rw [hi]
    unfold val_main_v21 val_main_v28
    rw [Dims.factor_eq, VecGather.gather_vec_apply, VecGather.gather_vec_apply]
    have hs : VecGather.vecRow Dims.wf_factor (val_main_v20 (F := Ideal) x1) e
        = RowGather.srcRow Dims.wf_rows (val_main_v36 (F := Ideal) x1) e (by decide) :=
      VecGather.vecRow_eq_srcRow Dims.wf_rows Dims.wf_factor (by decide) (val_main_v36 (F := Ideal) x1) e
    rw [hs]
  · intro e k'
    rw [RowGather.gather_row_apply Dims.wf_rows (by decide), hH]

end Cert.Bridge

end
-- ==== Proof.BridgeLayers.lean ====
/-
  The two graph-convolution layers, kernel form against reference form.

  `nbrSum x1 h` is the plain neighbourhood sum of a node table h: into each node, the rows of h at the sources of the
  edges arriving at it. With D the degree factors and H1 = (x·W1) row-scaled by D:
    the reference's first propagation  = nbrSum H1 · D                       (at every entry);
    the reference's hidden activation  = max((nbrSum H1 · D + b1) · scale + shift, 0)   — the kernel's, entry by entry;
    the reference's second propagation = nbrSum H2 · D, with H2 = (activation·W2) row-scaled by D.
-/
import proofs.«168218_j3058016714895_2_alg».proof.Proof.BridgeSum
import proofs.«168218_j3058016714895_2_alg».proof.Proof.Layers

noncomputable section

namespace Cert.Bridge

open Cert.ReferenceIdeal Cert.ReferenceIdeal.Gen Cert.ReferenceIdeal.ReadP Idealize.ShloMosaic Idealize.ShloMosaic.ValueIdx

/-- The plain neighbourhood sum of a node table. -/
def nbrSum (x1 : EdgeIdx) (h : NodeTable) : NodeTable :=
  Host.scatterAdd (F := Ideal) (φ := .f32) scatter_S100000x128_S1700000x1_S1700000x128_1_0_0_1 (val_main_v41 (F := Ideal)) (val_main_v42 (F := Ideal) x1)
    (Host.gather gather_S100000x128_S1700000x1_S1700000x128_1_0_n_n_0_1_1128 h (val_main_v36 (F := Ideal) x1))

abbrev Weights := (⟨S128x128, .f32⟩ : BufTy).Contents (Elt Ideal)
abbrev Vec128 := (⟨S128, .f32⟩ : BufTy).Contents (Elt Ideal)
abbrev Row128 := (⟨S1x128, .f32⟩ : BufTy).Contents (Elt Ideal)
abbrev DegCol := (⟨S100000x1, .f32⟩ : BufTy).Contents (Elt Ideal)

/-- The reference's first matrix product at (n, k) is row n of x against column k of W1. -/
theorem product_first (x0 : NodeTable) (x3 : Weights) (n : Fin 100000) (k : Fin 128) :
    (val_main_v30 (F := Ideal) x0 x3 (ix2 n k) : EReal) = Layers.rowDot x0 x3 n k := by
  rw [val_main_v30_apply]
  unfold Layers.rowDot
  refine Finset.sum_congr rfl fun q _ => ?_
  have hl : lidx_main_v30 (ix2 n k) q = ix2 n q := by
    funext a
    match a with
    | ⟨0, _⟩ => rfl
    | ⟨1, _⟩ => rfl
  have hr : ridx_main_v30 (ix2 n k) q = ix2 q k := by
    funext a
    match a with
    | ⟨0, _⟩ => rfl
    | ⟨1, _⟩ => rfl
  rw [hl, hr]

/-- The first propagation: the reference's edge-normalised sum is the plain neighbourhood sum of the row-scaled product,
    times the receiving node's degree factor. -/
theorem first_sum (x0 : NodeTable) (x1 : EdgeIdx) (x3 : Weights) (dcol : DegCol)
    (hcol : ∀ n : Fin 100000, (dcol (ix2 n 0) : EReal) = val_main_v14 (F := Ideal) x1 (ix1 n))
    (r : Fin 100000) (k : Fin 128) :
    (val_main_v43 (F := Ideal) x0 x1 x3 (ix2 r k) : EReal)
      = nbrSum x1 (Layers.scaledProduct x0 x3 dcol) (ix2 r k) * val_main_v14 (F := Ideal) x1 (ix1 r) := by
  unfold val_main_v43 val_main_v40 val_main_v37 nbrSum
  refine scaled_sum x1 (val_main_v30 (F := Ideal) x0 x3) (Layers.scaledProduct x0 x3 dcol) (fun n k' => ?_) r k
  show (Layers.rowDot x0 x3 n k' * dcol (ix2 n 0) : EReal) = _
  rw [hcol n, product_first]

/-- The hidden activation, entry by entry: the kernel's form over the plain neighbourhood sum is the reference's. -/
theorem activation_eq (x0 : NodeTable) (x1 : EdgeIdx) (x3 : Weights) (x4 x5 x6 : Vec128) (dcol : DegCol) (b1r scr btr : Row128)
    (hcol : ∀ n : Fin 100000, (dcol (ix2 n 0) : EReal) = val_main_v14 (F := Ideal) x1 (ix1 n))
    (hb : ∀ k : Fin 128, (b1r (ix2 0 k) : EReal) = x4 (ix1 k))
    (hs : ∀ k : Fin 128, (scr (ix2 0 k) : EReal) = val_main_v50 (F := Ideal) x5 (ix1 k))
    (ht : ∀ k : Fin 128, (btr (ix2 0 k) : EReal) = x6 (ix1 k))
    (n : Fin 100000) (k : Fin 128) :
    (Layers.activation (nbrSum x1 (Layers.scaledProduct x0 x3 dcol)) dcol b1r scr btr (ix2 n k) : EReal)
      = val_main_v57 (F := Ideal) x0 x1 x3 x4 x5 x6 (ix2 n k) := by
  have h4 : idx_main_v44 (idx_main_v45 (ix2 n k : S100000x128.Idx)) = ix1 k := by
    funext a
    match a with
    | ⟨0, _⟩ => rfl
  have h5 : idx_main_v51 (idx_main_v52 (ix2 n k : S100000x128.Idx)) = ix1 k := by
    funext a
    match a with
    | ⟨0, _⟩ => rfl
  have h6 : idx_main_v54 (idx_main_v55 (ix2 n k : S100000x128.Idx)) = ix1 k := by
    funext a
    match a with
    | ⟨0, _⟩ => rfl
  rw [val_main_v57_apply, val_main_v56_apply, val_main_v53_apply, val_main_v46_apply, val_main_v45_apply, val_main_v44_apply,
    val_main_v52_apply, val_main_v51_apply, val_main_v55_apply, val_main_v54_apply, val_main_call1_v0_apply,
    val_main_call1_cst_apply, h4, h5, h6, first_sum x0 x1 x3 dcol hcol n k]
  show max ((nbrSum x1 (Layers.scaledProduct x0 x3 dcol) (ix2 n k) * dcol (ix2 n 0) + b1r (ix2 0 k)) * scr (ix2 0 k) + btr (ix2 0 k))
    (Ideal.ofBits .f32 0x00000000#32) = _
  rw [hcol n, hb k, hs k, ht k]
  rfl

/-- The reference's second matrix product at (n, k) is the activation's row n against column k of W2. -/
theorem product_second (x0 : NodeTable) (x1 : EdgeIdx) (x3 : Weights) (x4 x5 x6 : Vec128) (x7 : Weights) (dcol : DegCol) (b1r scr btr : Row128)
    (hcol : ∀ n : Fin 100000, (dcol (ix2 n 0) : EReal) = val_main_v14 (F := Ideal) x1 (ix1 n))
    (hb : ∀ k : Fin 128, (b1r (ix2 0 k) : EReal) = x4 (ix1 k))
    (hs : ∀ k : Fin 128, (scr (ix2 0 k) : EReal) = val_main_v50 (F := Ideal) x5 (ix1 k))
    (ht : ∀ k : Fin 128, (btr (ix2 0 k) : EReal) = x6 (ix1 k))
    (n : Fin 100000) (k : Fin 128) :
    (val_main_v58 (F := Ideal) x0 x1 x3 x4 x5 x6 x7 (ix2 n k) : EReal)
      = Layers.rowDot (Layers.activation (nbrSum x1 (Layers.scaledProduct x0 x3 dcol)) dcol b1r scr btr) x7 n k := by
  rw [val_main_v58_apply]
  unfold Layers.rowDot
  refine Finset.sum_congr rfl fun q _ => ?_
  have hl : lidx_main_v58 (ix2 n k) q = ix2 n q := by
    funext a
    match a with
    | ⟨0, _⟩ => rfl
    | ⟨1, _⟩ => rfl
  have hr : ridx_main_v58 (ix2 n k) q = ix2 q k := by
    funext a
    match a with
    | ⟨0, _⟩ => rfl
    | ⟨1, _⟩ => rfl
  rw [hl, hr, activation_eq x0 x1 x3 x4 x5 x6 dcol b1r scr btr hcol hb hs ht n q]

/-- The second propagation, as the first. -/
theorem second_sum (x0 : NodeTable) (x1 : EdgeIdx) (x3 : Weights) (x4 x5 x6 : Vec128) (x7 : Weights) (dcol : DegCol) (b1r scr btr : Row128)
    (hcol : ∀ n : Fin 100000, (dcol (ix2 n 0) : EReal) = val_main_v14 (F := Ideal) x1 (ix1 n))
    (hb : ∀ k : Fin 128, (b1r (ix2 0 k) : EReal) = x4 (ix1 k))
    (hs : ∀ k : Fin 128, (scr (ix2 0 k) : EReal) = val_main_v50 (F := Ideal) x5 (ix1 k))
    (ht : ∀ k : Fin 128, (btr (ix2 0 k) : EReal) = x6 (ix1 k))
    (r : Fin 100000) (k : Fin 128) :
    (val_main_v71 (F := Ideal) x0 x1 x3 x4 x5 x6 x7 (ix2 r k) : EReal)
      = nbrSum x1 (Layers.activatedProduct (nbrSum x1 (Layers.scaledProduct x0 x3 dcol)) dcol b1r scr btr x7) (ix2 r k)
        * val_main_v14 (F := Ideal) x1 (ix1 r) := by
  have e1 : val_main_v69 (F := Ideal) = val_main_v41 (F := Ideal) := rfl
  have e2 : val_main_v70 (F := Ideal) x1 = val_main_v42 (F := Ideal) x1 := rfl
  have e3 : val_main_v64 (F := Ideal) x1 = val_main_v36 (F := Ideal) x1 := rfl
  have e4 : val_main_v67 (F := Ideal) x1 = val_main_v39 (F := Ideal) x1 := rfl
  unfold val_main_v71 val_main_v68 val_main_v65 nbrSum
  rw [e1, e2, e3, e4]
  refine scaled_sum x1 (val_main_v58 (F := Ideal) x0 x1 x3 x4 x5 x6 x7) _ (fun n k' => ?_) r k
  show (Layers.rowDot (Layers.activation (nbrSum x1 (Layers.scaledProduct x0 x3 dcol)) dcol b1r scr btr) x7 n k' * dcol (ix2 n 0) : EReal) = _
  rw [hcol n, product_second x0 x1 x3 x4 x5 x6 x7 dcol b1r scr btr hcol hb hs ht]

end Cert.Bridge

end
-- ==== Proof.LibHostRows.lean ====
/-
  Host operations on rank-two arrays read at one index, on the extended reals.

  A reference written with array operations composes a few shapes of host operation.  Each lemma below reads one of
  them at an index with explicit coordinates: an elementwise quotient, exponential or logarithm as that of the entries; a plain matrix product as the sum over the shared axis; a vector
  repeated down the rows, or a column of per-row values repeated along the rows, as the vector's or the column's
  entry; a scalar splat as the scalar; a maximum or a sum along the second axis as the fold of max, or the sum,
  over that row, from the operation's initial value.
-/
import Idealize.ShloMosaic.PureOps.Ideal.Laws
import Idealize.ShloMosaic.Lib.ValueIdx
import Idealize.ShloMosaic.Lib.Pipeline.Value
import proofs.«168218_j3058016714895_2_alg».proof.Proof.LibRowOps

noncomputable section

namespace Cert.HostRows

open Idealize.ShloMosaic Idealize.ShloMosaic.ValueIdx Cert.RowOps

/-! ## A plain matrix product on the host -/

/-- A plain `[M, K] × [K, N]` host product at (r, c): the sum over the shared axis of the products. -/
theorem dotGeneral_plain_apply {M K N : Nat} {d : DotDims ⟨2, ![M, K]⟩ ⟨2, ![K, N]⟩ ⟨2, ![M, N]⟩} (hd : IsPlain d)
    {φ₁ φ₂ : FTy} (prec : Option ContractPrecision) (lhs : FVec Ideal ⟨2, ![M, K]⟩ φ₁) (rhs : FVec Ideal ⟨2, ![K, N]⟩ φ₂)
    (r : Fin M) (c : Fin N) :
    Host.dotGeneral (F := Ideal) d prec lhs rhs (ix2 r c) = ∑ k : Fin K, lhs (ix2 r k) * rhs (ix2 k c) := by
  simp only [Host.dotGeneral]
  rw [Ideal.dotGeneral_apply, ← Equiv.sum_comp (contrEquiv1 d K (contr_rank hd) (contr_size hd)).symm]
  refine Finset.sum_congr rfl fun k _ => ?_
  have hk := contrEquiv1_symm_val d K (contr_rank hd) (contr_size hd) k
  have el : d.lhsIdx (ix2 r c) ((contrEquiv1 d K (contr_rank hd) (contr_size hd)).symm k) = ix2 r k :=
    funext fun a => Fin.ext (by
      match a with
      | ⟨0, _⟩ => exact lhsIdx_row hd _ _
      | ⟨1, _⟩ => exact (d.lhsIdx_val_of_single hd.lc _ _).trans hk)
  have er : d.rhsIdx (ix2 r c) ((contrEquiv1 d K (contr_rank hd) (contr_size hd)).symm k) = ix2 k c :=
    funext fun a => Fin.ext (by
      match a with
      | ⟨0, _⟩ => exact (d.rhsIdx_val_of_single hd.rc _ _).trans hk
      | ⟨1, _⟩ => exact rhsIdx_col hd _ _)
  rw [el, er]

/-! ## Elementwise host operations -/

section Pointwise

variable {s : Shape} {φ : FTy}

/-- A host quotient at an index is the quotient of the entries. -/
theorem hostDivf_apply (x y : FVec Ideal s φ) (i : s.Idx) : Host.divf x y i = Ideal.div (x i) (y i) := rfl

/-- A host exponential at an index is the exponential of the entry. -/
theorem hostExp_apply (x : FVec Ideal s φ) (i : s.Idx) : Host.exp x i = Ideal.exp (x i) := rfl

/-- A host logarithm at an index is the logarithm of the entry. -/
theorem hostLog_apply (x : FVec Ideal s φ) (i : s.Idx) : Host.log x i = Ideal.log (x i) := rfl

end Pointwise

/-! ## Broadcasts -/

section Layout

variable {α : Type} {a b : Nat}

/-- A scalar splat reads the scalar at every index. -/
theorem splat_apply {t : Shape} (x : (⟨0, ![]⟩ : Shape).Idx → α) (h : (⟨0, ![]⟩ : Shape).BroadcastsInDim t ![])
    (j : t.Idx) : broadcastInDim t ![] h x j = x ix0 :=
  broadcastInDim_apply _ h x j ix0 (fun ax => ax.elim0)

/-- A length-b vector laid out as one row reads, at (u, c), the vector at c. -/
theorem asRow_apply (v : (⟨1, ![b]⟩ : Shape).Idx → α) (h : (⟨1, ![b]⟩ : Shape).BroadcastsInDim ⟨2, ![1, b]⟩ ![1])
    (u : Fin 1) (c : Fin b) : broadcastInDim ⟨2, ![1, b]⟩ ![1] h v (ix2 u c) = v (ix1 c) :=
  broadcastInDim_apply _ h v (ix2 u c) (ix1 c) (fun ax => by
    match ax with
    | ⟨0, _⟩ =>
      show c.val = if b = 1 then 0 else c.val
      split
      · have := c.isLt; omega
      · rfl)

/-- One row repeated down a rows reads, at (p, c), the row at c. -/
theorem downRows_apply (w : (⟨2, ![1, b]⟩ : Shape).Idx → α) (h : (⟨2, ![1, b]⟩ : Shape).BroadcastsInDim ⟨2, ![a, b]⟩ ![0, 1])
    (p : Fin a) (c : Fin b) : broadcastInDim ⟨2, ![a, b]⟩ ![0, 1] h w (ix2 p c) = w (ix2 (0 : Fin 1) c) :=
  broadcastInDim_apply _ h w (ix2 p c) (ix2 (0 : Fin 1) c) (fun ax => by
    match ax with
    | ⟨0, _⟩ => show 0 = if (1 : Nat) = 1 then 0 else p.val; rw [if_pos rfl]
    | ⟨1, _⟩ =>
      show c.val = if b = 1 then 0 else c.val
      split
      · have := c.isLt; omega
      · rfl)

/-- A length-a vector laid out as a column reads, at (p, u), the vector at p. -/
theorem asCol_apply (v : (⟨1, ![a]⟩ : Shape).Idx → α) (h : (⟨1, ![a]⟩ : Shape).BroadcastsInDim ⟨2, ![a, 1]⟩ ![0])
    (p : Fin a) (u : Fin 1) : broadcastInDim ⟨2, ![a, 1]⟩ ![0] h v (ix2 p u) = v (ix1 p) :=
  broadcastInDim_apply _ h v (ix2 p u) (ix1 p) (fun ax => by
    match ax with
    | ⟨0, _⟩ =>
      show p.val = if a = 1 then 0 else p.val
      split
      · have := p.isLt; omega
      · rfl)

/-- A column repeated along b columns reads, at (p, c), the column at p. -/
theorem alongRows_apply (w : (⟨2, ![a, 1]⟩ : Shape).Idx → α) (h : (⟨2, ![a, 1]⟩ : Shape).BroadcastsInDim ⟨2, ![a, b]⟩ ![0, 1])
    (p : Fin a) (c : Fin b) : broadcastInDim ⟨2, ![a, b]⟩ ![0, 1] h w (ix2 p c) = w (ix2 p (0 : Fin 1)) :=
  broadcastInDim_apply _ h w (ix2 p c) (ix2 p (0 : Fin 1)) (fun ax => by
    match ax with
    | ⟨0, _⟩ =>
      show p.val = if a = 1 then 0 else p.val
      split
      · have := p.isLt; omega
      · rfl
    | ⟨1, _⟩ => show 0 = if (1 : Nat) = 1 then 0 else c.val; rw [if_pos rfl])

end Layout

/-! ## Reductions along the second axis -/

section Rows

variable {a b : Nat} {φ : FTy}

/-- A host maximum along the second axis at row r: the fold of max over that row from the initial value. -/
theorem reduceMax_apply (z : FVec Ideal ⟨2, ![a, b]⟩ φ) (init : (⟨0, ![]⟩ : Shape).Idx → Ideal φ)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (r : Fin a) :
    Host.reduce (FloatOps.maximumf (F := Ideal) (φ := φ)) z init h' hu (ix1 r)
      = (Finset.univ : Finset (Fin b)).fold max (init ix0) (fun k => z (ix2 r k)) := by
  rw [Host.reduce_eq_fold_single (FloatOps.maximumf (F := Ideal) (φ := φ)) z init h' h hu]
  rw [eq_ix0 (Shape.Idx.first hu)]
  exact congrArg (Finset.fold max (init ix0) · _) (funext fun k => congrArg z (lift_row h r k))

/-- A host sum along the second axis at row r: the initial value plus the sum of that row. -/
theorem reduceAdd_apply (z : FVec Ideal ⟨2, ![a, b]⟩ φ) (init : (⟨0, ![]⟩ : Shape).Idx → Ideal φ)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (r : Fin a) :
    Host.reduceAdd (F := Ideal) z init h' hu (ix1 r) = init ix0 + ∑ k : Fin b, z (ix2 r k) := by
  simp only [Host.reduceAdd, Ideal.hostReduceAdd_def]
  rw [Ideal.hostReduceAdd_single h' h, eq_ix0 (Shape.Idx.first hu)]
  exact congrArg (init ix0 + ·) (Finset.sum_congr rfl fun k _ => congrArg z (lift_row h r k))

end Rows

end Cert.HostRows

end
-- ==== Proof.BridgePool.lean ====
/-
  The pooled rows, kernel form against reference form.

  For a graph g with members M (the nodes whose graph index, read signed, is g) and c = |M|:
    the reference sums (t(n, k) · D(n) + b2(k)) over M and divides by max(c, 1);
    the kernel sums D(n) · t(n, k) over M, divides by max(c, 1), and adds b2(k) if c > 0.
  The sum of (a + b) over M is the sum of a plus c · b; dividing by the positive real max(c, 1) is multiplying by a
  non-negative real, which distributes; and when c = 0 the sum is empty. No entry need be finite.
-/
import proofs.«168218_j3058016714895_2_alg».proof.Proof.BridgeLayers
import proofs.«168218_j3058016714895_2_alg».proof.Proof.KernelStages
import proofs.«168218_j3058016714895_2_alg».proof.Proof.LibHostRows

noncomputable section

namespace Cert.Bridge

open Cert.ReferenceIdeal Cert.ReferenceIdeal.Gen Cert.ReferenceIdeal.ReadP Idealize.ShloMosaic Idealize.ShloMosaic.ValueIdx

abbrev Batch := (⟨S100000, .i32⟩ : BufTy).Contents (Elt Ideal)
abbrev Pooled' := FVec Ideal S512x128 .f32
abbrev Counts' := FVec Ideal S512 .f32

/-! ## The kernel's stages are the reference's where the two programs say the same thing -/

theorem kDinv_eq (x1 : EdgeIdx) : Cert.KernelIdeal.Run.kDinv x1 = val_main_v14 (F := Ideal) x1 := rfl
theorem kBatch_eq (x2 : Batch) : Cert.KernelIdeal.Run.kBatchIdx x2 = val_main_v76 (F := Ideal) x2 := rfl
theorem kCount_eq (x2 : Batch) : Cert.KernelIdeal.Run.kCount x2 = val_main_v81 (F := Ideal) x2 := rfl
theorem kConv_eq (x1 : EdgeIdx) (h : NodeTable) : Cert.KernelIdeal.Run.kConv x1 h = nbrSum x1 h := rfl

/-- The kernel's degree column at (n, 0) is the degree factor of node n. -/
theorem kDinvCol_apply (x1 : EdgeIdx) (n : Fin 100000) :
    (Cert.KernelIdeal.Run.kDinvCol x1 (ix2 n 0) : EReal) = val_main_v14 (F := Ideal) x1 (ix1 n) := by
  unfold Cert.KernelIdeal.Run.kDinvCol
  rw [RowOps.column_apply, kDinv_eq]

/-- The members of graph g. -/
def members (x2 : Batch) (g : Fin 512) : Finset (Fin 100000) :=
  Finset.univ.filter (fun n : Fin 100000 => RowScatter.lands (val_main_v76 (F := Ideal) x2) n g)

/-- A graph's node count is the number of its members. -/
theorem count_apply (x2 : Batch) (g : Fin 512) :
    (val_main_v81 (F := Ideal) x2 (ix1 g) : EReal) = ((members x2 g).card : EReal) := by
  have e : val_main_v80 (F := Ideal) x2 = val_main_v76 (F := Ideal) x2 := rfl
  unfold val_main_v81 members
  rw [Dims.members_eq, RowScatter.scatterAdd_vec_apply, val_main_v79_apply, val_main_cst_15_apply, e]
  simp only [val_main_v78_apply, val_main_cst_14_apply, Ideal.ofBits_def, Ideal.ofBits_zero_f32, Degree.ofBits_one, zero_add]
  rw [Finset.sum_const, EReal.nsmul_eq_mul, mul_one]

/-- The reference's pooled row at (g, k). -/
theorem ref_pool_apply (x0 : NodeTable) (x1 : EdgeIdx) (x2 : Batch) (x3 : Weights) (x4 x5 x6 : Vec128) (x7 : Weights) (x8 : Vec128)
    (g : Fin 512) (k : Fin 128) :
    (val_main_v86 (F := Ideal) x0 x1 x2 x3 x4 x5 x6 x7 x8 (ix2 g k) : EReal)
      = Ideal.div (∑ n ∈ members x2 g, (val_main_v71 (F := Ideal) x0 x1 x3 x4 x5 x6 x7 (ix2 n k) + x8 (ix1 k)))
          (max ((members x2 g).card : EReal) 1) := by
  have h85 : idx_main_v84 (idx_main_v85 (ix2 g k : S512x128.Idx)) = ix1 g := by
    funext a
    match a with
    | ⟨0, _⟩ => rfl
  have h73 : ∀ n : Fin 100000, idx_main_v72 (idx_main_v73 (ix2 n k : S100000x128.Idx)) = ix1 k := fun n => by
    funext a
    match a with
    | ⟨0, _⟩ => rfl
  rw [val_main_v86_apply, Ideal.hostDivf_def, val_main_v85_apply, val_main_v84_apply, h85, val_main_v83_apply,
    Ideal.maximumf_def, count_apply, val_main_v82_apply, val_main_cst_16_apply, Ideal.ofBits_def, Degree.ofBits_one]
  refine congrArg (fun t : EReal => Ideal.div t (max ((members x2 g).card : EReal) 1)) ?_
  unfold val_main_v77 members
  rw [Dims.pool_eq, RowScatter.scatterAdd_row_apply, val_main_v75_apply, val_main_cst_13_apply, Ideal.ofBits_def,
    Ideal.ofBits_zero_f32, zero_add]
  refine Finset.sum_congr rfl fun n _ => ?_
  rw [val_main_v74_apply, Ideal.addf_def, val_main_v73_apply, val_main_v72_apply, h73 n]

theorem kpool_dims : Cert.KernelIdeal.scatter_S512x128_S100000x1_S100000x128_1_0_0_1 = RowScatter.rowDims 512 100000 128 Dims.wf_pool := rfl

/-- The sum inside the kernel's pooled row: over the members of g, each node's degree factor times its row's entry. The
    starting table `Z` and the repeated degree column `dB` are given by what they hold. -/
theorem kernel_sum_apply (x1 : EdgeIdx) (x2 : Batch) (conv2 : NodeTable) (g : Fin 512) (k : Fin 128)
    (Z : Pooled') (hZ : ∀ i, (Z i : EReal) = 0)
    (dB : NodeTable) (hdB : ∀ (n : Fin 100000) (k' : Fin 128), (dB (ix2 n k') : EReal) = val_main_v14 (F := Ideal) x1 (ix1 n)) :
    (Host.scatterAdd (F := Ideal) (φ := .f32) Cert.KernelIdeal.scatter_S512x128_S100000x1_S100000x128_1_0_0_1 Z
        (Cert.KernelIdeal.Run.kBatchIdx x2) (mulf dB conv2) (ix2 g k) : EReal)
      = ∑ n ∈ members x2 g, val_main_v14 (F := Ideal) x1 (ix1 n) * conv2 (ix2 n k) := by
  rw [kpool_dims, RowScatter.scatterAdd_row_apply, hZ, zero_add, kBatch_eq]
  unfold members
  refine Finset.sum_congr rfl fun n _ => ?_
  show (dB (ix2 n k) * conv2 (ix2 n k) : EReal) = _
  rw [hdB]

/-- The kernel's pooled row at (g, k), over what its constant blocks hold: the count vector, the vectors of ones and
    zeros, the repeated divisor, indicator and bias blocks. -/
theorem kernel_pool_core (x1 : EdgeIdx) (x2 : Batch) (x8 : Vec128) (conv2 : NodeTable) (g : Fin 512) (k : Fin 128)
    (Z : Pooled') (hZ : ∀ i, (Z i : EReal) = 0)
    (dB : NodeTable) (hdB : ∀ (n : Fin 100000) (k' : Fin 128), (dB (ix2 n k') : EReal) = val_main_v14 (F := Ideal) x1 (ix1 n))
    (cnt ones zeros : Counts') (hcnt : (cnt (ix1 g) : EReal) = ((members x2 g).card : EReal))
    (h1 : (ones (ix1 g) : EReal) = 1) (h0 : (zeros (ix1 g) : EReal) = 0)
    (dv indB bB : Pooled') (hdv : (dv (ix2 g k) : EReal) = maximumf (F := Ideal) cnt ones (ix1 g))
    (hind : (indB (ix2 g k) : EReal) = select (cmpf (F := Ideal) .ogt cnt zeros) ones zeros (ix1 g))
    (hbB : (bB (ix2 g k) : EReal) = x8 (ix1 k)) :
    (addf (Host.divf (F := Ideal) (Host.scatterAdd (F := Ideal) (φ := .f32) Cert.KernelIdeal.scatter_S512x128_S100000x1_S100000x128_1_0_0_1 Z
        (Cert.KernelIdeal.Run.kBatchIdx x2) (mulf dB conv2)) dv) (mulf indB bB) (ix2 g k) : EReal)
      = Ideal.div (∑ n ∈ members x2 g, val_main_v14 (F := Ideal) x1 (ix1 n) * conv2 (ix2 n k)) (max ((members x2 g).card : EReal) 1)
        + Scalar.select (Ideal.cmp .ogt ((members x2 g).card : EReal) 0) (1 : EReal) 0 * x8 (ix1 k) := by
  show (Ideal.div (Host.scatterAdd (F := Ideal) (φ := .f32) Cert.KernelIdeal.scatter_S512x128_S100000x1_S100000x128_1_0_0_1 Z
      (Cert.KernelIdeal.Run.kBatchIdx x2) (mulf dB conv2) (ix2 g k)) (dv (ix2 g k)) + indB (ix2 g k) * bB (ix2 g k) : EReal) = _
  rw [kernel_sum_apply x1 x2 conv2 g k Z hZ dB hdB, hdv, hind, hbB]
  show Ideal.div _ (max (cnt (ix1 g) : EReal) (ones (ix1 g)))
    + Scalar.select (Ideal.cmp .ogt (cnt (ix1 g)) (zeros (ix1 g))) (ones (ix1 g)) (zeros (ix1 g)) * _ = _
  rw [hcnt, h1, h0]

/-- The kernel's pooled row at (g, k). -/
theorem kernel_pool_apply (x1 : EdgeIdx) (x2 : Batch) (x8 : Vec128) (conv2 : NodeTable) (g : Fin 512) (k : Fin 128) :
    (Cert.KernelIdeal.Run.kPool x1 x2 x8 conv2 (ix2 g k) : EReal)
      = Ideal.div (∑ n ∈ members x2 g, val_main_v14 (F := Ideal) x1 (ix1 n) * conv2 (ix2 n k)) (max ((members x2 g).card : EReal) 1)
        + Scalar.select (Ideal.cmp .ogt ((members x2 g).card : EReal) 0) (1 : EReal) 0 * x8 (ix1 k) := by
  unfold Cert.KernelIdeal.Run.kPool
  refine kernel_pool_core x1 x2 x8 conv2 g k _ (fun i => ?_) _ (fun n k' => ?_)
    (Cert.KernelIdeal.Run.kCount x2)
    (broadcastInDim Cert.KernelIdeal.S512 ![] Cert.KernelIdeal.Gen.bcast_S_S512 (constant (F := Ideal) Cert.KernelIdeal.S_ .f32 0x3F800000#32))
    (broadcastInDim Cert.KernelIdeal.S512 ![] Cert.KernelIdeal.Gen.bcast_S_S512 (constant (F := Ideal) Cert.KernelIdeal.S_ .f32 0x00000000#32))
    ?_ ?_ ?_ _ _ _ ?_ ?_ ?_
  · rw [HostRows.splat_apply]; exact Ideal.ofBits_zero_f32
  · rw [HostRows.alongRows_apply, kDinvCol_apply]
  · rw [kCount_eq, count_apply]
  · rw [HostRows.splat_apply]; exact Degree.ofBits_one
  · rw [HostRows.splat_apply]; exact Ideal.ofBits_zero_f32
  · rw [HostRows.alongRows_apply, HostRows.asCol_apply]
  · rw [id_eq, HostRows.alongRows_apply, HostRows.asCol_apply]
  · rw [HostRows.downRows_apply, HostRows.asRow_apply]

/-- THE POOLED ROWS AGREE, given that the reference's second propagation is the kernel's plain sum times the degree
    factor. -/
theorem pool_eq (x0 : NodeTable) (x1 : EdgeIdx) (x2 : Batch) (x3 : Weights) (x4 x5 x6 : Vec128) (x7 : Weights) (x8 : Vec128)
    (conv2 : NodeTable)
    (hconv2 : ∀ (n : Fin 100000) (k : Fin 128), (val_main_v71 (F := Ideal) x0 x1 x3 x4 x5 x6 x7 (ix2 n k) : EReal)
      = conv2 (ix2 n k) * val_main_v14 (F := Ideal) x1 (ix1 n))
    (g : Fin 512) (k : Fin 128) :
    (Cert.KernelIdeal.Run.kPool x1 x2 x8 conv2 (ix2 g k) : EReal)
      = val_main_v86 (F := Ideal) x0 x1 x2 x3 x4 x5 x6 x7 x8 (ix2 g k) := by
  rw [kernel_pool_apply, ref_pool_apply, Lib.sum_add_card_mul]
  have hsum : (∑ n ∈ members x2 g, val_main_v71 (F := Ideal) x0 x1 x3 x4 x5 x6 x7 (ix2 n k))
      = ∑ n ∈ members x2 g, val_main_v14 (F := Ideal) x1 (ix1 n) * conv2 (ix2 n k) :=
    Finset.sum_congr rfl fun n _ => by rw [hconv2, mul_comm]
  rw [hsum]
  refine (Lib.mean_add_indicator (members x2 g).card _ (x8 (ix1 k)) _ (fun h0 => ?_) (fun h0 => ?_) (fun hp => ?_)).symm
  · rw [Finset.card_eq_zero.mp h0, Finset.sum_empty]
  · rw [h0]
    exact Lib.indicator_zero
  · exact Lib.indicator_pos _ hp

end Cert.Bridge

end
-- ==== Proof.BridgeOut.lean ====
/-
  The reference's last stage, read whole. From the pooled array the reference forms the logits — a graph's pooled
  row against a column of the classifier matrix, plus the bias —, a row's largest logit (the host's maximum along
  the ten classes from minus infinity, met with minus infinity once more), the shifted logits, and subtracts the
  logarithm of the row's sum of their exponentials (the host's sum from the zero word). Entry by entry that is the
  region-three function of the pooled array, the classifier matrix and the bias laid out as one row.
-/
import proofs.«168218_j3058016714895_2_alg».proof.Proof.ReadP
import proofs.«168218_j3058016714895_2_alg».proof.Proof.Layers
import proofs.«168218_j3058016714895_2_alg».proof.Proof.LibHostRows

set_option maxRecDepth 16384

noncomputable section

namespace Cert.Bridge

open Cert.ReferenceIdeal Cert.ReferenceIdeal.Gen Cert.ReferenceIdeal.ReadP Idealize.ShloMosaic Idealize.ShloMosaic.ValueIdx

section

variable (x0 : (⟨S100000x128, .f32⟩ : BufTy).Contents (Elt Ideal)) (x1 : (⟨S2x1600000, .i32⟩ : BufTy).Contents (Elt Ideal))
  (x2 : (⟨S100000, .i32⟩ : BufTy).Contents (Elt Ideal)) (x3 : (⟨S128x128, .f32⟩ : BufTy).Contents (Elt Ideal))
  (x4 x5 x6 : (⟨S128, .f32⟩ : BufTy).Contents (Elt Ideal)) (x7 : (⟨S128x128, .f32⟩ : BufTy).Contents (Elt Ideal))
  (x8 : (⟨S128, .f32⟩ : BufTy).Contents (Elt Ideal)) (x9 : (⟨S128x10, .f32⟩ : BufTy).Contents (Elt Ideal))
  (x10 : (⟨S10, .f32⟩ : BufTy).Contents (Elt Ideal))
  (G : (⟨S512x128, .f32⟩ : BufTy).Contents (Elt Ideal)) (brow : (⟨S1x10, .f32⟩ : BufTy).Contents (Elt Ideal))

/-- The reference's logit at (g, c) is the region-three logit of the pooled array, the classifier matrix and the
    bias row. -/
theorem ref_logit_apply
    (hG : ∀ (g : Fin 512) (k : Fin 128), (G (ix2 g k) : EReal) = val_main_v86 (F := Ideal) x0 x1 x2 x3 x4 x5 x6 x7 x8 (ix2 g k))
    (hb : ∀ c : Fin 10, (brow (ix2 0 c) : EReal) = x10 (ix1 c)) (g : Fin 512) (c : Fin 10) :
    (val_main_v90 (F := Ideal) x0 x1 x2 x3 x4 x5 x6 x7 x8 x9 x10 (ix2 g c) : EReal) = Cert.Layers.logit G x9 brow g c := by
  have el : ∀ k : Fin 128, lidx_main_v87 (ix2 g c) k = ix2 g k := fun k => funext fun a => by
    match a with
    | ⟨0, _⟩ => rfl
    | ⟨1, _⟩ => rfl
  have er : ∀ k : Fin 128, ridx_main_v87 (ix2 g c) k = ix2 k c := fun k => funext fun a => by
    match a with
    | ⟨0, _⟩ => rfl
    | ⟨1, _⟩ => rfl
  have eb : idx_main_v88 (idx_main_v89 (ix2 g c)) = ix1 c := funext fun a => by
    match a with
    | ⟨0, _⟩ => rfl
  rw [val_main_v90_apply, val_main_v87_apply, val_main_v89_apply, val_main_v88_apply, Ideal.addf_def, eb, ← hb c]
  unfold Cert.Layers.logit Cert.Layers.rowDot
  refine congrArg (fun s : EReal => s + brow (ix2 0 c)) (Finset.sum_congr rfl fun k _ => ?_)
  rw [el k, er k, hG g k]

/-- The reference's row maximum at g: minus infinity met with the fold of the maximum over the row's logits. -/
theorem ref_top_apply (g : Fin 512) :
    (val_main_call2_v2 (F := Ideal) x0 x1 x2 x3 x4 x5 x6 x7 x8 x9 x10 (ix1 g) : EReal)
      = max (Ideal.ofBits .f32 0xFF800000#32)
          ((Finset.univ : Finset (Fin 10)).fold max (Ideal.ofBits .f32 0xFF800000#32)
            (fun k => val_main_v90 (F := Ideal) x0 x1 x2 x3 x4 x5 x6 x7 x8 x9 x10 (ix2 g k))) := by
  rw [val_main_call2_v2_apply, val_main_call2_v1_apply, val_main_call2_cst_0_apply, Ideal.maximumf_def]
  unfold val_main_call2_v0
  exact congrArg (max _) (Cert.HostRows.reduceMax_apply (val_main_v90 (F := Ideal) x0 x1 x2 x3 x4 x5 x6 x7 x8 x9 x10)
    (val_main_call2_cst (F := Ideal)) reducesTo_S512x10_S512_d1 (by decide) h_S_ g)

/-- The reference's shifted logit at (g, c). -/
theorem ref_shift_apply (g : Fin 512) (c : Fin 10) :
    (val_main_call2_v5 (F := Ideal) x0 x1 x2 x3 x4 x5 x6 x7 x8 x9 x10 (ix2 g c) : EReal)
      = val_main_v90 (F := Ideal) x0 x1 x2 x3 x4 x5 x6 x7 x8 x9 x10 (ix2 g c) - val_main_call2_v2 (F := Ideal) x0 x1 x2 x3 x4 x5 x6 x7 x8 x9 x10 (ix1 g) := by
  have e : idx_main_call2_v3 (idx_main_call2_v4 (ix2 g c)) = ix1 g := funext fun a => by
    match a with
    | ⟨0, _⟩ => rfl
  rw [val_main_call2_v5_apply, val_main_call2_v4_apply, val_main_call2_v3_apply, Ideal.subf_def, e]

/-- The reference's shifted logit at (g, c) is the region-three one. -/
theorem ref_shift_eq
    (hG : ∀ (g : Fin 512) (k : Fin 128), (G (ix2 g k) : EReal) = val_main_v86 (F := Ideal) x0 x1 x2 x3 x4 x5 x6 x7 x8 (ix2 g k))
    (hb : ∀ c : Fin 10, (brow (ix2 0 c) : EReal) = x10 (ix1 c)) (g : Fin 512) (c : Fin 10) :
    (val_main_call2_v5 (F := Ideal) x0 x1 x2 x3 x4 x5 x6 x7 x8 x9 x10 (ix2 g c) : EReal)
      = Cert.Layers.logit G x9 brow g c - Cert.Layers.topLogit (Cert.Layers.logit G x9 brow) g := by
  rw [ref_shift_apply, ref_top_apply, ref_logit_apply x0 x1 x2 x3 x4 x5 x6 x7 x8 x9 x10 G brow hG hb g c]
  unfold Cert.Layers.topLogit
  refine congrArg (fun s : EReal => Cert.Layers.logit G x9 brow g c - max (Ideal.ofBits .f32 0xFF800000#32) s) ?_
  exact congrArg (Finset.fold max (Ideal.ofBits .f32 0xFF800000#32) · Finset.univ)
    (funext fun k => ref_logit_apply x0 x1 x2 x3 x4 x5 x6 x7 x8 x9 x10 G brow hG hb g k)

/-- The reference's result at (g, c) is the region-three function of the pooled array, the classifier matrix and
    the bias row. -/
theorem out_eq
    (hG : ∀ (g : Fin 512) (k : Fin 128), (G (ix2 g k) : EReal) = val_main_v86 (F := Ideal) x0 x1 x2 x3 x4 x5 x6 x7 x8 (ix2 g k))
    (hb : ∀ c : Fin 10, (brow (ix2 0 c) : EReal) = x10 (ix1 c)) (g : Fin 512) (c : Fin 10) :
    (Cert.Layers.logSoftmax G x9 brow (ix2 g c) : EReal) = val_main_v91 (F := Ideal) x0 x1 x2 x3 x4 x5 x6 x7 x8 x9 x10 (ix2 g c) := by
  have e8 : idx_main_call2_v8 (idx_main_call2_v10 (ix2 g c)) = ix1 g := funext fun a => by
    match a with
    | ⟨0, _⟩ => rfl
  have e7 : ∀ k : Fin 10, idx_main_call2_v7 (ix1 g) k = ix2 g k := fun k => funext fun a => by
    match a with
    | ⟨0, _⟩ => rfl
    | ⟨1, _⟩ => rfl
  rw [val_main_v91_apply, val_main_call2_v10_apply, val_main_call2_v9_apply, val_main_call2_v8_apply, e8,
    val_main_call2_v7_apply, val_main_call2_cst_1_apply, Ideal.subf_def, Ideal.hostUnary_log_def,
    ref_shift_eq x0 x1 x2 x3 x4 x5 x6 x7 x8 x9 x10 G brow hG hb g c]
  unfold Cert.Layers.logSoftmax
  refine congrArg (fun s : EReal => (Cert.Layers.logit G x9 brow g c - Cert.Layers.topLogit (Cert.Layers.logit G x9 brow) g) - Ideal.log s) ?_
  rw [show (FloatOps.ofBits (F := Ideal) .f32 0x00000000#32 : EReal) = 0 from Ideal.ofBits_zero_f32, zero_add]
  refine Finset.sum_congr rfl fun k _ => ?_
  rw [e7 k, val_main_call2_v6_apply, Ideal.hostUnary_exp_def, ref_shift_eq x0 x1 x2 x3 x4 x5 x6 x7 x8 x9 x10 G brow hG hb g k]

end

end Cert.Bridge

end
-- ==== Proof.BridgeFinal.lean ====
/-
  The kernel's two results are the reference's two results, as functions of the argument arrays.

  The kernel's program, read off its host stretches and its three regions: the degree column; the first product
  row-scaled by it; the neighbourhood sum; the activation product row-scaled; the neighbourhood sum again; the pooled
  rows; the classifier with the logarithm of the softmax. Stage by stage these meet the reference's stages: the two
  propagations up to the receiving node's degree factor, which the next stage supplies; the pooled rows and the
  output exactly.
-/
import proofs.«168218_j3058016714895_2_alg».proof.Proof.BridgePool
import proofs.«168218_j3058016714895_2_alg».proof.Proof.BridgeOut
import Idealize.ShloMosaic.Lib.ValueLayout

noncomputable section

namespace Cert.Bridge

open Cert.ReferenceIdeal Cert.ReferenceIdeal.Gen Cert.ReferenceIdeal.ReadP Idealize.ShloMosaic Idealize.ShloMosaic.ValueIdx
open Cert.KernelIdeal.Run (kPool kConv kDinvCol kB1Row kScaleRow kBetaRow kClsbRow)

abbrev Classifier := (⟨S128x10, .f32⟩ : BufTy).Contents (Elt Ideal)
abbrev Vec10 := (⟨S10, .f32⟩ : BufTy).Contents (Elt Ideal)
abbrev Pooled := (⟨S512x128, .f32⟩ : BufTy).Contents (Elt Ideal)
abbrev Scores := (⟨S512x10, .f32⟩ : BufTy).Contents (Elt Ideal)

/-- The kernel's bias row reads the bias. -/
theorem kB1Row_apply (b : Vec128) (k : Fin 128) : (kB1Row b (ix2 0 k) : EReal) = b (ix1 k) := by
  unfold Cert.KernelIdeal.Run.kB1Row
  exact shapeCast_a_1a_apply _ _ 0 k

/-- The kernel's shift row reads the shift. -/
theorem kBetaRow_apply (b : Vec128) (k : Fin 128) : (kBetaRow b (ix2 0 k) : EReal) = b (ix1 k) := by
  unfold Cert.KernelIdeal.Run.kBetaRow
  exact shapeCast_a_1a_apply _ _ 0 k

/-- The kernel's scale row reads the reference's scale: the weight over the square root of the same constant. -/
theorem kScaleRow_apply (w : Vec128) (k : Fin 128) : (kScaleRow w (ix2 0 k) : EReal) = val_main_v50 (F := Ideal) w (ix1 k) := by
  unfold Cert.KernelIdeal.Run.kScaleRow
  rw [shapeCast_a_1a_apply]
  rfl

/-- The kernel's classifier-bias row reads the bias. -/
theorem kClsbRow_apply (b : Vec10) (c : Fin 10) : (kClsbRow b (ix2 0 c) : EReal) = b (ix1 c) := by
  unfold Cert.KernelIdeal.Run.kClsbRow
  exact shapeCast_a_1a_apply _ _ 0 c

/-- The kernel's pooled rows, as its program computes them from the argument arrays. -/
def kernelPooled (x0 : NodeTable) (x1 : EdgeIdx) (x2 : Batch) (x3 : Weights) (x4 x5 x6 : Vec128) (x7 : Weights) (x8 : Vec128) : Pooled :=
  kPool x1 x2 x8 (kConv x1 (Layers.activatedProduct (kConv x1 (Layers.scaledProduct x0 x3 (kDinvCol x1))) (kDinvCol x1)
    (kB1Row x4) (kScaleRow x5) (kBetaRow x6) x7))

/-- The kernel's output, as its program computes it from the argument arrays. -/
def kernelOut (x0 : NodeTable) (x1 : EdgeIdx) (x2 : Batch) (x3 : Weights) (x4 x5 x6 : Vec128) (x7 : Weights) (x8 : Vec128)
    (x9 : Classifier) (x10 : Vec10) : Scores :=
  Layers.logSoftmax (kernelPooled x0 x1 x2 x3 x4 x5 x6 x7 x8) x9 (kClsbRow x10)

/-- THE POOLED ROWS: the kernel's are the reference's. -/
theorem pooled_eq (x0 : NodeTable) (x1 : EdgeIdx) (x2 : Batch) (x3 : Weights) (x4 x5 x6 : Vec128) (x7 : Weights) (x8 : Vec128) :
    kernelPooled x0 x1 x2 x3 x4 x5 x6 x7 x8 = val_main_v86 (F := Ideal) x0 x1 x2 x3 x4 x5 x6 x7 x8 := by
  funext j
  obtain ⟨g, k, rfl⟩ : ∃ (g : Fin 512) (k : Fin 128), j = ix2 g k := ⟨j 0, j 1, eq_ix2 j⟩
  unfold kernelPooled
  refine pool_eq x0 x1 x2 x3 x4 x5 x6 x7 x8 _ (fun n k' => ?_) g k
  rw [kConv_eq, kConv_eq]
  exact second_sum x0 x1 x3 x4 x5 x6 x7 (kDinvCol x1) (kB1Row x4) (kScaleRow x5) (kBetaRow x6)
    (kDinvCol_apply x1) (kB1Row_apply x4) (kScaleRow_apply x5) (kBetaRow_apply x6) n k'

/-- THE OUTPUT: the kernel's is the reference's. -/
theorem out_final (x0 : NodeTable) (x1 : EdgeIdx) (x2 : Batch) (x3 : Weights) (x4 x5 x6 : Vec128) (x7 : Weights) (x8 : Vec128)
    (x9 : Classifier) (x10 : Vec10) :
    kernelOut x0 x1 x2 x3 x4 x5 x6 x7 x8 x9 x10 = val_main_v91 (F := Ideal) x0 x1 x2 x3 x4 x5 x6 x7 x8 x9 x10 := by
  funext j
  obtain ⟨g, c, rfl⟩ : ∃ (g : Fin 512) (c : Fin 10), j = ix2 g c := ⟨j 0, j 1, eq_ix2 j⟩
  unfold kernelOut
  exact out_eq x0 x1 x2 x3 x4 x5 x6 x7 x8 x9 x10 _ _
    (fun g' k => congrFun (pooled_eq x0 x1 x2 x3 x4 x5 x6 x7 x8) (ix2 g' k)) (kClsbRow_apply x10) g c

end Cert.Bridge

end
-- ==== Proof.lean ====
/-
  A two-layer graph convolution with mean pooling and a classifier, computed two ways.

  The reference scales every message on an edge by the product of the degree factors of its two end nodes, sums the
  messages into their target nodes, adds the bias, and after the second layer averages the node rows of each graph
  (the bias already inside the average) before the classifier and the logarithm of the softmax.

  The kernel scales each node's row by the node's own degree factor inside its first two matrix-product regions,
  sums the gathered rows unscaled, and applies the target node's degree factor afterwards (inside the second region,
  and before the pooling); it adds the second bias after the average, to the graphs that have a node.

  The two agree on the extended reals with no assumption on the inputs, integer or float. Every message summed into
  node r has target r, so the second factor of its scale is the same D(r) across the sum; D(r) is the reciprocal
  square root of a positive count, or zero: a non-negative real, and a non-negative real factor passes through a
  finite sum of extended reals whatever the summands are. In the pooled mean the divisor is max(c, 1) for a count c,
  a positive real, so dividing distributes over (sum + c · bias); with no member the sum is empty and both sides are
  zero. Matrix products, the rectifier, and the logarithm of the softmax are the same exact functions on both sides
  (a change of float format is the identity at the ideal reading). The gathers read the same clamped rows on both
  sides, and the scatters drop the same out-of-range rows, so no range assumption on the indices is needed either.

  The kernel's run and its results are read off the generated frame of its three regions and the host operations
  between them; the reference's run is its generated run. The claims follow.
-/
import proofs.«168218_j3058016714895_2_alg».proof.Defs
import proofs.«168218_j3058016714895_2_alg».proof.Proof.Gen.Kernel
import proofs.«168218_j3058016714895_2_alg».proof.Proof.Gen.Kernel.Skeleton
import proofs.«168218_j3058016714895_2_alg».proof.Proof.Gen.Kernel.Launch
import proofs.«168218_j3058016714895_2_alg».proof.Proof.Gen.Kernel.Points
import proofs.«168218_j3058016714895_2_alg».proof.Proof.Gen.Kernel.Frame
import proofs.«168218_j3058016714895_2_alg».proof.Proof.Gen.KernelIdeal
import proofs.«168218_j3058016714895_2_alg».proof.Proof.Gen.KernelIdeal.Skeleton
import proofs.«168218_j3058016714895_2_alg».proof.Proof.Gen.KernelIdeal.Launch
import proofs.«168218_j3058016714895_2_alg».proof.Proof.Gen.KernelIdeal.Points
import proofs.«168218_j3058016714895_2_alg».proof.Proof.Gen.KernelIdeal.Frame
import proofs.«168218_j3058016714895_2_alg».proof.Proof.Gen.ReferenceIdeal
import proofs.«168218_j3058016714895_2_alg».proof.Proof.Gen.Pre_finite_inputs
import proofs.«168218_j3058016714895_2_alg».proof.Proof.RunP
import proofs.«168218_j3058016714895_2_alg».proof.Proof.ReadP
import proofs.«168218_j3058016714895_2_alg».proof.Proof.KernelWalk
import proofs.«168218_j3058016714895_2_alg».proof.Proof.BridgeFinal
import Idealize.ShloMosaic.Adequacy
import Idealize.ShloMosaic.Init

noncomputable section

namespace Cert.Proof

open Idealize.ShloMosaic Idealize.SL.Sem

/-- The printed kernel runs and leaves its arguments as launched: its generated frame. -/
theorem frame_kernel : Cert.frame_Kernel := fun m ρ _ => Cert.Kernel.Gen.frame m ρ

/-- The idealized kernel runs and leaves its arguments as launched: its generated frame. -/
theorem frame_kernelIdeal : Cert.frame_KernelIdeal := fun m ρ _ => Cert.KernelIdeal.Gen.frame m ρ

/-- The reference runs and leaves its arguments as launched: its run, with the results forgotten. -/
theorem frame_reference : Cert.frame_ReferenceIdeal := fun m ρ _ =>
  (θ_run Cert.ReferenceIdeal.defs _ _).mono (fun _ h c => (h c).2.2) (Cert.ReferenceIdeal.ValueP.run (F := Ideal) m ρ)

/-- The idealization rewrote no operation. -/
theorem preserves : Cert.preserves_Kernel_KernelIdeal := trivial

/-- From memories agreeing on the arguments both programs run, and end with the same output scores and the same pooled
    rows: the kernel's two results as its regions and host operations compute them are the reference's two results as
    functions of the arguments. -/
theorem algebraic : Cert.algebraic_KernelIdeal_ReferenceIdeal := by
  intro m ρ m' ρ' _ hagree
  refine ⟨fun c => Cert.KernelIdeal.Gen.W10 m ρ c (Proc.devRef .tc Cert.KernelIdeal.main_v70),
    fun c => Cert.KernelIdeal.Gen.W10 m ρ c (Proc.devRef .tc Cert.KernelIdeal.main_v68),
    Cert.KernelIdeal.Run.run_values m ρ, ?_⟩
  refine (θ_run Cert.ReferenceIdeal.defs _ _).mono (fun _ h c => ⟨(h c).1.trans ?_, (h c).2.1.trans ?_, (h c).2.2⟩)
    (Cert.ReferenceIdeal.ValueP.run (F := Ideal) m' ρ')
  · obtain ⟨h0, h1, h2, h3, h4, h5, h6, h7, h8, h9, h10⟩ := hagree c
    rw [Cert.ReferenceIdeal.ReadP.val_main_v91_eq, h0, h1, h2, h3, h4, h5, h6, h7, h8, h9, h10]
    refine Eq.trans ?_ (Cert.KernelIdeal.Run.result_out m ρ c).symm
    exact (Cert.Bridge.out_final _ _ _ _ _ _ _ _ _ _ _).symm
  · obtain ⟨h0, h1, h2, h3, h4, h5, h6, h7, h8, _, _⟩ := hagree c
    rw [Cert.ReferenceIdeal.ReadP.val_main_v86_eq, h0, h1, h2, h3, h4, h5, h6, h7, h8]
    refine Eq.trans ?_ (Cert.KernelIdeal.Run.result_g m ρ c).symm
    exact (Cert.Bridge.pooled_eq _ _ _ _ _ _ _ _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
